-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x24 : Shape := ⟨2, ![262144, 24]⟩
abbrev S100x24 : Shape := ⟨2, ![100, 24]⟩
abbrev S100 : Shape := ⟨1, ![100]⟩
abbrev S100x100 : Shape := ⟨2, ![100, 100]⟩
abbrev S6x100 : Shape := ⟨2, ![6, 100]⟩
abbrev S6 : Shape := ⟨1, ![6]⟩
abbrev S21x100 : Shape := ⟨2, ![21, 100]⟩
abbrev S21 : Shape := ⟨1, ![21]⟩
abbrev S_ : Shape := ⟨0, ![]⟩

class Facts : Prop where
  bcast_S_S262144x24 : S_.BroadcastsInDim S262144x24 (![] : Fin 0 → Fin S262144x24.rank)
  reducesTo_S262144x24_S_d0_1 : S262144x24.ReducesTo [0, 1] S_
  h_S_ : 0 < S_.numel
  bcast_S_S100x24 : S_.BroadcastsInDim S100x24 (![] : Fin 0 → Fin S100x24.rank)
  reducesTo_S100x24_S_d0_1 : S100x24.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S6x100 : S_.BroadcastsInDim S6x100 (![] : Fin 0 → Fin S6x100.rank)
  reducesTo_S6x100_S_d0_1 : S6x100.ReducesTo [0, 1] S_
  bcast_S_S6 : S_.BroadcastsInDim S6 (![] : Fin 0 → Fin S6.rank)
  reducesTo_S6_S_d0 : S6.ReducesTo [0] S_
  bcast_S_S21x100 : S_.BroadcastsInDim S21x100 (![] : Fin 0 → Fin S21x100.rank)
  reducesTo_S21x100_S_d0_1 : S21x100.ReducesTo [0, 1] S_
  bcast_S_S21 : S_.BroadcastsInDim S21 (![] : Fin 0 → Fin S21.rank)
  reducesTo_S21_S_d0 : S21.ReducesTo [0] S_

variable [Facts]

def fn_part2 {F : FTy → Type} [FloatOps F] (main_arg7 : FVec F S21x100 .f32) (main_arg8 : FVec F S21 .f32) (main_v33 : IVec S_ 1) : IVec S_ 1 :=
  let main_v34 : FVec F S21x100 .f32 := Host.absf main_arg7
  let main_cst_12 : FVec F S_ .f32 := constant S_ .f32 0x7F800000#32
  let main_v35 : FVec F S21x100 .f32 := broadcastInDim S21x100 ![] bcast_S_S21x100 main_cst_12
  let main_v36 : IVec S21x100 1 := cmpf .olt main_v34 main_v35
  let main_c_13 : IVec S_ 1 := constantI S_ 1 1#1
  let main_v37 : IVec S_ 1 := (fun x v => Host.reduce IntOp.andi x v reducesTo_S21x100_S_d0_1 h_S_) main_v36 main_c_13
  let main_v38 : IVec S_ 1 := andi main_v33 main_v37
  let main_v39 : FVec F S21 .f32 := Host.absf main_arg8
  let main_cst_14 : FVec F S_ .f32 := constant S_ .f32 0x7F800000#32
  let main_v40 : FVec F S21 .f32 := broadcastInDim S21 ![] bcast_S_S21 main_cst_14
  let main_v41 : IVec S21 1 := cmpf .olt main_v39 main_v40
  let main_c_15 : IVec S_ 1 := constantI S_ 1 1#1
  let main_v42 : IVec S_ 1 := (fun x v => Host.reduce IntOp.andi x v reducesTo_S21_S_d0 h_S_) main_v41 main_c_15
  let main_v43 : IVec S_ 1 := andi main_v38 main_v42
  main_v43

def fn_part1 {F : FTy → Type} [FloatOps F] (main_arg4 : FVec F S100 .f32) (main_arg5 : FVec F S6x100 .f32) (main_arg6 : FVec F S6 .f32) (main_arg7 : FVec F S21x100 .f32) (main_arg8 : FVec F S21 .f32) (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S6x100 .f32 := Host.absf main_arg5
  let main_cst_8 : FVec F S_ .f32 := constant S_ .f32 0x7F800000#32
  let main_v25 : FVec F S6x100 .f32 := broadcastInDim S6x100 ![] bcast_S_S6x100 main_cst_8
  let main_v26 : IVec S6x100 1 := cmpf .olt main_v24 main_v25
  let main_c_9 : IVec S_ 1 := constantI S_ 1 1#1
  let main_v27 : IVec S_ 1 := (fun x v => Host.reduce IntOp.andi x v reducesTo_S6x100_S_d0_1 h_S_) main_v26 main_c_9
  let main_v28 : IVec S_ 1 := andi main_v23 main_v27
  let main_v29 : FVec F S6 .f32 := Host.absf main_arg6
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  fn_part2 (F := F) main_arg7 main_arg8 main_v33

def fn {F : FTy → Type} [FloatOps F] (main_arg0 : FVec F S262144x24 .f32) (main_arg1 : FVec F S100x24 .f32) (main_arg2 : FVec F S100 .f32) (main_arg3 : FVec F S100x100 .f32) (main_arg4 : FVec F S100 .f32) (main_arg5 : FVec F S6x100 .f32) (main_arg6 : FVec F S6 .f32) (main_arg7 : FVec F S21x100 .f32) (main_arg8 : FVec F S21 .f32) : IVec S_ 1 :=
  let main_v0 : FVec F S262144x24 .f32 := Host.absf main_arg0
  let main_cst : FVec F S_ .f32 := constant S_ .f32 0x7F800000#32
  let main_v1 : FVec F S262144x24 .f32 := broadcastInDim S262144x24 ![] bcast_S_S262144x24 main_cst
  let main_v2 : IVec S262144x24 1 := cmpf .olt main_v0 main_v1
  let main_c : IVec S_ 1 := constantI S_ 1 1#1
  let main_v3 : IVec S_ 1 := (fun x v => Host.reduce IntOp.andi x v reducesTo_S262144x24_S_d0_1 h_S_) main_v2 main_c
  let main_v4 : FVec F S100x24 .f32 := Host.absf main_arg1
  let main_cst_0 : FVec F S_ .f32 := constant S_ .f32 0x7F800000#32
  let main_v5 : FVec F S100x24 .f32 := broadcastInDim S100x24 ![] bcast_S_S100x24 main_cst_0
  let main_v6 : IVec S100x24 1 := cmpf .olt main_v4 main_v5
  let main_c_1 : IVec S_ 1 := constantI S_ 1 1#1
  let main_v7 : IVec S_ 1 := (fun x v => Host.reduce IntOp.andi x v reducesTo_S100x24_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x100 .f32 := Host.absf main_arg3
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_arg4 main_arg5 main_arg6 main_arg7 main_arg8 main_v13 main_v16
-- ==== Kernel.lean ====
abbrev S262144x24 : Shape := ⟨2, ![262144, 24]⟩
abbrev S100x24 : Shape := ⟨2, ![100, 24]⟩
abbrev S100 : Shape := ⟨1, ![100]⟩
abbrev S100x100 : Shape := ⟨2, ![100, 100]⟩
abbrev S6x100 : Shape := ⟨2, ![6, 100]⟩
abbrev S6 : Shape := ⟨1, ![6]⟩
abbrev S21x100 : Shape := ⟨2, ![21, 100]⟩
abbrev S21 : Shape := ⟨1, ![21]⟩
abbrev S21x36 : Shape := ⟨2, ![21, 36]⟩
abbrev S262144x6 : Shape := ⟨2, ![262144, 6]⟩
abbrev S262144x36 : Shape := ⟨2, ![262144, 36]⟩
abbrev S2048x24 : Shape := ⟨2, ![2048, 24]⟩
abbrev S2048x6 : Shape := ⟨2, ![2048, 6]⟩
abbrev S2048x36 : Shape := ⟨2, ![2048, 36]⟩
abbrev S2048x100 : Shape := ⟨2, ![2048, 100]⟩
abbrev S1x100 : Shape := ⟨2, ![1, 100]⟩
abbrev S1x6 : Shape := ⟨2, ![1, 6]⟩
abbrev S2048x21 : Shape := ⟨2, ![2048, 21]⟩
abbrev S1x21 : Shape := ⟨2, ![1, 21]⟩
abbrev S262144x6x6 : Shape := ⟨3, ![262144, 6, 6]⟩

abbrev nBuf : Space → Nat
  | .hbm => 13
  | .vmem => 15
  | .smem => 0
  | _ => 0

abbrev bufTy : (tb : Table) → Fin (tcTables nBuf tb) → BufTy
  | .hbm, ⟨0, _⟩ => ⟨S262144x24, .f32⟩
  | .hbm, ⟨1, _⟩ => ⟨S100x24, .f32⟩
  | .hbm, ⟨2, _⟩ => ⟨S100, .f32⟩
  | .hbm, ⟨3, _⟩ => ⟨S100x100, .f32⟩
  | .hbm, ⟨4, _⟩ => ⟨S100, .f32⟩
  | .hbm, ⟨5, _⟩ => ⟨S6x100, .f32⟩
  | .hbm, ⟨6, _⟩ => ⟨S6, .f32⟩
  | .hbm, ⟨7, _⟩ => ⟨S21x100, .f32⟩
  | .hbm, ⟨8, _⟩ => ⟨S21, .f32⟩
  | .hbm, ⟨9, _⟩ => ⟨S21x36, .f32⟩
  | .hbm, ⟨10, _⟩ => ⟨S262144x6, .f32⟩
  | .hbm, ⟨11, _⟩ => ⟨S262144x36, .f32⟩
  | .hbm, ⟨12, _⟩ => ⟨S262144x6x6, .f32⟩
  | .local _ .vmem, ⟨0, _⟩ => ⟨S2048x24, .f32⟩
  | .local _ .vmem, ⟨1, _⟩ => ⟨S2048x24, .f32⟩
  | .local _ .vmem, ⟨2, _⟩ => ⟨S100x24, .f32⟩
  | .local _ .vmem, ⟨3, _⟩ => ⟨S100, .f32⟩
  | .local _ .vmem, ⟨4, _⟩ => ⟨S100x100, .f32⟩
  | .local _ .vmem, ⟨5, _⟩ => ⟨S100, .f32⟩
  | .local _ .vmem, ⟨6, _⟩ => ⟨S6x100, .f32⟩
  | .local _ .vmem, ⟨7, _⟩ => ⟨S6, .f32⟩
  | .local _ .vmem, ⟨8, _⟩ => ⟨S21x100, .f32⟩
  | .local _ .vmem, ⟨9, _⟩ => ⟨S21, .f32⟩
  | .local _ .vmem, ⟨10, _⟩ => ⟨S21x36, .f32⟩
  | .local _ .vmem, ⟨11, _⟩ => ⟨S2048x6, .f32⟩
  | .local _ .vmem, ⟨12, _⟩ => ⟨S2048x6, .f32⟩
  | .local _ .vmem, ⟨13, _⟩ => ⟨S2048x36, .f32⟩
  | .local _ .vmem, ⟨14, _⟩ => ⟨S2048x36, .f32⟩
  | _, _ => ⟨S262144x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S21x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S21 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S21x36 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x6 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x36 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S2048x24_S2048x24_0_0 : ∀ a, (![0, 0] : Fin 2 → Nat) a + S2048x24.size a ≤ S2048x24.size a
  h_S2048x24 : 0 < S2048x24.numel
  bitsLt_bf16_f32 : FTy.bits .bf16 < FTy.bits .f32
  inb_S100x24_S100x24_0_0 : ∀ a, (![0, 0] : Fin 2 → Nat) a + S100x24.size a ≤ S100x24.size a
  h_S100x24 : 0 < S100x24.numel
  inb_S100_S100_0 : ∀ a, (![0] : Fin 1 → Nat) a + S100.size a ≤ S100.size a
  h_S100 : 0 < S100.numel
  shapeCasts_S100_S1x100 : S100.ShapeCasts S1x100
  broadcasts_S1x100_S2048x100 : S1x100.Broadcasts S2048x100
  inb_S100x100_S100x100_0_0 : ∀ a, (![0, 0] : Fin 2 → Nat) a + S100x100.size a ≤ S100x100.size a
  h_S100x100 : 0 < S100x100.numel
  inb_S6x100_S6x100_0_0 : ∀ a, (![0, 0] : Fin 2 → Nat) a + S6x100.size a ≤ S6x100.size a
  h_S6x100 : 0 < S6x100.numel
  inb_S6_S6_0 : ∀ a, (![0] : Fin 1 → Nat) a + S6.size a ≤ S6.size a
  h_S6 : 0 < S6.numel
  shapeCasts_S6_S1x6 : S6.ShapeCasts S1x6
  broadcasts_S1x6_S2048x6 : S1x6.Broadcasts S2048x6
  inb_S2048x6_S2048x6_0_0 : ∀ a, (![0, 0] : Fin 2 → Nat) a + S2048x6.size a ≤ S2048x6.size a
  h_S2048x6 : 0 < S2048x6.numel
  inb_S21x100_S21x100_0_0 : ∀ a, (![0, 0] : Fin 2 → Nat) a + S21x100.size a ≤ S21x100.size a
  h_S21x100 : 0 < S21x100.numel
  inb_S21_S21_0 : ∀ a, (![0] : Fin 1 → Nat) a + S21.size a ≤ S21.size a
  h_S21 : 0 < S21.numel
  shapeCasts_S21_S1x21 : S21.ShapeCasts S1x21
  broadcasts_S1x21_S2048x21 : S1x21.Broadcasts S2048x21
  inb_S21x36_S21x36_0_0 : ∀ a, (![0, 0] : Fin 2 → Nat) a + S21x36.size a ≤ S21x36.size a
  h_S21x36 : 0 < S21x36.numel
  inb_S2048x36_S2048x36_0_0 : ∀ a, (![0, 0] : Fin 2 → Nat) a + S2048x36.size a ≤ S2048x36.size a
  h_S2048x36 : 0 < S2048x36.numel
  shapeCasts_S262144x36_S262144x6x6 : S262144x36.ShapeCasts S262144x6x6
  dot_S2048x24_S100x24_S2048x100_1_1_0_0_n_n_wf : DotDims.WF S2048x24 S100x24 S2048x100 [1] [1] [0] [0] [] []
  dot_S2048x100_S100x100_S2048x100_1_1_0_0_n_n_wf : DotDims.WF S2048x100 S100x100 S2048x100 [1] [1] [0] [0] [] []
  dot_S2048x100_S6x100_S2048x6_1_1_0_0_n_n_wf : DotDims.WF S2048x100 S6x100 S2048x6 [1] [1] [0] [0] [] []
  dot_S2048x100_S21x100_S2048x21_1_1_0_0_n_n_wf : DotDims.WF S2048x100 S21x100 S2048x21 [1] [1] [0] [0] [] []
  dot_S2048x21_S21x36_S2048x36_1_0_0_1_n_n_wf : DotDims.WF S2048x21 S21x36 S2048x36 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x24.size a ≤ S262144x24.size a
  hwx0_0 : ∀ i : grid0.Coords, EltTy.bits .f32 = 32 ∨ (Rect.block (s := S262144x24) S2048x24.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x24.size a ≤ S100x24.size a
  hwx0_1 : ∀ i : grid0.Coords, EltTy.bits .f32 = 32 ∨ (Rect.block (s := S100x24) S100x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100.size a ≤ S100.size a
  hwx0_2 : ∀ i : grid0.Coords, EltTy.bits .f32 = 32 ∨ (Rect.block (s := S100) S100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x100.size a ≤ S100x100.size a
  hwx0_3 : ∀ i : grid0.Coords, EltTy.bits .f32 = 32 ∨ (Rect.block (s := S100x100) S100x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100.size a ≤ S100.size a
  hwx0_4 : ∀ i : grid0.Coords, EltTy.bits .f32 = 32 ∨ (Rect.block (s := S100) S100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x100.size a ≤ S6x100.size a
  hwx0_5 : ∀ i : grid0.Coords, EltTy.bits .f32 = 32 ∨ (Rect.block (s := S6x100) S6x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6.size a ≤ S6.size a
  hwx0_6 : ∀ i : grid0.Coords, EltTy.bits .f32 = 32 ∨ (Rect.block (s := S6) S6.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S21x100.size a ≤ S21x100.size a
  hwx0_7 : ∀ i : grid0.Coords, EltTy.bits .f32 = 32 ∨ (Rect.block (s := S21x100) S21x100.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S21.size a ≤ S21.size a
  hwx0_8 : ∀ i : grid0.Coords, EltTy.bits .f32 = 32 ∨ (Rect.block (s := S21) S21.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S21x36.size a ≤ S21x36.size a
  hwx0_9 : ∀ i : grid0.Coords, EltTy.bits .f32 = 32 ∨ (Rect.block (s := S21x36) S21x36.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x6.size a ≤ S262144x6.size a
  hwx0_10 : ∀ i : grid0.Coords, EltTy.bits .f32 = 32 ∨ (Rect.block (s := S262144x6) S2048x6.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x36.size a ≤ S262144x36.size a
  hwx0_11 : ∀ i : grid0.Coords, EltTy.bits .f32 = 32 ∨ (Rect.block (s := S262144x36) S2048x36.size (cc0_transform_11 i) (hinb0_11 i)).WholeWords (EltTy.packing .f32)

variable [Facts₀]

def dot_S2048x24_S100x24_S2048x100_1_1_0_0_n_n : DotDims S2048x24 S100x24 S2048x100 where
  lhsContracting := [1]
  rhsContracting := [1]
  lhsNonContracting := [0]
  rhsNonContracting := [0]
  lhsBatch := []
  rhsBatch := []
  wf := dot_S2048x24_S100x24_S2048x100_1_1_0_0_n_n_wf
def dot_S2048x100_S100x100_S2048x100_1_1_0_0_n_n : DotDims S2048x100 S100x100 S2048x100 where
  lhsContracting := [1]
  rhsContracting := [1]
  lhsNonContracting := [0]
  rhsNonContracting := [0]
  lhsBatch := []
  rhsBatch := []
  wf := dot_S2048x100_S100x100_S2048x100_1_1_0_0_n_n_wf
def dot_S2048x100_S6x100_S2048x6_1_1_0_0_n_n : DotDims S2048x100 S6x100 S2048x6 where
  lhsContracting := [1]
  rhsContracting := [1]
  lhsNonContracting := [0]
  rhsNonContracting := [0]
  lhsBatch := []
  rhsBatch := []
  wf := dot_S2048x100_S6x100_S2048x6_1_1_0_0_n_n_wf
def dot_S2048x100_S21x100_S2048x21_1_1_0_0_n_n : DotDims S2048x100 S21x100 S2048x21 where
  lhsContracting := [1]
  rhsContracting := [1]
  lhsNonContracting := [0]
  rhsNonContracting := [0]
  lhsBatch := []
  rhsBatch := []
  wf := dot_S2048x100_S21x100_S2048x21_1_1_0_0_n_n_wf
def dot_S2048x21_S21x36_S2048x36_1_0_0_1_n_n : DotDims S2048x21 S21x36 S2048x36 where
  lhsContracting := [1]
  rhsContracting := [0]
  lhsNonContracting := [0]
  rhsNonContracting := [1]
  lhsBatch := []
  rhsBatch := []
  wf := dot_S2048x21_S21x36_S2048x36_1_0_0_1_n_n_wf

abbrev win0_0 : Pipeline.Window sig grid0 :=
  Pipeline.Window.ofSpec (Memref.whole main_arg0) S2048x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S100x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S6x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S6.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S21x100.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S21.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_cst) S21x36.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S2048x6.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S2048x36.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S262144x24 : Shape := ⟨2, ![262144, 24]⟩
abbrev S100x24 : Shape := ⟨2, ![100, 24]⟩
abbrev S100 : Shape := ⟨1, ![100]⟩
abbrev S100x100 : Shape := ⟨2, ![100, 100]⟩
abbrev S6x100 : Shape := ⟨2, ![6, 100]⟩
abbrev S6 : Shape := ⟨1, ![6]⟩
abbrev S21x100 : Shape := ⟨2, ![21, 100]⟩
abbrev S21 : Shape := ⟨1, ![21]⟩
abbrev S24x100 : Shape := ⟨2, ![24, 100]⟩
abbrev S262144x100 : Shape := ⟨2, ![262144, 100]⟩
abbrev S1x100 : Shape := ⟨2, ![1, 100]⟩
abbrev S_ : Shape := ⟨0, ![]⟩
abbrev S100x6 : Shape := ⟨2, ![100, 6]⟩
abbrev S262144x6 : Shape := ⟨2, ![262144, 6]⟩
abbrev S1x6 : Shape := ⟨2, ![1, 6]⟩
abbrev S100x21 : Shape := ⟨2, ![100, 21]⟩
abbrev S262144x21 : Shape := ⟨2, ![262144, 21]⟩
abbrev S1x21 : Shape := ⟨2, ![1, 21]⟩
abbrev S6x6 : Shape := ⟨2, ![6, 6]⟩
abbrev S36 : Shape := ⟨1, ![36]⟩
abbrev S36x1 : Shape := ⟨2, ![36, 1]⟩
abbrev S262144x6x6 : Shape := ⟨3, ![262144, 6, 6]⟩
abbrev S21x1 : Shape := ⟨2, ![21, 1]⟩
abbrev S21x2 : Shape := ⟨2, ![21, 2]⟩

abbrev nBuf : Space → Nat
  | .hbm => 187
  | .vmem => 0
  | .smem => 0
  | _ => 0

abbrev hbmTy0_0 (i : Nat) : BufTy := match i % 128 with
  | 0 => ⟨S262144x24, .f32⟩
  | 1 => ⟨S100x24, .f32⟩
  | 2 => ⟨S100, .f32⟩
  | 3 => ⟨S100x100, .f32⟩
  | 4 => ⟨S100, .f32⟩
  | 5 => ⟨S6x100, .f32⟩
  | 6 => ⟨S6, .f32⟩
  | 7 => ⟨S21x100, .f32⟩
  | 8 => ⟨S21, .f32⟩
  | 9 => ⟨S24x100, .f32⟩
  | 10 => ⟨S262144x100, .f32⟩
  | 11 => ⟨S1x100, .f32⟩
  | 12 => ⟨S262144x100, .f32⟩
  | 13 => ⟨S262144x100, .f32⟩
  | 14 => ⟨S_, .f32⟩
  | 15 => ⟨S262144x100, .f32⟩
  | 16 => ⟨S262144x100, .f32⟩
  | 17 => ⟨S100x100, .f32⟩
  | 18 => ⟨S262144x100, .f32⟩
  | 19 => ⟨S1x100, .f32⟩
  | 20 => ⟨S262144x100, .f32⟩
  | 21 => ⟨S262144x100, .f32⟩
  | 22 => ⟨S_, .f32⟩
  | 23 => ⟨S262144x100, .f32⟩
  | 24 => ⟨S262144x100, .f32⟩
  | 25 => ⟨S100x6, .f32⟩
  | 26 => ⟨S262144x6, .f32⟩
  | 27 => ⟨S1x6, .f32⟩
  | 28 => ⟨S262144x6, .f32⟩
  | 29 => ⟨S262144x6, .f32⟩
  | 30 => ⟨S262144x6, .f32⟩
  | 31 => ⟨S100x21, .f32⟩
  | 32 => ⟨S262144x21, .f32⟩
  | 33 => ⟨S1x21, .f32⟩
  | 34 => ⟨S262144x21, .f32⟩
  | 35 => ⟨S262144x21, .f32⟩
  | 36 => ⟨S_, .f32⟩
  | 37 => ⟨S262144x21, .f32⟩
  | 38 => ⟨S262144x21, .f32⟩
  | 39 => ⟨S262144x21, .f32⟩
  | 40 => ⟨S262144x21, .f32⟩
  | 41 => ⟨S262144x21, .i1⟩
  | 42 => ⟨S262144x21, .f32⟩
  | 43 => ⟨S262144x21, .f32⟩
  | 44 => ⟨S262144x21, .f32⟩
  | 45 => ⟨S262144x21, .f32⟩
  | 46 => ⟨S262144x21, .f32⟩
  | 47 => ⟨S262144x21, .f32⟩
  | 48 => ⟨S262144x21, .f32⟩
  | 49 => ⟨S262144x21, .f32⟩
  | 50 => ⟨S_, .f32⟩
  | 51 => ⟨S6x6, .f32⟩
  | 52 => ⟨S6x6, .i32⟩
  | 53 => ⟨S_, .i32⟩
  | 54 => ⟨S6x6, .i32⟩
  | 55 => ⟨S6x6, .i32⟩
  | 56 => ⟨S6x6, .i32⟩
  | 57 => ⟨S6x6, .i1⟩
  | 58 => ⟨S_, .f32⟩
  | 59 => ⟨S6x6, .f32⟩
  | 60 => ⟨S6x6, .f32⟩
  | 61 => ⟨S_, .f32⟩
  | 62 => ⟨S6x6, .f32⟩
  | 63 => ⟨S6x6, .i1⟩
  | 64 => ⟨S36, .i1⟩
  | 65 => ⟨S36, .i32⟩
  | 66 => ⟨S_, .i32⟩
  | 67 => ⟨S_, .i32⟩
  | 68 => ⟨S36, .i32⟩
  | 69 => ⟨S_, .i32⟩
  | 70 => ⟨S21, .i32⟩
  | 71 => ⟨S_, .i32⟩
  | 72 => ⟨S_, .i32⟩
  | 73 => ⟨S36, .i32⟩
  | 74 => ⟨S36, .i32⟩
  | 75 => ⟨S_, .i32⟩
  | 76 => ⟨S36, .i32⟩
  | 77 => ⟨S36, .i1⟩
  | 78 => ⟨S_, .i32⟩
  | 79 => ⟨S36, .i32⟩
  | 80 => ⟨S36, .i32⟩
  | 81 => ⟨S36, .i32⟩
  | 82 => ⟨S36x1, .i32⟩
  | 83 => ⟨S_, .i32⟩
  | 84 => ⟨S36, .i32⟩
  | 85 => ⟨S21, .i32⟩
  | 86 => ⟨S_, .i32⟩
  | 87 => ⟨S_, .i32⟩
  | 88 => ⟨S21, .i32⟩
  | 89 => ⟨S_, .i32⟩
  | 90 => ⟨S21, .i32⟩
  | 91 => ⟨S21, .i32⟩
  | 92 => ⟨S21, .i32⟩
  | 93 => ⟨S_, .i32⟩
  | 94 => ⟨S21, .i32⟩
  | 95 => ⟨S21, .i1⟩
  | 96 => ⟨S21, .i32⟩
  | 97 => ⟨S21, .i32⟩
  | 98 => ⟨S_, .i32⟩
  | 99 => ⟨S21, .i32⟩
  | 100 => ⟨S21, .i1⟩
  | 101 => ⟨S21, .i1⟩
  | 102 => ⟨S_, .i32⟩
  | 103 => ⟨S21, .i32⟩
  | 104 => ⟨S21, .i32⟩
  | 105 => ⟨S21, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S21, .i32⟩
  | 113 => ⟨S21, .i32⟩
  | 114 => ⟨S_, .i32⟩
  | 115 => ⟨S21, .i32⟩
  | 116 => ⟨S21, .i1⟩
  | 117 => ⟨S_, .i32⟩
  | 118 => ⟨S21, .i32⟩
  | 119 => ⟨S21, .i1⟩
  | 120 => ⟨S_, .i32⟩
  | 121 => ⟨S_, .i1⟩
  | 122 => ⟨S21, .i1⟩
  | 123 => ⟨S21, .i1⟩
  | 124 => ⟨S21, .i1⟩
  | 125 => ⟨S21, .i32⟩
  | 126 => ⟨S21, .i32⟩
  | 127 => ⟨S21, .i32⟩
  | _ => ⟨S262144x24, .f32⟩

abbrev hbmTy0_1 (i : Nat) : BufTy := match i % 128 with
  | 0 => ⟨S_, .i32⟩
  | 1 => ⟨S21, .i32⟩
  | 2 => ⟨S21, .i32⟩
  | 3 => ⟨S21, .i32⟩
  | 4 => ⟨S_, .i32⟩
  | 5 => ⟨S21, .i32⟩
  | 6 => ⟨S21, .i1⟩
  | 7 => ⟨S21, .i32⟩
  | 8 => ⟨S21, .i32⟩
  | 9 => ⟨S_, .i32⟩
  | 10 => ⟨S21, .i32⟩
  | 11 => ⟨S21, .i1⟩
  | 12 => ⟨S21, .i1⟩
  | 13 => ⟨S_, .i32⟩
  | 14 => ⟨S21, .i32⟩
  | 15 => ⟨S21, .i32⟩
  | 16 => ⟨S21, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S21, .i32⟩
  | 24 => ⟨S21, .i32⟩
  | 25 => ⟨S_, .i32⟩
  | 26 => ⟨S21, .i32⟩
  | 27 => ⟨S21, .i1⟩
  | 28 => ⟨S_, .i32⟩
  | 29 => ⟨S21, .i32⟩
  | 30 => ⟨S21, .i1⟩
  | 31 => ⟨S_, .i32⟩
  | 32 => ⟨S_, .i1⟩
  | 33 => ⟨S21, .i1⟩
  | 34 => ⟨S21, .i1⟩
  | 35 => ⟨S21, .i1⟩
  | 36 => ⟨S21, .i32⟩
  | 37 => ⟨S21, .i32⟩
  | 38 => ⟨S21, .i32⟩
  | 39 => ⟨S_, .f32⟩
  | 40 => ⟨S262144x6x6, .f32⟩
  | 41 => ⟨S_, .i32⟩
  | 42 => ⟨S21, .i32⟩
  | 43 => ⟨S21, .i1⟩
  | 44 => ⟨S_, .i32⟩
  | 45 => ⟨S21, .i32⟩
  | 46 => ⟨S21, .i32⟩
  | 47 => ⟨S21, .i32⟩
  | 48 => ⟨S_, .i32⟩
  | 49 => ⟨S21, .i32⟩
  | 50 => ⟨S21, .i1⟩
  | 51 => ⟨S_, .i32⟩
  | 52 => ⟨S21, .i32⟩
  | 53 => ⟨S21, .i32⟩
  | 54 => ⟨S21, .i32⟩
  | 55 => ⟨S21x1, .i32⟩
  | 56 => ⟨S21x1, .i32⟩
  | 57 => ⟨S21x2, .i32⟩
  | 58 => ⟨S262144x6x6, .f32⟩
  | _ => ⟨S262144x24, .f32⟩

abbrev hbmTy (i : Nat) : BufTy := match i / 128 with
  | 0 => hbmTy0_0 i
  | 1 => hbmTy0_1 i
  | _ => ⟨S262144x24, .f32⟩

abbrev bufTy : (tb : Table) → Fin (tcTables nBuf tb) → BufTy
  | .hbm, ⟨i, _⟩ => hbmTy i
  | _, _ => ⟨S262144x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call2_cst : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_v23 : Ref sig .tc := ⟨.hbm, 49, rfl⟩
abbrev main_cst : Ref sig .tc := ⟨.hbm, 50, rfl⟩
abbrev main_v24 : Ref sig .tc := ⟨.hbm, 51, rfl⟩
abbrev main_call3_v0 : Ref sig .tc := ⟨.hbm, 52, rfl⟩
abbrev main_call3_c : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_cst : Ref sig .tc := ⟨.hbm, 58, rfl⟩
abbrev main_call3_v5 : Ref sig .tc := ⟨.hbm, 59, rfl⟩
abbrev main_v25 : Ref sig .tc := ⟨.hbm, 60, rfl⟩
abbrev main_cst_0 : Ref sig .tc := ⟨.hbm, 61, rfl⟩
abbrev main_v26 : Ref sig .tc := ⟨.hbm, 62, rfl⟩
abbrev main_v27 : Ref sig .tc := ⟨.hbm, 63, rfl⟩
abbrev main_call4_v0 : Ref sig .tc := ⟨.hbm, 64, rfl⟩
abbrev main_call4_v1 : Ref sig .tc := ⟨.hbm, 65, rfl⟩
abbrev main_call4_call0_c : Ref sig .tc := ⟨.hbm, 66, rfl⟩
abbrev main_call4_call0_v0 : Ref sig .tc := ⟨.hbm, 67, rfl⟩
abbrev main_v28 : Ref sig .tc := ⟨.hbm, 68, rfl⟩
abbrev main_c : Ref sig .tc := ⟨.hbm, 69, rfl⟩
abbrev main_v29 : Ref sig .tc := ⟨.hbm, 70, rfl⟩
abbrev main_c_1 : Ref sig .tc := ⟨.hbm, 71, rfl⟩
abbrev main_call5_v0 : Ref sig .tc := ⟨.hbm, 72, rfl⟩
abbrev main_call5_v1 : Ref sig .tc := ⟨.hbm, 73, rfl⟩
abbrev main_v30 : Ref sig .tc := ⟨.hbm, 74, rfl⟩
abbrev main_c_2 : Ref sig .tc := ⟨.hbm, 75, rfl⟩
abbrev main_v31 : Ref sig .tc := ⟨.hbm, 76, rfl⟩
abbrev main_v32 : Ref sig .tc := ⟨.hbm, 77, rfl⟩
abbrev main_c_3 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_c_4 : Ref sig .tc := ⟨.hbm, 83, rfl⟩
abbrev main_v37 : Ref sig .tc := ⟨.hbm, 84, rfl⟩
abbrev main_v38 : Ref sig .tc := ⟨.hbm, 85, rfl⟩
abbrev main_call6_call0_c : Ref sig .tc := ⟨.hbm, 86, rfl⟩
abbrev main_call6_call0_v0 : Ref sig .tc := ⟨.hbm, 87, rfl⟩
abbrev main_v39 : Ref sig .tc := ⟨.hbm, 88, rfl⟩
abbrev main_c_5 : Ref sig .tc := ⟨.hbm, 89, rfl⟩
abbrev main_call7_v0 : Ref sig .tc := ⟨.hbm, 90, rfl⟩
abbrev main_call7_v1 : Ref sig .tc := ⟨.hbm, 91, rfl⟩
abbrev main_call7_v2 : Ref sig .tc := ⟨.hbm, 92, rfl⟩
abbrev main_call7_v3 : Ref sig .tc := ⟨.hbm, 93, rfl⟩
abbrev main_call7_v4 : Ref sig .tc := ⟨.hbm, 94, rfl⟩
abbrev main_call7_v5 : Ref sig .tc := ⟨.hbm, 95, rfl⟩
abbrev main_call7_v6 : Ref sig .tc := ⟨.hbm, 96, rfl⟩
abbrev main_call7_v7 : Ref sig .tc := ⟨.hbm, 97, rfl⟩
abbrev main_call7_c : Ref sig .tc := ⟨.hbm, 98, rfl⟩
abbrev main_call7_v8 : Ref sig .tc := ⟨.hbm, 99, rfl⟩
abbrev main_call7_v9 : Ref sig .tc := ⟨.hbm, 100, rfl⟩
abbrev main_call7_v10 : Ref sig .tc := ⟨.hbm, 101, rfl⟩
abbrev main_call7_c_0 : Ref sig .tc := ⟨.hbm, 102, rfl⟩
abbrev main_call7_v11 : Ref sig .tc := ⟨.hbm, 103, rfl⟩
abbrev main_call7_v12 : Ref sig .tc := ⟨.hbm, 104, rfl⟩
abbrev main_v40 : Ref sig .tc := ⟨.hbm, 105, rfl⟩
abbrev main_c_6 : Ref sig .tc := ⟨.hbm, 106, rfl⟩
abbrev main_call8_v0 : Ref sig .tc := ⟨.hbm, 107, rfl⟩
abbrev main_call8_c : Ref sig .tc := ⟨.hbm, 108, rfl⟩
abbrev main_call8_v1 : Ref sig .tc := ⟨.hbm, 109, rfl⟩
abbrev main_call8_c_0 : Ref sig .tc := ⟨.hbm, 110, rfl⟩
abbrev main_call8_v2 : Ref sig .tc := ⟨.hbm, 111, rfl⟩
abbrev main_call8_v3 : Ref sig .tc := ⟨.hbm, 112, rfl⟩
abbrev main_call8_v4 : Ref sig .tc := ⟨.hbm, 113, rfl⟩
abbrev main_call8_c_1 : Ref sig .tc := ⟨.hbm, 114, rfl⟩
abbrev main_call8_v5 : Ref sig .tc := ⟨.hbm, 115, rfl⟩
abbrev main_call8_v6 : Ref sig .tc := ⟨.hbm, 116, rfl⟩
abbrev main_call8_c_2 : Ref sig .tc := ⟨.hbm, 117, rfl⟩
abbrev main_call8_v7 : Ref sig .tc := ⟨.hbm, 118, rfl⟩
abbrev main_call8_v8 : Ref sig .tc := ⟨.hbm, 119, rfl⟩
abbrev main_call8_c_3 : Ref sig .tc := ⟨.hbm, 120, rfl⟩
abbrev main_call8_v9 : Ref sig .tc := ⟨.hbm, 121, rfl⟩
abbrev main_call8_v10 : Ref sig .tc := ⟨.hbm, 122, rfl⟩
abbrev main_call8_v11 : Ref sig .tc := ⟨.hbm, 123, rfl⟩
abbrev main_call8_v12 : Ref sig .tc := ⟨.hbm, 124, rfl⟩
abbrev main_call8_v13 : Ref sig .tc := ⟨.hbm, 125, rfl⟩
abbrev main_call8_v14 : Ref sig .tc := ⟨.hbm, 126, rfl⟩
abbrev main_v41 : Ref sig .tc := ⟨.hbm, 127, rfl⟩
abbrev main_c_7 : Ref sig .tc := ⟨.hbm, 128, rfl⟩
abbrev main_call9_v0 : Ref sig .tc := ⟨.hbm, 129, rfl⟩
abbrev main_call9_v1 : Ref sig .tc := ⟨.hbm, 130, rfl⟩
abbrev main_call9_v2 : Ref sig .tc := ⟨.hbm, 131, rfl⟩
abbrev main_call9_v3 : Ref sig .tc := ⟨.hbm, 132, rfl⟩
abbrev main_call9_v4 : Ref sig .tc := ⟨.hbm, 133, rfl⟩
abbrev main_call9_v5 : Ref sig .tc := ⟨.hbm, 134, rfl⟩
abbrev main_call9_v6 : Ref sig .tc := ⟨.hbm, 135, rfl⟩
abbrev main_call9_v7 : Ref sig .tc := ⟨.hbm, 136, rfl⟩
abbrev main_call9_c : Ref sig .tc := ⟨.hbm, 137, rfl⟩
abbrev main_call9_v8 : Ref sig .tc := ⟨.hbm, 138, rfl⟩
abbrev main_call9_v9 : Ref sig .tc := ⟨.hbm, 139, rfl⟩
abbrev main_call9_v10 : Ref sig .tc := ⟨.hbm, 140, rfl⟩
abbrev main_call9_c_0 : Ref sig .tc := ⟨.hbm, 141, rfl⟩
abbrev main_call9_v11 : Ref sig .tc := ⟨.hbm, 142, rfl⟩
abbrev main_call9_v12 : Ref sig .tc := ⟨.hbm, 143, rfl⟩
abbrev main_v42 : Ref sig .tc := ⟨.hbm, 144, rfl⟩
abbrev main_c_8 : Ref sig .tc := ⟨.hbm, 145, rfl⟩
abbrev main_call10_v0 : Ref sig .tc := ⟨.hbm, 146, rfl⟩
abbrev main_call10_c : Ref sig .tc := ⟨.hbm, 147, rfl⟩
abbrev main_call10_v1 : Ref sig .tc := ⟨.hbm, 148, rfl⟩
abbrev main_call10_c_0 : Ref sig .tc := ⟨.hbm, 149, rfl⟩
abbrev main_call10_v2 : Ref sig .tc := ⟨.hbm, 150, rfl⟩
abbrev main_call10_v3 : Ref sig .tc := ⟨.hbm, 151, rfl⟩
abbrev main_call10_v4 : Ref sig .tc := ⟨.hbm, 152, rfl⟩
abbrev main_call10_c_1 : Ref sig .tc := ⟨.hbm, 153, rfl⟩
abbrev main_call10_v5 : Ref sig .tc := ⟨.hbm, 154, rfl⟩
abbrev main_call10_v6 : Ref sig .tc := ⟨.hbm, 155, rfl⟩
abbrev main_call10_c_2 : Ref sig .tc := ⟨.hbm, 156, rfl⟩
abbrev main_call10_v7 : Ref sig .tc := ⟨.hbm, 157, rfl⟩
abbrev main_call10_v8 : Ref sig .tc := ⟨.hbm, 158, rfl⟩
abbrev main_call10_c_3 : Ref sig .tc := ⟨.hbm, 159, rfl⟩
abbrev main_call10_v9 : Ref sig .tc := ⟨.hbm, 160, rfl⟩
abbrev main_call10_v10 : Ref sig .tc := ⟨.hbm, 161, rfl⟩
abbrev main_call10_v11 : Ref sig .tc := ⟨.hbm, 162, rfl⟩
abbrev main_call10_v12 : Ref sig .tc := ⟨.hbm, 163, rfl⟩
abbrev main_call10_v13 : Ref sig .tc := ⟨.hbm, 164, rfl⟩
abbrev main_call10_v14 : Ref sig .tc := ⟨.hbm, 165, rfl⟩
abbrev main_v43 : Ref sig .tc := ⟨.hbm, 166, rfl⟩
abbrev main_cst_9 : Ref sig .tc := ⟨.hbm, 167, rfl⟩
abbrev main_v44 : Ref sig .tc := ⟨.hbm, 168, rfl⟩
abbrev main_c_10 : Ref sig .tc := ⟨.hbm, 169, rfl⟩
abbrev main_v45 : Ref sig .tc := ⟨.hbm, 170, rfl⟩
abbrev main_v46 : Ref sig .tc := ⟨.hbm, 171, rfl⟩
abbrev main_c_11 : Ref sig .tc := ⟨.hbm, 172, rfl⟩
abbrev main_v47 : Ref sig .tc := ⟨.hbm, 173, rfl⟩
abbrev main_v48 : Ref sig .tc := ⟨.hbm, 174, rfl⟩
abbrev main_v49 : Ref sig .tc := ⟨.hbm, 175, rfl⟩
abbrev main_c_12 : Ref sig .tc := ⟨.hbm, 176, rfl⟩
abbrev main_v50 : Ref sig .tc := ⟨.hbm, 177, rfl⟩
abbrev main_v51 : Ref sig .tc := ⟨.hbm, 178, rfl⟩
abbrev main_c_13 : Ref sig .tc := ⟨.hbm, 179, rfl⟩
abbrev main_v52 : Ref sig .tc := ⟨.hbm, 180, rfl⟩
abbrev main_v53 : Ref sig .tc := ⟨.hbm, 181, rfl⟩
abbrev main_v54 : Ref sig .tc := ⟨.hbm, 182, rfl⟩
abbrev main_v55 : Ref sig .tc := ⟨.hbm, 183, rfl⟩
abbrev main_v56 : Ref sig .tc := ⟨.hbm, 184, rfl⟩
abbrev main_v57 : Ref sig .tc := ⟨.hbm, 185, rfl⟩
abbrev main_v58 : Ref sig .tc := ⟨.hbm, 186, rfl⟩

abbrev nD : Nat := 1
abbrev τ : Topo := Topo.v7x

variable {F : FTy → Type} [FloatOps F]

class Facts₀ : Prop where
  transposes_S100x24_S24x100_1_0 : S100x24.Transposes [1, 0] S24x100
  bcast_S100_S1x100_1 : S100.BroadcastsInDim S1x100 (![1] : Fin 1 → Fin S1x100.rank)
  bcast_S1x100_S262144x100_0_1 : S1x100.BroadcastsInDim S262144x100 (![0, 1] : Fin 2 → Fin S262144x100.rank)
  bcast_S_S262144x100 : S_.BroadcastsInDim S262144x100 (![] : Fin 0 → Fin S262144x100.rank)
  transposes_S100x100_S100x100_1_0 : S100x100.Transposes [1, 0] S100x100
  transposes_S6x100_S100x6_1_0 : S6x100.Transposes [1, 0] S100x6
  bcast_S6_S1x6_1 : S6.BroadcastsInDim S1x6 (![1] : Fin 1 → Fin S1x6.rank)
  bcast_S1x6_S262144x6_0_1 : S1x6.BroadcastsInDim S262144x6 (![0, 1] : Fin 2 → Fin S262144x6.rank)
  transposes_S21x100_S100x21_1_0 : S21x100.Transposes [1, 0] S100x21
  bcast_S21_S1x21_1 : S21.BroadcastsInDim S1x21 (![1] : Fin 1 → Fin S1x21.rank)
  bcast_S1x21_S262144x21_0_1 : S1x21.BroadcastsInDim S262144x21 (![0, 1] : Fin 2 → Fin S262144x21.rank)
  bcast_S_S262144x21 : S_.BroadcastsInDim S262144x21 (![] : Fin 0 → Fin S262144x21.rank)
  bcast_S_S6x6 : S_.BroadcastsInDim S6x6 (![] : Fin 0 → Fin S6x6.rank)
  shapeCasts_S6x6_S36 : S6x6.ShapeCasts S36
  natLt_1_32 : 1 < 32
  bcast_S_S_ : S_.BroadcastsInDim S_ (![] : Fin 0 → Fin S_.rank)
  reduceWindows_S36_S36_w36s1p35_0 : S36.ReduceWindows (![36] : Fin 1 → Nat) ![1] ![35] ![0] S36
  h_S_ : 0 < S_.numel
  bcast_S_S21 : S_.BroadcastsInDim S21 (![] : Fin 0 → Fin S21.rank)
  bcast_S_S36 : S_.BroadcastsInDim S36 (![] : Fin 0 → Fin S36.rank)
  bcast_S36_S36x1_0 : S36.BroadcastsInDim S36x1 (![0] : Fin 1 → Fin S36x1.rank)
  reduceWindows_S21_S21_w21s1p20_0 : S21.ReduceWindows (![21] : Fin 1 → Nat) ![1] ![20] ![0] S21
  bcast_S_S262144x6x6 : S_.BroadcastsInDim S262144x6x6 (![] : Fin 0 → Fin S262144x6x6.rank)
  bcast_S21_S21x1_0 : S21.BroadcastsInDim S21x1 (![0] : Fin 1 → Fin S21x1.rank)
  concatenates_S21x1_S21x1_S21x2_d1 : Shape.Concatenates [S21x1, S21x1] S21x2 1
  dot_S262144x24_S24x100_S262144x100_1_0_0_1_n_n_wf : DotDims.WF S262144x24 S24x100 S262144x100 [1] [0] [0] [1] [] []
  dot_S262144x100_S100x100_S262144x100_1_0_0_1_n_n_wf : DotDims.WF S262144x100 S100x100 S262144x100 [1] [0] [0] [1] [] []
  dot_S262144x100_S100x6_S262144x6_1_0_0_1_n_n_wf : DotDims.WF S262144x100 S100x6 S262144x6 [1] [0] [0] [1] [] []
  dot_S262144x100_S100x21_S262144x21_1_0_0_1_n_n_wf : DotDims.WF S262144x100 S100x21 S262144x21 [1] [0] [0] [1] [] []
  scatter_S21_S36x1_S36_n_0_0_1_wf : ScatterDims.WF S21 S36x1 S36 [] [0] [0] 1
  scatter_S262144x6x6_S21x2_S262144x21_0_12_12_1_wf : ScatterDims.WF S262144x6x6 S21x2 S262144x21 [0] [1, 2] [1, 2] 1

variable [Facts₀]

def dot_S262144x24_S24x100_S262144x100_1_0_0_1_n_n : DotDims S262144x24 S24x100 S262144x100 where
  lhsContracting := [1]
  rhsContracting := [0]
  lhsNonContracting := [0]
  rhsNonContracting := [1]
  lhsBatch := []
  rhsBatch := []
  wf := dot_S262144x24_S24x100_S262144x100_1_0_0_1_n_n_wf
def dot_S262144x100_S100x100_S262144x100_1_0_0_1_n_n : DotDims S262144x100 S100x100 S262144x100 where
  lhsContracting := [1]
  rhsContracting := [0]
  lhsNonContracting := [0]
  rhsNonContracting := [1]
  lhsBatch := []
  rhsBatch := []
  wf := dot_S262144x100_S100x100_S262144x100_1_0_0_1_n_n_wf
def dot_S262144x100_S100x6_S262144x6_1_0_0_1_n_n : DotDims S262144x100 S100x6 S262144x6 where
  lhsContracting := [1]
  rhsContracting := [0]
  lhsNonContracting := [0]
  rhsNonContracting := [1]
  lhsBatch := []
  rhsBatch := []
  wf := dot_S262144x100_S100x6_S262144x6_1_0_0_1_n_n_wf
def dot_S262144x100_S100x21_S262144x21_1_0_0_1_n_n : DotDims S262144x100 S100x21 S262144x21 where
  lhsContracting := [1]
  rhsContracting := [0]
  lhsNonContracting := [0]
  rhsNonContracting := [1]
  lhsBatch := []
  rhsBatch := []
  wf := dot_S262144x100_S100x21_S262144x21_1_0_0_1_n_n_wf
def scatter_S21_S36x1_S36_n_0_0_1 : ScatterDims S21 S36x1 S36 where
  updateWindowDims := []
  insertedWindowDims := [0]
  scatterDimsToOperandDims := [0]
  indexVectorDim := 1
  wf := scatter_S21_S36x1_S36_n_0_0_1_wf
def scatter_S262144x6x6_S21x2_S262144x21_0_12_12_1 : ScatterDims S262144x6x6 S21x2 S262144x21 where
  updateWindowDims := [0]
  insertedWindowDims := [1, 2]
  scatterDimsToOperandDims := [1, 2]
  indexVectorDim := 1
  wf := scatter_S262144x6x6_S21x2_S262144x21_0_12_12_1_wf

class Facts : Prop extends Facts₀ where

variable [Facts]
-- ==== Proof.MlpSpec.lean ====
/-
  The specification: what both programs compute, row by row of the batch, on the extended reals.

  For one batch row x (24 numbers): two rectified affine layers h1 = max (W1 x + b1) 0 and h2 = max (W2 h1 + b2) 0
  (100 numbers each); the mean head tanh (Wm h2 + bm) (6 numbers); the Cholesky-vector head softplus (Wc h2 + bc)
  (21 numbers), the softplus in the form both programs spell, max z 0 + log1p (exp (-|z - 0|)) behind a guard
  z - 0 ≠ z - 0 that never fires on the extended reals; and the lower-triangular fill: entry (r, c) of the 6 by 6
  matrix is entry r (r + 1) / 2 + c of the vector when c ≤ r, and zero above the diagonal.
-/
import Idealize.ShloMosaic.PureOps.Ideal.Laws
import Idealize.ShloMosaic.Lib.ValueIdx

noncomputable section

open scoped BigOperators

namespace Cert.MlpSpec

open Idealize.ShloMosaic Idealize.ShloMosaic.ValueIdx

/-- The value of the f32 zero word (it is the extended real 0; kept as the word so that neither side evaluates it). -/
abbrev Z : EReal := Ideal.ofBits .f32 0x00000000#32

/-- An affine map of a row h of K numbers by a weight matrix stored [N, K] and a bias of N numbers, at output o. -/
def lin {K N : Nat} (h : Fin K → EReal) (W : (⟨2, ![N, K]⟩ : Shape).Idx → EReal) (bias : (⟨1, ![N]⟩ : Shape).Idx → EReal)
    (o : Fin N) : EReal :=
  (∑ k : Fin K, h k * W (ix2 o k)) + bias (ix1 o)

/-- A rectified affine layer. -/
def hid {K N : Nat} (h : Fin K → EReal) (W : (⟨2, ![N, K]⟩ : Shape).Idx → EReal) (bias : (⟨1, ![N]⟩ : Shape).Idx → EReal)
    (o : Fin N) : EReal :=
  max (lin h W bias o) Z

/-- The softplus as both programs spell it. -/
def softplusE (z : EReal) : EReal :=
  Scalar.select (Ideal.cmp .une (z - Z) (z - Z)) (z + Z)
    (max z Z + Ideal.log1p (Ideal.exp (-(max (z - Z) (-(z - Z))))))

section Rows

variable (W1 : (⟨2, ![100, 24]⟩ : Shape).Idx → EReal) (b1 : (⟨1, ![100]⟩ : Shape).Idx → EReal)
  (W2 : (⟨2, ![100, 100]⟩ : Shape).Idx → EReal) (b2 : (⟨1, ![100]⟩ : Shape).Idx → EReal)

/-- The second hidden layer of a batch row. -/
def hidden2 (xr : Fin 24 → EReal) : Fin 100 → EReal := hid (hid xr W1 b1) W2 b2

/-- The mean head of a batch row. -/
def meanRow (xr : Fin 24 → EReal) (Wm : (⟨2, ![6, 100]⟩ : Shape).Idx → EReal) (bm : (⟨1, ![6]⟩ : Shape).Idx → EReal)
    (a : Fin 6) : EReal :=
  Ideal.tanh (lin (hidden2 W1 b1 W2 b2 xr) Wm bm a)

/-- The Cholesky-vector head of a batch row. -/
def cholVecRow (xr : Fin 24 → EReal) (Wc : (⟨2, ![21, 100]⟩ : Shape).Idx → EReal) (bc : (⟨1, ![21]⟩ : Shape).Idx → EReal)
    (i : Fin 21) : EReal :=
  softplusE (lin (hidden2 W1 b1 W2 b2 xr) Wc bc i)

end Rows

/-- Position of entry (r, c), c ≤ r, in the row-major list of the lower triangle of a 6 by 6 matrix. -/
theorem tri_lt : ∀ r c : Fin 6, c.val ≤ r.val → r.val * (r.val + 1) / 2 + c.val < 21 := by decide

/-- That position as an index into the 21-vector. -/
def triIdx (r c : Fin 6) (h : c.val ≤ r.val) : Fin 21 := ⟨r.val * (r.val + 1) / 2 + c.val, tri_lt r c h⟩

/-- The lower-triangular fill of a 21-vector: its entry at the triangle's position on and below the diagonal, zero above. -/
def cholRow (v : Fin 21 → EReal) (r c : Fin 6) : EReal :=
  if h : c.val ≤ r.val then v (triIdx r c h) else Z

section Arrays

variable (x : (⟨2, ![262144, 24]⟩ : Shape).Idx → EReal)
  (W1 : (⟨2, ![100, 24]⟩ : Shape).Idx → EReal) (b1 : (⟨1, ![100]⟩ : Shape).Idx → EReal)
  (W2 : (⟨2, ![100, 100]⟩ : Shape).Idx → EReal) (b2 : (⟨1, ![100]⟩ : Shape).Idx → EReal)

/-- Batch row b of the input array. -/
def rowOf (b : Fin 262144) : Fin 24 → EReal := fun k => x (ix2 b k)

/-- The mean output, a [262144, 6] array, as one function of the argument arrays. -/
def Gmean (Wm : (⟨2, ![6, 100]⟩ : Shape).Idx → EReal) (bm : (⟨1, ![6]⟩ : Shape).Idx → EReal) :
    (⟨2, ![262144, 6]⟩ : Shape).Idx → EReal :=
  fun i => meanRow W1 b1 W2 b2 (rowOf x (i 0)) Wm bm (i 1)

/-- The Cholesky-vector head, a [262144, 21] array, as one function of the argument arrays. -/
def GcholVec (Wc : (⟨2, ![21, 100]⟩ : Shape).Idx → EReal) (bc : (⟨1, ![21]⟩ : Shape).Idx → EReal) :
    (⟨2, ![262144, 21]⟩ : Shape).Idx → EReal :=
  fun i => cholVecRow W1 b1 W2 b2 (rowOf x (i 0)) Wc bc (i 1)

/-- The Cholesky output, a [262144, 6, 6] array, as one function of the argument arrays. -/
def Gchol (Wc : (⟨2, ![21, 100]⟩ : Shape).Idx → EReal) (bc : (⟨1, ![21]⟩ : Shape).Idx → EReal) :
    (⟨3, ![262144, 6, 6]⟩ : Shape).Idx → EReal :=
  fun i => cholRow (cholVecRow W1 b1 W2 b2 (rowOf x (i 0)) Wc bc) (i 1) (i 2)

end Arrays

end Cert.MlpSpec

end
-- ==== Proof.LibDotSum.lean ====
/-
  A rank-2 by rank-2 contraction with no batch axis and ONE contracted axis on each side, read at an output
  index: the sum over the contracted extent of the products of the two operands, each read at the index whose
  free coordinate is the output's and whose contracted coordinate is the summation variable.  Stated for any
  placement of the free and the contracted axis on either side (so it serves a product with the right operand
  stored row-major or transposed), over the dimension numbers' own index maps.
-/
import Idealize.ShloMosaic.PureOps.Ideal.Laws
import Idealize.ShloMosaic.Lib.ValueIdx

noncomputable section

open scoped BigOperators

namespace Cert.Lib

open Idealize.ShloMosaic Idealize.ShloMosaic.ValueIdx

variable {sl sr so : Shape}

/-- On the one free axis of the left operand (no batch axes), the left index is the output's coordinate 0. -/
theorem lhsIdx_val_free (d : DotDims sl sr so) {al : Fin sl.rank} (hb : d.lhsBatch = []) (hn : d.lhsNonContracting = [al])
    (j : so.Idx) (k : d.contr.Idx) :
    (d.lhsIdx j k al).val = (j ⟨0, by rw [d.rank_out, hb, hn]; simp⟩).val := by
  unfold DotDims.lhsIdx
  rw [dif_neg (by rw [hb]; exact List.not_mem_nil), dif_pos (by rw [hn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the one free axis of the right operand (no batch axes, one free axis on the left), the right index is the
    output's coordinate 1. -/
theorem rhsIdx_val_free (d : DotDims sl sr so) {al : Fin sl.rank} {ar : Fin sr.rank} (hlb : d.lhsBatch = [])
    (hrb : d.rhsBatch = []) (hln : d.lhsNonContracting = [al]) (hrn : d.rhsNonContracting = [ar])
    (j : so.Idx) (k : d.contr.Idx) :
    (d.rhsIdx j k ar).val = (j ⟨1, by rw [d.rank_out, hlb, hln, hrn]; simp⟩).val := by
  unfold DotDims.rhsIdx
  rw [dif_neg (by rw [hrb]; exact List.not_mem_nil), dif_pos (by rw [hrn]; exact List.mem_singleton.mpr rfl)]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

variable {A B C D M N : Nat}

/-- THE CONTRACTION AS A SUM over the contracted extent: for operands of shapes [A, B] and [C, D] and an output [M, N],
    free axes al / ar and contracted axes cl / cr, the sum over the dimension numbers' contraction index of
    L (lhsIdx j k) * R (rhsIdx j k) is the sum over k < n of L (li k) * R (ri k), for any families of operand
    indices li, ri whose free coordinate is j's and whose contracted coordinate is k. -/
theorem dot2_sum (d : DotDims ⟨2, ![A, B]⟩ ⟨2, ![C, D]⟩ ⟨2, ![M, N]⟩) (al cl ar cr : Fin 2)
    (hlb : d.lhsBatch = []) (hrb : d.rhsBatch = []) (hln : d.lhsNonContracting = [al]) (hrn : d.rhsNonContracting = [ar])
    (hlc : d.lhsContracting = [cl]) (hrc : d.rhsContracting = [cr]) (n : Nat)
    (hr : d.contr.rank = 1) (hs : d.contr.size ⟨0, by omega⟩ = n)
    (L : (⟨2, ![A, B]⟩ : Shape).Idx → EReal) (R : (⟨2, ![C, D]⟩ : Shape).Idx → EReal) (j : (⟨2, ![M, N]⟩ : Shape).Idx)
    (li : Fin n → (⟨2, ![A, B]⟩ : Shape).Idx) (ri : Fin n → (⟨2, ![C, D]⟩ : Shape).Idx)
    (h1 : ∀ k, (li k al).val = (j 0).val) (h2 : ∀ k, (li k cl).val = k.val)
    (h3 : ∀ k, (ri k ar).val = (j 1).val) (h4 : ∀ k, (ri k cr).val = k.val) :
    ∑ k : d.contr.Idx, L (d.lhsIdx j k) * R (d.rhsIdx j k) = ∑ k : Fin n, L (li k) * R (ri k) := by
  rw [← Equiv.sum_comp (contrEquiv1 d n hr hs).symm]
  refine Finset.sum_congr rfl fun k _ => ?_
  have el : d.lhsIdx j ((contrEquiv1 d n hr hs).symm k) = li k := by
    funext a
    apply Fin.ext
    rcases d.mem_lhs a with h | h | h
    · rw [hlb] at h; exact absurd h List.not_mem_nil
    · rw [hln] at h; obtain rfl := List.mem_singleton.mp h
      rw [h1 k]; exact lhsIdx_val_free d hlb hln j _
    · rw [hlc] at h; obtain rfl := List.mem_singleton.mp h
      rw [h2 k, d.lhsIdx_val_of_single hlc j _]; exact contrEquiv1_symm_val d n hr hs k
  have er : d.rhsIdx j ((contrEquiv1 d n hr hs).symm k) = ri k := by
    funext a
    apply Fin.ext
    rcases d.mem_rhs a with h | h | h
    · rw [hrb] at h; exact absurd h List.not_mem_nil
    · rw [hrn] at h; obtain rfl := List.mem_singleton.mp h
      rw [h3 k]; exact rhsIdx_val_free d hlb hrb hln hrn j _
    · rw [hrc] at h; obtain rfl := List.mem_singleton.mp h
      rw [h4 k, d.rhsIdx_val_of_single hrc j _]; exact contrEquiv1_symm_val d n hr hs k
  rw [el, er]

end Cert.Lib

end
-- ==== Proof.KernelRead.lean ====
/-
  The kernel body's values read at an index of a block: each is the specification's row function of the block's row.

  A block product of a [P, K] block with a weight stored [N, K] (both rounded to bf16 on the way in, which at the
  extended reals changes nothing) into a zero accumulator, plus the bias made a row and broadcast over the block's
  rows, read at (p, o), is the affine map of row p.  The rectifier, tanh and the softplus act entry by entry.  The
  last product, of the softplus values with the 21 by 36 selection matrix, is a sum over the 21 entries.
-/
import proofs.«175767_j13322988552601_1_alg».proof.Proof.Gen.KernelIdeal.Skeleton
import proofs.«175767_j13322988552601_1_alg».proof.Proof.MlpSpec
import proofs.«175767_j13322988552601_1_alg».proof.Proof.LibDotSum
import Idealize.ShloMosaic.Lib.ValueLayout
import Idealize.ShloMosaic.Lib.Pipeline.Value

noncomputable section

open scoped BigOperators

namespace Cert.KernelIdeal.KRead

open Cert.KernelIdeal Cert.KernelIdeal.Gen Idealize.ShloMosaic Idealize.ShloMosaic.ValueIdx
open Cert.MlpSpec Cert.Lib

/-- ONE AFFINE LAYER of the body read at (p, o): the affine map of row p of its left operand. -/
theorem dense_apply {P K N : Nat} {φ₁ φ₂ : FTy} (d : DotDims ⟨2, ![P, K]⟩ ⟨2, ![N, K]⟩ ⟨2, ![P, N]⟩)
    (hlb : d.lhsBatch = []) (hrb : d.rhsBatch = []) (hln : d.lhsNonContracting = [0]) (hrn : d.rhsNonContracting = [0])
    (hlc : d.lhsContracting = [1]) (hrc : d.rhsContracting = [1]) (hr : d.contr.rank = 1) (hs : d.contr.size ⟨0, by omega⟩ = K)
    (H : FVec Ideal ⟨2, ![P, K]⟩ φ₁) (W : FVec Ideal ⟨2, ![N, K]⟩ φ₂) (bias : FVec Ideal ⟨1, ![N]⟩ .f32)
    (hc : (⟨1, ![N]⟩ : Shape).ShapeCasts ⟨2, ![1, N]⟩) (hb : (⟨2, ![1, N]⟩ : Shape).Broadcasts ⟨2, ![P, N]⟩)
    (p : Fin P) (o : Fin N) :
    addf (matmul d none H W (constant ⟨2, ![P, N]⟩ .f32 0x00000000#32))
        (broadcastTo ⟨2, ![P, N]⟩ (shapeCast ⟨2, ![1, N]⟩ bias hc) hb) (ix2 p o)
      = lin (fun k => H (ix2 p k)) W bias o := by
  show matmul d none H W (constant ⟨2, ![P, N]⟩ .f32 0x00000000#32) (ix2 p o)
      + broadcastTo ⟨2, ![P, N]⟩ (shapeCast ⟨2, ![1, N]⟩ bias hc) hb (ix2 p o) = _
  rw [broadcastTo_1b_ab_apply, shapeCast_a_1a_apply]
  unfold lin
  refine congrArg (· + bias (ix1 o)) ?_
  refine (Ideal.matmul_constant_zero_apply d none H W (ix2 p o)).trans ?_
  exact dot2_sum d 0 1 0 1 hlb hrb hln hrn hlc hrc K hr hs H W (ix2 p o) (fun k => ix2 p k) (fun k => ix2 o k)
    (fun _ => rfl) (fun _ => rfl) (fun _ => rfl) (fun _ => rfl)

/-- The body spells the exponent of the softplus as 0 - |d| and its guard as an ordered comparison; on the extended
    reals both are the specification's: 0 - a = -a, and d ≠ d is the same test either way. -/
theorem softplus_kernel_eq (z : EReal) :
    Scalar.select (Ideal.cmp .one (z - Z) (z - Z)) (z + Z)
        (max z Z + Ideal.log1p (Ideal.exp (Z - max (z - Z) (-(z - Z))))) = softplusE z := by
  unfold softplusE
  have hz : ∀ a : EReal, Z - a = -a := fun a => by
    rw [show Z = 0 from Ideal.ofBits_zero_f32, sub_eq_add_neg, zero_add]
  rw [hz]
  rfl

variable (x0 : Vec Ideal S2048x24 .f32) (x1 : Vec Ideal S100x24 .f32) (x2 : Vec Ideal S100 .f32)
  (x3 : Vec Ideal S100x100 .f32) (x4 : Vec Ideal S100 .f32)

/-- Row p of the loaded input block. -/
def blkRow (p : Fin 2048) : Fin 24 → EReal := fun k => x0 (ix2 p k)

/-- The second hidden layer of the block at (p, o). -/
theorem pay2_apply (p : Fin 2048) (o : Fin 100) :
    k0_pay2 x0 x1 x2 x3 x4 (ix2 p o) = hidden2 x1 x2 x3 x4 (blkRow x0 p) o := by
  unfold k0_pay2
  rw [truncf_apply, maximumf_apply, dense_apply dot_S2048x100_S100x100_S2048x100_1_1_0_0_n_n rfl rfl rfl rfl rfl rfl rfl rfl]
  simp only [truncf_apply, maximumf_apply, dense_apply dot_S2048x24_S100x24_S2048x100_1_1_0_0_n_n rfl rfl rfl rfl rfl rfl rfl rfl]
  rfl

/-- The mean head of the block at (p, a). -/
theorem pay3_apply (x5 : Vec Ideal S6x100 .f32) (x6 : Vec Ideal S6 .f32) (p : Fin 2048) (a : Fin 6) :
    k0_pay3 x0 x1 x2 x3 x4 x5 x6 (ix2 p a) = meanRow x1 x2 x3 x4 (blkRow x0 p) x5 x6 a := by
  unfold k0_pay3
  show Ideal.tanh ((addf _ _ : FVec Ideal S2048x6 .f32) (ix2 p a)) = _
  rw [dense_apply dot_S2048x100_S6x100_S2048x6_1_1_0_0_n_n rfl rfl rfl rfl rfl rfl rfl rfl]
  simp only [pay2_apply]
  rfl

/-- The Cholesky-vector head of the block before the selection product, at (p, i): what the last product reads. -/
def cholVecBlk (x7 : Vec Ideal S21x100 .f32) (x8 : Vec Ideal S21 .f32) (p : Fin 2048) (i : Fin 21) : EReal :=
  cholVecRow x1 x2 x3 x4 (blkRow x0 p) x7 x8 i

/-- The flat Cholesky output of the block at (p, j): the sum over the 21 softplus values of row p against column j of
    the selection matrix. -/
theorem pay1_apply (x7 : Vec Ideal S21x100 .f32) (x8 : Vec Ideal S21 .f32) (x9 : Vec Ideal S21x36 .f32) (p : Fin 2048) (j : Fin 36) :
    k0_pay1 (k0_pay4 x0 x1 x2 x3 x4 x7) (k0_pay5 x8) x9 (ix2 p j)
      = ∑ i : Fin 21, cholVecBlk x0 x1 x2 x3 x4 x7 x8 p i * x9 (ix2 i j) := by
  unfold k0_pay1
  refine (Ideal.matmul_constant_zero_apply _ none _ x9 (ix2 p j)).trans ?_
  refine (dot2_sum dot_S2048x21_S21x36_S2048x36_1_0_0_1_n_n 0 1 1 0 rfl rfl rfl rfl rfl rfl 21 rfl rfl _ x9 (ix2 p j)
    (fun k => ix2 p k) (fun k => ix2 k j) (fun _ => rfl) (fun _ => rfl) (fun _ => rfl) (fun _ => rfl)).trans ?_
  refine Finset.sum_congr rfl fun i _ => congrArg (· * x9 (ix2 i j)) ?_
  refine (softplus_kernel_eq (addf (k0_pay4 x0 x1 x2 x3 x4 x7) (broadcastTo S2048x21 (k0_pay5 x8) broadcasts_S1x21_S2048x21) (ix2 p i))).trans ?_
  unfold k0_pay4 k0_pay5 cholVecBlk cholVecRow
  rw [dense_apply dot_S2048x100_S21x100_S2048x21_1_1_0_0_n_n rfl rfl rfl rfl rfl rfl rfl rfl]
  simp only [pay2_apply]
  rfl

end Cert.KernelIdeal.KRead

end
-- ==== Proof.KernelBlocks.lean ====
/-
  From blocks to arrays: what the two output arrays hold after the region, each as ONE function of the arrays the
  region finds.

  Grid point t stages rows 2048 t … 2048 t + 2047 of the input and of both outputs, and every weight whole.  So
  what point t writes back to the mean output is block t of the mean function of the arguments, and to the flat
  Cholesky output block t of the function (b, j) ↦ the sum over i of the softplus head of row b at i times entry
  (i, j) of the selection matrix; the 128 blocks tile the 262144 rows, so each array ends at its function.
-/
import proofs.«175767_j13322988552601_1_alg».proof.Proof.Gen.KernelIdeal.Frame
import proofs.«175767_j13322988552601_1_alg».proof.Proof.KernelRead
import Idealize.ShloMosaic.Lib.Pipeline.Value

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx Cert.MlpSpec
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## The index maps, decided over the 128 grid points: the batch-tiled windows sit at block t, the others at block 0 -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-! ## The input blocks -/

/-- Window 1 stages its whole array at every point: its block read is the array. -/
theorem iblk1 (c : Dev nD) (t : Fin cfg0.N) : iblk m c 1 t = fun y => V m c main_arg1 y := by
  funext y
  show V m c main_arg1 (((cfg0.win 1).blk t).view.emb y) = V m c main_arg1 y
  refine congrArg (V m c main_arg1) ?_
  obtain ⟨e0, e1⟩ := idx1 t
  funext a; apply Fin.ext
  match a with
  | ⟨0, _⟩ => show win0_1.index t (0 : Fin 2) * 100 + 1 * (y 0).val = (y 0).val; omega
  | ⟨1, _⟩ => show win0_1.index t (1 : Fin 2) * 24 + 1 * (y 1).val = (y 1).val; omega

/-- Window 2 stages its whole array at every point: its block read is the array. -/
theorem iblk2 (c : Dev nD) (t : Fin cfg0.N) : iblk m c 2 t = fun y => V m c main_arg2 y := by
  funext y
  show V m c main_arg2 (((cfg0.win 2).blk t).view.emb y) = V m c main_arg2 y
  refine congrArg (V m c main_arg2) ?_
  have e0 := idx2 t
  funext a; apply Fin.ext
  match a with
  | ⟨0, _⟩ => show win0_2.index t (0 : Fin 1) * 100 + 1 * (y 0).val = (y 0).val; omega

/-- Window 3 stages its whole array at every point: its block read is the array. -/
theorem iblk3 (c : Dev nD) (t : Fin cfg0.N) : iblk m c 3 t = fun y => V m c main_arg3 y := by
  funext y
  show V m c main_arg3 (((cfg0.win 3).blk t).view.emb y) = V m c main_arg3 y
  refine congrArg (V m c main_arg3) ?_
  obtain ⟨e0, e1⟩ := idx3 t
  funext a; apply Fin.ext
  match a with
  | ⟨0, _⟩ => show win0_3.index t (0 : Fin 2) * 100 + 1 * (y 0).val = (y 0).val; omega
  | ⟨1, _⟩ => show win0_3.index t (1 : Fin 2) * 100 + 1 * (y 1).val = (y 1).val; omega

/-- Window 4 stages its whole array at every point: its block read is the array. -/
theorem iblk4 (c : Dev nD) (t : Fin cfg0.N) : iblk m c 4 t = fun y => V m c main_arg4 y := by
  funext y
  show V m c main_arg4 (((cfg0.win 4).blk t).view.emb y) = V m c main_arg4 y
  refine congrArg (V m c main_arg4) ?_
  have e0 := idx4 t
  funext a; apply Fin.ext
  match a with
  | ⟨0, _⟩ => show win0_4.index t (0 : Fin 1) * 100 + 1 * (y 0).val = (y 0).val; omega

/-- Window 5 stages its whole array at every point: its block read is the array. -/
theorem iblk5 (c : Dev nD) (t : Fin cfg0.N) : iblk m c 5 t = fun y => V m c main_arg5 y := by
  funext y
  show V m c main_arg5 (((cfg0.win 5).blk t).view.emb y) = V m c main_arg5 y
  refine congrArg (V m c main_arg5) ?_
  obtain ⟨e0, e1⟩ := idx5 t
  funext a; apply Fin.ext
  match a with
  | ⟨0, _⟩ => show win0_5.index t (0 : Fin 2) * 6 + 1 * (y 0).val = (y 0).val; omega
  | ⟨1, _⟩ => show win0_5.index t (1 : Fin 2) * 100 + 1 * (y 1).val = (y 1).val; omega

/-- Window 6 stages its whole array at every point: its block read is the array. -/
theorem iblk6 (c : Dev nD) (t : Fin cfg0.N) : iblk m c 6 t = fun y => V m c main_arg6 y := by
  funext y
  show V m c main_arg6 (((cfg0.win 6).blk t).view.emb y) = V m c main_arg6 y
  refine congrArg (V m c main_arg6) ?_
  have e0 := idx6 t
  funext a; apply Fin.ext
  match a with
  | ⟨0, _⟩ => show win0_6.index t (0 : Fin 1) * 6 + 1 * (y 0).val = (y 0).val; omega

/-- Window 7 stages its whole array at every point: its block read is the array. -/
theorem iblk7 (c : Dev nD) (t : Fin cfg0.N) : iblk m c 7 t = fun y => V m c main_arg7 y := by
  funext y
  show V m c main_arg7 (((cfg0.win 7).blk t).view.emb y) = V m c main_arg7 y
  refine congrArg (V m c main_arg7) ?_
  obtain ⟨e0, e1⟩ := idx7 t
  funext a; apply Fin.ext
  match a with
  | ⟨0, _⟩ => show win0_7.index t (0 : Fin 2) * 21 + 1 * (y 0).val = (y 0).val; omega
  | ⟨1, _⟩ => show win0_7.index t (1 : Fin 2) * 100 + 1 * (y 1).val = (y 1).val; omega

/-- Window 8 stages its whole array at every point: its block read is the array. -/
theorem iblk8 (c : Dev nD) (t : Fin cfg0.N) : iblk m c 8 t = fun y => V m c main_arg8 y := by
  funext y
  show V m c main_arg8 (((cfg0.win 8).blk t).view.emb y) = V m c main_arg8 y
  refine congrArg (V m c main_arg8) ?_
  have e0 := idx8 t
  funext a; apply Fin.ext
  match a with
  | ⟨0, _⟩ => show win0_8.index t (0 : Fin 1) * 21 + 1 * (y 0).val = (y 0).val; omega

/-- Window 9 stages its whole array at every point: its block read is the array. -/
theorem iblk9 (c : Dev nD) (t : Fin cfg0.N) : iblk m c 9 t = fun y => V m c main_cst y := by
  funext y
  show V m c main_cst (((cfg0.win 9).blk t).view.emb y) = V m c main_cst y
  refine congrArg (V m c main_cst) ?_
  obtain ⟨e0, e1⟩ := idx9 t
  funext a; apply Fin.ext
  match a with
  | ⟨0, _⟩ => show win0_9.index t (0 : Fin 2) * 21 + 1 * (y 0).val = (y 0).val; omega
  | ⟨1, _⟩ => show win0_9.index t (1 : Fin 2) * 36 + 1 * (y 1).val = (y 1).val; omega

/-- Row p of the input block at point t is row 2048 t + p of the input array. -/
theorem row0 (c : Dev nD) (t : Fin cfg0.N) (p : Fin 2048) (hb : 2048 * t.val + p.val < 262144) :
    KRead.blkRow (iblk m c 0 t) p = rowOf (fun i => V m c main_arg0 i) ⟨2048 * t.val + p.val, hb⟩ := by
  funext k
  show V m c main_arg0 (((cfg0.win 0).blk t).view.emb (ix2 p k)) = V m c main_arg0 (ix2 (⟨2048 * t.val + p.val, hb⟩ : Fin 262144) k)
  refine congrArg (V m c main_arg0) ?_
  obtain ⟨e0, e1⟩ := idx0 t
  funext a; apply Fin.ext
  match a with
  | ⟨0, _⟩ => show win0_0.index t (0 : Fin 2) * 2048 + 1 * p.val = 2048 * t.val + p.val; omega
  | ⟨1, _⟩ => show win0_0.index t (1 : Fin 2) * 24 + 1 * k.val = k.val; omega

/-! ## The flat Cholesky output as one function -/

/-- Entry (b, j) of the flat Cholesky output: the softplus head of row b against column j of the selection matrix. -/
def Gflat (x : (⟨2, ![262144, 24]⟩ : Shape).Idx → EReal)
    (W1 : (⟨2, ![100, 24]⟩ : Shape).Idx → EReal) (b1 : (⟨1, ![100]⟩ : Shape).Idx → EReal)
    (W2 : (⟨2, ![100, 100]⟩ : Shape).Idx → EReal) (b2 : (⟨1, ![100]⟩ : Shape).Idx → EReal)
    (Wc : (⟨2, ![21, 100]⟩ : Shape).Idx → EReal) (bc : (⟨1, ![21]⟩ : Shape).Idx → EReal)
    (S : (⟨2, ![21, 36]⟩ : Shape).Idx → EReal) : (⟨2, ![262144, 36]⟩ : Shape).Idx → EReal :=
  fun i => ∑ k : Fin 21, cholVecRow W1 b1 W2 b2 (rowOf x (i 0)) Wc bc k * S (ix2 k (i 1))

/-! ## What a point writes back -/

/-- Point t writes back block t of the mean function of the arrays the region finds. -/
theorem flushed10_eq (c : Dev nD) (t : Fin cfg0.N) :
    (dats m 0 c).flushed 10 t = ((cfg0.win 10).blk t).view.read (Elt Ideal)
      (Gmean (fun i => V m c main_arg0 i) (fun i => V m c main_arg1 i) (fun i => V m c main_arg2 i) (fun i => V m c main_arg3 i)
        (fun i => V m c main_arg4 i) (fun i => V m c main_arg5 i) (fun i => V m c main_arg6 i)) := by
  show (cfg0.win 10).cut (grid0.coords t) ((dats m 0 c).after 10 t) = _
  rw [after0_10]
  unfold out0_10
  rw [View.canon_unit_zero hz2]
  simp only [View.ld_unit_zero (S := S2048x24) hz2, View.ld_unit_zero (S := S100x24) hz2, View.ld_unit_zero (S := S100) hz1,
    View.ld_unit_zero (S := S100x100) hz2, View.ld_unit_zero (S := S6x100) hz2, View.ld_unit_zero (S := S6) hz1]
  funext j
  obtain ⟨p, a, rfl⟩ : ∃ (p : Fin 2048) (a : Fin 6), j = ix2 p a := ⟨j 0, j 1, eq_ix2 j⟩
  have ht : t.val < 128 := lt_of_lt_of_eq t.isLt N_0
  have hb : 2048 * t.val + p.val < 262144 := by have := p.isLt; omega
  have hemb : ((cfg0.win 10).blk t).view.emb (ix2 p a) = ix2 (⟨2048 * t.val + p.val, hb⟩ : Fin 262144) a := by
    obtain ⟨e0, e1⟩ := idx10 t
    funext ax; apply Fin.ext
    match ax with
    | ⟨0, _⟩ => show win0_10.index t (0 : Fin 2) * 2048 + 1 * p.val = 2048 * t.val + p.val; omega
    | ⟨1, _⟩ => show win0_10.index t (1 : Fin 2) * 6 + 1 * a.val = a.val; omega
  show k0_pay3 (iblk m c 0 t) (iblk m c 1 t) (iblk m c 2 t) (iblk m c 3 t) (iblk m c 4 t) (iblk m c 5 t) (iblk m c 6 t) (ix2 p a)
      = Gmean (fun i => V m c main_arg0 i) (fun i => V m c main_arg1 i) (fun i => V m c main_arg2 i) (fun i => V m c main_arg3 i)
        (fun i => V m c main_arg4 i) (fun i => V m c main_arg5 i) (fun i => V m c main_arg6 i) (((cfg0.win 10).blk t).view.emb (ix2 p a))
  rw [hemb]
  refine (KRead.pay3_apply _ _ _ _ _ _ _ p a).trans ?_
  rw [row0 m c t p hb, iblk1 m c t, iblk2 m c t, iblk3 m c t, iblk4 m c t, iblk5 m c t, iblk6 m c t]
  rfl

/-- Point t writes back block t of the flat Cholesky function of the arrays the region finds. -/
theorem flushed11_eq (c : Dev nD) (t : Fin cfg0.N) :
    (dats m 0 c).flushed 11 t = ((cfg0.win 11).blk t).view.read (Elt Ideal)
      (Gflat (fun i => V m c main_arg0 i) (fun i => V m c main_arg1 i) (fun i => V m c main_arg2 i) (fun i => V m c main_arg3 i)
        (fun i => V m c main_arg4 i) (fun i => V m c main_arg7 i) (fun i => V m c main_arg8 i) (fun i => V m c main_cst i)) := by
  show (cfg0.win 11).cut (grid0.coords t) ((dats m 0 c).after 11 t) = _
  rw [after0_11]
  unfold out0_11
  rw [View.canon_unit_zero hz2]
  simp only [View.ld_unit_zero (S := S2048x24) hz2, View.ld_unit_zero (S := S100x24) hz2, View.ld_unit_zero (S := S100) hz1,
    View.ld_unit_zero (S := S100x100) hz2, View.ld_unit_zero (S := S21x100) hz2, View.ld_unit_zero (S := S21) hz1,
    View.ld_unit_zero (S := S21x36) hz2]
  funext j
  obtain ⟨p, q, rfl⟩ : ∃ (p : Fin 2048) (q : Fin 36), j = ix2 p q := ⟨j 0, j 1, eq_ix2 j⟩
  have ht : t.val < 128 := lt_of_lt_of_eq t.isLt N_0
  have hb : 2048 * t.val + p.val < 262144 := by have := p.isLt; omega
  have hemb : ((cfg0.win 11).blk t).view.emb (ix2 p q) = ix2 (⟨2048 * t.val + p.val, hb⟩ : Fin 262144) q := by
    obtain ⟨e0, e1⟩ := idx11 t
    funext ax; apply Fin.ext
    match ax with
    | ⟨0, _⟩ => show win0_11.index t (0 : Fin 2) * 2048 + 1 * p.val = 2048 * t.val + p.val; omega
    | ⟨1, _⟩ => show win0_11.index t (1 : Fin 2) * 36 + 1 * q.val = q.val; omega
  show k0_pay1 (k0_pay4 (iblk m c 0 t) (iblk m c 1 t) (iblk m c 2 t) (iblk m c 3 t) (iblk m c 4 t) (iblk m c 7 t)) (k0_pay5 (iblk m c 8 t)) (iblk m c 9 t) (ix2 p q)
      = Gflat (fun i => V m c main_arg0 i) (fun i => V m c main_arg1 i) (fun i => V m c main_arg2 i) (fun i => V m c main_arg3 i)
        (fun i => V m c main_arg4 i) (fun i => V m c main_arg7 i) (fun i => V m c main_arg8 i) (fun i => V m c main_cst i) (((cfg0.win 11).blk t).view.emb (ix2 p q))
  rw [hemb]
  refine (KRead.pay1_apply _ _ _ _ _ _ _ _ p q).trans ?_
  unfold KRead.cholVecBlk
  rw [row0 m c t p hb, iblk1 m c t, iblk2 m c t, iblk3 m c t, iblk4 m c t, iblk7 m c t, iblk8 m c t, iblk9 m c t]
  rfl

/-! ## The blocks tile the arrays -/

theorem mem_blk10 (t : Fin cfg0.N) (i : S262144x6.Idx) :
    i ∈ ((cfg0.win 10).blk t).view.set ↔ ∀ a : Fin 2, win0_10.index t a * S2048x6.size a ≤ (i a).val ∧ (i a).val < win0_10.index t a * S2048x6.size a + S2048x6.size a := by
  show i ∈ ((View.whole main_v0_0).slice (win0_10.rect t)).set ↔ _
  rw [View.set_slice_whole, Rect.mem_set_unit]
  exact Iff.rfl

theorem mem_blk11 (t : Fin cfg0.N) (i : S262144x36.Idx) :
    i ∈ ((cfg0.win 11).blk t).view.set ↔ ∀ a : Fin 2, win0_11.index t a * S2048x36.size a ≤ (i a).val ∧ (i a).val < win0_11.index t a * S2048x36.size a + S2048x36.size a := by
  show i ∈ ((View.whole main_v0_1).slice (win0_11.rect t)).set ↔ _
  rw [View.set_slice_whole, Rect.mem_set_unit]
  exact Iff.rfl

/-- Row b of the mean output lies in the block of point b / 2048. -/
theorem cover10 (i : S262144x6.Idx) : ∃ t : Fin cfg0.N, (cfg0.win 10).flush t = true ∧ i ∈ ((cfg0.win 10).blk t).view.set := by
  have hi0 : (i 0).val < 262144 := (i 0).isLt
  have hi1 : (i 1).val < 6 := (i 1).isLt
  have hq : (i 0).val / 2048 < 128 := by omega
  obtain ⟨e0, e1⟩ := idx10 ⟨(i 0).val / 2048, lt_of_lt_of_eq hq N_0.symm⟩
  refine ⟨⟨(i 0).val / 2048, lt_of_lt_of_eq hq N_0.symm⟩, flush0_10 _, ?_⟩
  rw [mem_blk10]
  intro a
  match a with
  | ⟨0, _⟩ =>
    show win0_10.index ⟨(i 0).val / 2048, lt_of_lt_of_eq hq N_0.symm⟩ (0 : Fin 2) * 2048 ≤ (i 0).val
      ∧ (i 0).val < win0_10.index ⟨(i 0).val / 2048, lt_of_lt_of_eq hq N_0.symm⟩ (0 : Fin 2) * 2048 + 2048
    rw [e0]; show (i 0).val / 2048 * 2048 ≤ (i 0).val ∧ (i 0).val < (i 0).val / 2048 * 2048 + 2048; omega
  | ⟨1, _⟩ =>
    show win0_10.index ⟨(i 0).val / 2048, lt_of_lt_of_eq hq N_0.symm⟩ (1 : Fin 2) * 6 ≤ (i 1).val
      ∧ (i 1).val < win0_10.index ⟨(i 0).val / 2048, lt_of_lt_of_eq hq N_0.symm⟩ (1 : Fin 2) * 6 + 6
    rw [e1]; omega

/-- Row b of the flat Cholesky output lies in the block of point b / 2048. -/
theorem cover11 (i : S262144x36.Idx) : ∃ t : Fin cfg0.N, (cfg0.win 11).flush t = true ∧ i ∈ ((cfg0.win 11).blk t).view.set := by
  have hi0 : (i 0).val < 262144 := (i 0).isLt
  have hi1 : (i 1).val < 36 := (i 1).isLt
  have hq : (i 0).val / 2048 < 128 := by omega
  obtain ⟨e0, e1⟩ := idx11 ⟨(i 0).val / 2048, lt_of_lt_of_eq hq N_0.symm⟩
  refine ⟨⟨(i 0).val / 2048, lt_of_lt_of_eq hq N_0.symm⟩, flush0_11 _, ?_⟩
  rw [mem_blk11]
  intro a
  match a with
  | ⟨0, _⟩ =>
    show win0_11.index ⟨(i 0).val / 2048, lt_of_lt_of_eq hq N_0.symm⟩ (0 : Fin 2) * 2048 ≤ (i 0).val
      ∧ (i 0).val < win0_11.index ⟨(i 0).val / 2048, lt_of_lt_of_eq hq N_0.symm⟩ (0 : Fin 2) * 2048 + 2048
    rw [e0]; show (i 0).val / 2048 * 2048 ≤ (i 0).val ∧ (i 0).val < (i 0).val / 2048 * 2048 + 2048; omega
  | ⟨1, _⟩ =>
    show win0_11.index ⟨(i 0).val / 2048, lt_of_lt_of_eq hq N_0.symm⟩ (1 : Fin 2) * 36 ≤ (i 1).val
      ∧ (i 1).val < win0_11.index ⟨(i 0).val / 2048, lt_of_lt_of_eq hq N_0.symm⟩ (1 : Fin 2) * 36 + 36
    rw [e1]; omega

/-! ## The arrays after the region -/

/-- The mean output after the region is the mean function of the arrays the region finds. -/
theorem final10 (c : Dev nD) : (dats m 0 c).arrAt 10 cfg0.N
    = Gmean (fun i => V m c main_arg0 i) (fun i => V m c main_arg1 i) (fun i => V m c main_arg2 i) (fun i => V m c main_arg3 i)
        (fun i => V m c main_arg4 i) (fun i => V m c main_arg5 i) (fun i => V m c main_arg6 i) :=
  (dats m 0 c).arrAt_eq_of_cover 10 _ (fun t _ => flushed10_eq m c t) cover10

/-- The flat Cholesky output after the region is the flat Cholesky function of the arrays the region finds. -/
theorem final11 (c : Dev nD) : (dats m 0 c).arrAt 11 cfg0.N
    = Gflat (fun i => V m c main_arg0 i) (fun i => V m c main_arg1 i) (fun i => V m c main_arg2 i) (fun i => V m c main_arg3 i)
        (fun i => V m c main_arg4 i) (fun i => V m c main_arg7 i) (fun i => V m c main_arg8 i) (fun i => V m c main_cst i) :=
  (dats m 0 c).arrAt_eq_of_cover 11 _ (fun t _ => flushed11_eq m c t) cover11

end Cert.KernelIdeal.KVal

end
-- ==== Proof.KernelSel.lean ====
/-
  The 21 by 36 selection matrix the program builds as a literal table: entry (i, 6 r + c) is 1 when (r, c) is the
  i-th position of the lower triangle of a 6 by 6 matrix in row-major order (c ≤ r and i = r (r + 1) / 2 + c), and 0
  otherwise.  So a 21-vector times column 6 r + c of the matrix is the vector's entry at that position when c ≤ r, and
  0 above the diagonal: the product with the matrix IS the lower-triangular fill.
-/
import proofs.«175767_j13322988552601_1_alg».proof.KernelIdeal
import proofs.«175767_j13322988552601_1_alg».proof.Proof.MlpSpec
import Idealize.ShloMosaic.Lib.IdealHost

noncomputable section

open scoped BigOperators

namespace Cert.KernelIdeal.KSel

open Cert.KernelIdeal Idealize.ShloMosaic Idealize.ShloMosaic.ValueIdx Cert.MlpSpec

/-- The table's 756 words, read at 36 i + (6 r + c): the word of 1.0 exactly at the triangle's positions. -/
theorem lit_table : ∀ (i : Fin 21) (r c : Fin 6), lit0t (36 * i.val + (6 * r.val + c.val))
    = if c.val ≤ r.val ∧ i.val = r.val * (r.val + 1) / 2 + c.val then 0x3F800000#32 else 0x00000000#32 := by
  decide +kernel

/-- Entry (i, 6 r + c) of the matrix as an extended real. -/
theorem sel_apply (i : Fin 21) (r c : Fin 6) (hj : 6 * r.val + c.val < 36) :
    Ideal.ofBits .f32 (lit0 (S21x36.rowMajor (ix2 i (⟨6 * r.val + c.val, hj⟩ : Fin 36))))
      = if c.val ≤ r.val ∧ i.val = r.val * (r.val + 1) / 2 + c.val then 1 else 0 := by
  have e : lit0 (S21x36.rowMajor (ix2 i (⟨6 * r.val + c.val, hj⟩ : Fin 36))) = lit0t (36 * i.val + (6 * r.val + c.val)) := by
    show lit0t (S21x36.rowMajor (ix2 i (⟨6 * r.val + c.val, hj⟩ : Fin 36))).val = _
    refine congrArg lit0t ?_
    rw [Shape.rowMajor_val_two]
    show i.val * 36 + (6 * r.val + c.val) = 36 * i.val + (6 * r.val + c.val)
    omega
  rw [e, lit_table]
  split
  · exact Ideal.ofBits_one_f32
  · exact Ideal.ofBits_zero_f32

/-- THE PRODUCT WITH THE SELECTION MATRIX IS THE LOWER-TRIANGULAR FILL: for a matrix S whose entry (i, 6 r + c) is 1 at
    the triangle's positions and 0 elsewhere, the sum over i of v i * S (i, 6 r + c) is the fill of v at (r, c). -/
theorem sel_sum (v : Fin 21 → EReal) (S : (⟨2, ![21, 36]⟩ : Shape).Idx → EReal)
    (hS : ∀ (i : Fin 21) (r c : Fin 6) (hj : 6 * r.val + c.val < 36), S (ix2 i (⟨6 * r.val + c.val, hj⟩ : Fin 36))
      = if c.val ≤ r.val ∧ i.val = r.val * (r.val + 1) / 2 + c.val then 1 else 0)
    (r c : Fin 6) (hj : 6 * r.val + c.val < 36) :
    ∑ i : Fin 21, v i * S (ix2 i (⟨6 * r.val + c.val, hj⟩ : Fin 36)) = cholRow v r c := by
  unfold cholRow
  simp only [hS]
  by_cases h : c.val ≤ r.val
  · rw [dif_pos h, Finset.sum_eq_single (triIdx r c h)]
    · rw [if_pos ⟨h, rfl⟩, mul_one]
    · intro i _ hi
      rw [if_neg (fun hh => hi (Fin.ext hh.2)), mul_zero]
    · intro h'; exact absurd (Finset.mem_univ _) h'
  · rw [dif_neg h]
    have hz : ∀ i : Fin 21, ¬(c.val ≤ r.val ∧ i.val = r.val * (r.val + 1) / 2 + c.val) := fun i hh => h hh.1
    simp only [hz, if_false, mul_zero, Finset.sum_const_zero]
    exact Ideal.ofBits_zero_f32.symm

end Cert.KernelIdeal.KSel

end
-- ==== Proof.KernelRun.lean ====
/-
  The kernel program's run, read: after every weakly fair execution the mean result holds the mean function of the
  argument arrays and the Cholesky result the lower-triangular fill of the softplus head, the arguments unchanged.

  The region leaves the mean array and the flat [262144, 36] array at their functions of the arrays it finds; those
  arrays are the launch contents of the arguments and, for the selection matrix, the literal table a host line wrote
  before the region.  After the region one host line reshapes the flat array to [262144, 6, 6]: entry (b, r, c) is
  flat entry (b, 6 r + c), the softplus head of row b against column 6 r + c of the selection matrix, which is the
  lower-triangular fill.
-/
import proofs.«175767_j13322988552601_1_alg».proof.Proof.KernelBlocks
import proofs.«175767_j13322988552601_1_alg».proof.Proof.KernelSel
import Idealize.ShloMosaic.Lib.StableHlo.Run

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx Cert.MlpSpec Idealize.ShloMosaic.StableHlo
open Idealize.ShloMosaic.Pipeline (Dat)

variable (m : (ℓ : Loc nD τ sig) → Buf (Elt Ideal) ℓ) (ρ : Dev nD → PrngReg)

/-- The selection matrix as the region finds it: the literal table, word by word. -/
theorem V_cst (c : Dev nD) :
    (fun i => V m c main_cst i) = fun i : S21x36.Idx => Ideal.ofBits .f32 (lit0 (S21x36.rowMajor i)) := by
  show StableHlo.after hostOps0 (fun b => m (c, b)) (Proc.devRef .tc main_cst) = _
  after_results
  rfl

/-- Entry (i, 6 r + c) of the selection matrix the region finds is 1 at the triangle's positions and 0 elsewhere. -/
theorem V_cst_apply (c : Dev nD) (i : Fin 21) (r q : Fin 6) (hj : 6 * r.val + q.val < 36) :
    ((fun i => V m c main_cst i) : S21x36.Idx → EReal) (ix2 i (⟨6 * r.val + q.val, hj⟩ : Fin 36))
      = if q.val ≤ r.val ∧ i.val = r.val * (r.val + 1) / 2 + q.val then (1 : EReal) else 0 := by
  exact (congrFun (V_cst m c) (ix2 i (⟨6 * r.val + q.val, hj⟩ : Fin 36))).trans (KSel.sel_apply i r q hj)

/-- THE HOST LINE AFTER THE REGION: the reshaped flat array is the lower-triangular fill of the softplus head. -/
theorem tail_eq (c : Dev nD) :
    Pipeline.afterTail₀ cfgs (dats m) 0 (V0 m) [hostOps1] c main_v1
      = Gchol (fun i => V m c main_arg0 i) (fun i => V m c main_arg1 i) (fun i => V m c main_arg2 i) (fun i => V m c main_arg3 i) (fun i => V m c main_arg4 i) (fun i => V m c main_arg7 i) (fun i => V m c main_arg8 i) := by
  unfold Pipeline.afterTail₀
  show StableHlo.after hostOps1 _ (Proc.devRef .tc main_v1) = _
  after_results
  show (fun i => shapeCast S262144x6x6 (Pipeline.withArrays (cfgs 0).spec c (V0 m c) (fun w => (dats m 0 c).arrAt w (cfgs 0).N)
      (Proc.tc.devRef main_v0_1)) shapeCasts_S262144x36_S262144x6x6 i) = _
  have hA : Pipeline.withArrays (cfgs 0).spec c (V0 m c) (fun w => (dats m 0 c).arrAt w (cfgs 0).N) (Proc.tc.devRef main_v0_1)
      = Gflat (fun i => V m c main_arg0 i) (fun i => V m c main_arg1 i) (fun i => V m c main_arg2 i) (fun i => V m c main_arg3 i) (fun i => V m c main_arg4 i) (fun i => V m c main_arg7 i) (fun i => V m c main_arg8 i) (fun i => V m c main_cst i) :=
    (Pipeline.withArrays_arr spec0 launch0.win.arr_inj c _ _ 11).trans (final11 m c)
  rw [hA]
  funext i
  obtain ⟨b, r, q, rfl⟩ : ∃ (b : Fin 262144) (r q : Fin 6), i = ix3 b r q := ⟨i 0, i 1, i 2, eq_ix3 i⟩
  have hj : 6 * r.val + q.val < 36 := by have := r.isLt; have := q.isLt; omega
  rw [shapeCast_apply _ shapeCasts_S262144x36_S262144x6x6 (ix3 b r q) (ix2 b (⟨6 * r.val + q.val, hj⟩ : Fin 36)) (by
    rw [Shape.rowMajor_val_two, Shape.rowMajor_val_three]
    show b.val * 36 + (6 * r.val + q.val) = (b.val * 6 + r.val) * 6 + q.val
    omega)]
  exact KSel.sel_sum
    (cholVecRow (fun i => V m c main_arg1 i) (fun i => V m c main_arg2 i) (fun i => V m c main_arg3 i) (fun i => V m c main_arg4 i)
      (rowOf (fun i => V m c main_arg0 i) b) (fun i => V m c main_arg7 i) (fun i => V m c main_arg8 i))
    (fun i => V m c main_cst i) (fun i r q hj => V_cst_apply m c i r q hj) r q hj

/-- After the frame run, the mean result is the mean function of the launch contents of the arguments. -/
theorem mean_post (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v0_0) = Gmean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine ((h c).1 10).trans ((final10 m c).trans ?_)
  rw [V_main_arg0 m c, V_main_arg1 m c, V_main_arg2 m c, V_main_arg3 m c, V_main_arg4 m c, V_main_arg5 m c, V_main_arg6 m c]

/-- After the frame run, the Cholesky result is the lower-triangular fill of the softplus head of the launch contents. -/
theorem chol_post (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v1) = Gchol (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  refine ((h c).2 main_v1 (by decide)).trans ((tail_eq m c).trans ?_)
  rw [V_main_arg0 m c, V_main_arg1 m c, V_main_arg2 m c, V_main_arg3 m c, V_main_arg4 m c, V_main_arg7 m c, V_main_arg8 m c]

/-- THE RUN, READ: both results at their functions of the argument arrays, the arguments unchanged. -/
theorem run : θ_run defs (onTc (τ := τ) (main (F := Ideal))) ⟨m, fun _ => 0, ρ⟩ fun r => ∀ c : Dev nD,
      r.2.mem ((c.tc : Thread nD τ).loc main_v0_0) = Gmean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v1) = Gchol (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨mean_post m r h c, chol_post m r h c,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.KernelIdeal.KVal

end
-- ==== Proof.RefOps.lean ====
/- The reference's @main as ONE list of its 178 host operations in program order: @main's own operations as printed, and at
   each call of a module-local function the callee's operations over that call's buffer record, its parameters replaced
   by the operands (a call inside a callee likewise, over the nested record). Then: @main is the straight line of that list;
   no TensorCore buffer or semaphore is scoped; every operation touches TensorCore buffers only; hence every weakly fair
   execution terminates with each buffer at the list's fold over the launch contents. -/
import proofs.«175767_j13322988552601_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 178 operations in order, the calls unfolded. -/
abbrev ops : List (HloOp τ sig (Elt F)) :=
  [ unary main_arg1 main_v0 ((transpose S24x100 [1, 0] · transposes_S100x24_S24x100_1_0) : (⟨S100x24, .f32⟩ : BufTy).Contents (Elt F) → (⟨S24x100, .f32⟩ : BufTy).Contents (Elt F)),
    binary main_arg0 main_v0 main_v1 ((fun l r => Host.dotGeneral dot_S262144x24_S24x100_S262144x100_1_0_0_1_n_n none l r) : (⟨S262144x24, .f32⟩ : BufTy).Contents (Elt F) → (⟨S24x100, .f32⟩ : BufTy).Contents (Elt F) → (⟨S262144x100, .f32⟩ : BufTy).Contents (Elt F)),
    unary main_arg2 main_v2 (broadcastInDim S1x100 ![1] bcast_S100_S1x100_1 : (⟨S100, .f32⟩ : BufTy).Contents (Elt F) → (⟨S1x100, .f32⟩ : BufTy).Contents (Elt F)),
    unary main_v2 main_v3 (broadcastInDim S262144x100 ![0, 1] bcast_S1x100_S262144x100_0_1 : (⟨S1x100, .f32⟩ : BufTy).Contents (Elt F) → (⟨S262144x100, .f32⟩ : BufTy).Contents (Elt F)),
    binary main_v1 main_v3 main_v4 (addf : (⟨S262144x100, .f32⟩ : BufTy).Contents (Elt F) → (⟨S262144x100, .f32⟩ : BufTy).Contents (Elt F) → (⟨S262144x100, .f32⟩ : BufTy).Contents (Elt F)),
    TRef.nullary main_call0.cst (constant S_ .f32 0x00000000#32),
    TRef.unary main_call0.cst main_call0.v0 (broadcastInDim S262144x100 ![] bcast_S_S262144x100),
    TRef.binary (.of main_v4 : TRef sig ⟨S262144x100, .f32⟩) main_call0.v0 main_call0.v1 maximumf,
    unary main_arg3 main_v6 ((transpose S100x100 [1, 0] · transposes_S100x100_S100x100_1_0) : (⟨S100x100, .f32⟩ : BufTy).Contents (Elt F) → (⟨S100x100, .f32⟩ : BufTy).Contents (Elt F)),
    binary main_v5 main_v6 main_v7 ((fun l r => Host.dotGeneral dot_S262144x100_S100x100_S262144x100_1_0_0_1_n_n none l r) : (⟨S262144x100, .f32⟩ : BufTy).Contents (Elt F) → (⟨S100x100, .f32⟩ : BufTy).Contents (Elt F) → (⟨S262144x100, .f32⟩ : BufTy).Contents (Elt F)),
    unary main_arg4 main_v8 (broadcastInDim S1x100 ![1] bcast_S100_S1x100_1 : (⟨S100, .f32⟩ : BufTy).Contents (Elt F) → (⟨S1x100, .f32⟩ : BufTy).Contents (Elt F)),
    unary main_v8 main_v9 (broadcastInDim S262144x100 ![0, 1] bcast_S1x100_S262144x100_0_1 : (⟨S1x100, .f32⟩ : BufTy).Contents (Elt F) → (⟨S262144x100, .f32⟩ : BufTy).Contents (Elt F)),
    binary main_v7 main_v9 main_v10 (addf : (⟨S262144x100, .f32⟩ : BufTy).Contents (Elt F) → (⟨S262144x100, .f32⟩ : BufTy).Contents (Elt F) → (⟨S262144x100, .f32⟩ : BufTy).Contents (Elt F)),
    TRef.nullary main_call1.cst (constant S_ .f32 0x00000000#32),
    TRef.unary main_call1.cst main_call1.v0 (broadcastInDim S262144x100 ![] bcast_S_S262144x100),
    TRef.binary (.of main_v10 : TRef sig ⟨S262144x100, .f32⟩) main_call1.v0 main_call1.v1 maximumf,
    unary main_arg5 main_v12 ((transpose S100x6 [1, 0] · transposes_S6x100_S100x6_1_0) : (⟨S6x100, .f32⟩ : BufTy).Contents (Elt F) → (⟨S100x6, .f32⟩ : BufTy).Contents (Elt F)),
    binary main_v11 main_v12 main_v13 ((fun l r => Host.dotGeneral dot_S262144x100_S100x6_S262144x6_1_0_0_1_n_n none l r) : (⟨S262144x100, .f32⟩ : BufTy).Contents (Elt F) → (⟨S100x6, .f32⟩ : BufTy).Contents (Elt F) → (⟨S262144x6, .f32⟩ : BufTy).Contents (Elt F)),
    unary main_arg6 main_v14 (broadcastInDim S1x6 ![1] bcast_S6_S1x6_1 : (⟨S6, .f32⟩ : BufTy).Contents (Elt F) → (⟨S1x6, .f32⟩ : BufTy).Contents (Elt F)),
    unary main_v14 main_v15 (broadcastInDim S262144x6 ![0, 1] bcast_S1x6_S262144x6_0_1 : (⟨S1x6, .f32⟩ : BufTy).Contents (Elt F) → (⟨S262144x6, .f32⟩ : BufTy).Contents (Elt F)),
    binary main_v13 main_v15 main_v16 (addf : (⟨S262144x6, .f32⟩ : BufTy).Contents (Elt F) → (⟨S262144x6, .f32⟩ : BufTy).Contents (Elt F) → (⟨S262144x6, .f32⟩ : BufTy).Contents (Elt F)),
    unary main_v16 main_v17 (Host.tanh : (⟨S262144x6, .f32⟩ : BufTy).Contents (Elt F) → (⟨S262144x6, .f32⟩ : BufTy).Contents (Elt F)),
    unary main_arg7 main_v18 ((transpose S100x21 [1, 0] · transposes_S21x100_S100x21_1_0) : (⟨S21x100, .f32⟩ : BufTy).Contents (Elt F) → (⟨S100x21, .f32⟩ : BufTy).Contents (Elt F)),
    binary main_v11 main_v18 main_v19 ((fun l r => Host.dotGeneral dot_S262144x100_S100x21_S262144x21_1_0_0_1_n_n none l r) : (⟨S262144x100, .f32⟩ : BufTy).Contents (Elt F) → (⟨S100x21, .f32⟩ : BufTy).Contents (Elt F) → (⟨S262144x21, .f32⟩ : BufTy).Contents (Elt F)),
    unary main_arg8 main_v20 (broadcastInDim S1x21 ![1] bcast_S21_S1x21_1 : (⟨S21, .f32⟩ : BufTy).Contents (Elt F) → (⟨S1x21, .f32⟩ : BufTy).Contents (Elt F)),
    unary main_v20 main_v21 (broadcastInDim S262144x21 ![0, 1] bcast_S1x21_S262144x21_0_1 : (⟨S1x21, .f32⟩ : BufTy).Contents (Elt F) → (⟨S262144x21, .f32⟩ : BufTy).Contents (Elt F)),
    binary main_v19 main_v21 main_v22 (addf : (⟨S262144x21, .f32⟩ : BufTy).Contents (Elt F) → (⟨S262144x21, .f32⟩ : BufTy).Contents (Elt F) → (⟨S262144x21, .f32⟩ : BufTy).Contents (Elt F)),
    TRef.nullary main_call2.cst (constant S_ .f32 0x00000000#32),
    TRef.unary main_call2.cst main_call2.v0 (broadcastInDim S262144x21 ![] bcast_S_S262144x21),
    TRef.binary (.of main_v22 : TRef sig ⟨S262144x21, .f32⟩) main_call2.v0 main_call2.v1 maximumf,
    TRef.unary main_call2.cst main_call2.v2 (broadcastInDim S262144x21 ![] bcast_S_S262144x21),
    TRef.binary (.of main_v22 : TRef sig ⟨S262144x21, .f32⟩) main_call2.v2 main_call2.v3 subf,
    TRef.binary main_call2.v3 main_call2.v3 main_call2.v4 (cmpf .une),
    TRef.unary main_call2.cst main_call2.v5 (broadcastInDim S262144x21 ![] bcast_S_S262144x21),
    TRef.binary (.of main_v22 : TRef sig ⟨S262144x21, .f32⟩) main_call2.v5 main_call2.v6 addf,
    TRef.unary main_call2.v3 main_call2.v7 Host.absf,
    TRef.unary main_call2.v7 main_call2.v8 Host.negf,
    TRef.unary main_call2.v8 main_call2.v9 Host.exp,
    TRef.unary main_call2.v9 main_call2.v10 Host.log1p,
    TRef.binary main_call2.v1 main_call2.v10 main_call2.v11 addf,
    TRef.ternary main_call2.v4 main_call2.v6 main_call2.v11 main_call2.v12 select,
    nullary main_cst (constant S_ .f32 0x3F800000#32),
    unary main_cst main_v24 (broadcastInDim S6x6 ![] bcast_S_S6x6 : (⟨S_, .f32⟩ : BufTy).Contents (Elt F) → (⟨S6x6, .f32⟩ : BufTy).Contents (Elt F)),
    TRef.nullary main_call3.v0 (iotaInDim S6x6 32 0),
    TRef.nullary main_call3.c (constantI S_ 32 0#32),
    TRef.unary main_call3.c main_call3.v1 (broadcastInDim S6x6 ![] bcast_S_S6x6),
    TRef.binary main_call3.v0 main_call3.v1 main_call3.v2 addi,
    TRef.nullary main_call3.v3 (iotaInDim S6x6 32 1),
    TRef.binary main_call3.v2 main_call3.v3 main_call3.v4 (cmpi .sge),
    TRef.nullary main_call3.cst (constant S_ .f32 0x00000000#32),
    TRef.unary main_call3.cst main_call3.v5 (broadcastInDim S6x6 ![] bcast_S_S6x6),
    TRef.ternary main_call3.v4 (.of main_v24 : TRef sig ⟨S6x6, .f32⟩) main_call3.v5 main_call3.v6 select,
    nullary main_cst_0 (constant S_ .f32 0x00000000#32),
    unary main_cst_0 main_v26 (broadcastInDim S6x6 ![] bcast_S_S6x6 : (⟨S_, .f32⟩ : BufTy).Contents (Elt F) → (⟨S6x6, .f32⟩ : BufTy).Contents (Elt F)),
    binary main_v25 main_v26 main_v27 (cmpf .une : (⟨S6x6, .f32⟩ : BufTy).Contents (Elt F) → (⟨S6x6, .f32⟩ : BufTy).Contents (Elt F) → (⟨S6x6, .i1⟩ : BufTy).Contents (Elt F)),
    TRef.reshape (.of main_v27 : TRef sig ⟨S6x6, .i1⟩) main_call4.v0 rfl shapeCasts_S6x6_S36,
    TRef.unary main_call4.v0 main_call4.v1 (extui 32 · natLt_1_32),
    TRef.nullary main_call4.call0.c (constantI S_ 32 0#32),
    TRef.unary main_call4.call0.c main_call4.call0.v0 (broadcastInDim S_ ![] bcast_S_S_),
    TRef.binary main_call4.v1 main_call4.call0.v0 main_call4.call0.v1 (fun x v => Host.reduceWindow IntOp.addi ![36] ![1] ![35] ![0] x v reduceWindows_S36_S36_w36s1p35_0 h_S_),
    nullary main_c (constantI S_ 32 0#32),
    unary main_c main_v29 (broadcastInDim S21 ![] bcast_S_S21 : (⟨S_, .i32⟩ : BufTy).Contents (Elt F) → (⟨S21, .i32⟩ : BufTy).Contents (Elt F)),
    nullary main_c_1 (constantI S_ 32 0#32),
    TRef.unary (.of main_c_1 : TRef sig ⟨S_, .i32⟩) main_call5.v0 id,
    TRef.unary main_call5.v0 main_call5.v1 (broadcastInDim S36 ![] bcast_S_S36),
    TRef.binary main_call5.v1 (.of main_v28 : TRef sig ⟨S36, .i32⟩) main_call5.v2 maxsi,
    nullary main_c_2 (constantI S_ 32 0#32),
    unary main_c_2 main_v31 (broadcastInDim S36 ![] bcast_S_S36 : (⟨S_, .i32⟩ : BufTy).Contents (Elt F) → (⟨S36, .i32⟩ : BufTy).Contents (Elt F)),
    binary main_v30 main_v31 main_v32 (cmpi .slt : (⟨S36, .i32⟩ : BufTy).Contents (Elt F) → (⟨S36, .i32⟩ : BufTy).Contents (Elt F) → (⟨S36, .i1⟩ : BufTy).Contents (Elt F)),
    nullary main_c_3 (constantI S_ 32 21#32),
    unary main_c_3 main_v33 (broadcastInDim S36 ![] bcast_S_S36 : (⟨S_, .i32⟩ : BufTy).Contents (Elt F) → (⟨S36, .i32⟩ : BufTy).Contents (Elt F)),
    binary main_v30 main_v33 main_v34 (addi : (⟨S36, .i32⟩ : BufTy).Contents (Elt F) → (⟨S36, .i32⟩ : BufTy).Contents (Elt F) → (⟨S36, .i32⟩ : BufTy).Contents (Elt F)),
    ternary main_v32 main_v34 main_v30 main_v35 (select : (⟨S36, .i1⟩ : BufTy).Contents (Elt F) → (⟨S36, .i32⟩ : BufTy).Contents (Elt F) → (⟨S36, .i32⟩ : BufTy).Contents (Elt F) → (⟨S36, .i32⟩ : BufTy).Contents (Elt F)),
    unary main_v35 main_v36 (broadcastInDim S36x1 ![0] bcast_S36_S36x1_0 : (⟨S36, .i32⟩ : BufTy).Contents (Elt F) → (⟨S36x1, .i32⟩ : BufTy).Contents (Elt F)),
    nullary main_c_4 (constantI S_ 32 1#32),
    unary main_c_4 main_v37 (broadcastInDim S36 ![] bcast_S_S36 : (⟨S_, .i32⟩ : BufTy).Contents (Elt F) → (⟨S36, .i32⟩ : BufTy).Contents (Elt F)),
    ternary main_v29 main_v36 main_v37 main_v38 ((fun x i u => Host.scatter scatter_S21_S36x1_S36_n_0_0_1 IntOp.addi x i u) : (⟨S21, .i32⟩ : BufTy).Contents (Elt F) → (⟨S36x1, .i32⟩ : BufTy).Contents (Elt F) → (⟨S36, .i32⟩ : BufTy).Contents (Elt F) → (⟨S21, .i32⟩ : BufTy).Contents (Elt F)),
    TRef.nullary main_call6.call0.c (constantI S_ 32 0#32),
    TRef.unary main_call6.call0.c main_call6.call0.v0 (broadcastInDim S_ ![] bcast_S_S_),
    TRef.binary (.of main_v38 : TRef sig ⟨S21, .i32⟩) main_call6.call0.v0 main_call6.call0.v1 (fun x v => Host.reduceWindow IntOp.addi ![21] ![1] ![20] ![0] x v reduceWindows_S21_S21_w21s1p20_0 h_S_),
    nullary main_c_5 (constantI S_ 32 6#32),
    TRef.unary (.of main_c_5 : TRef sig ⟨S_, .i32⟩) main_call7.v0 (broadcastInDim S21 ![] bcast_S_S21),
    TRef.binary (.of main_v39 : TRef sig ⟨S21, .i32⟩) main_call7.v0 main_call7.v1 Host.divsi,
    TRef.unary (.of main_v39 : TRef sig ⟨S21, .i32⟩) main_call7.v2 signi,
    TRef.unary (.of main_c_5 : TRef sig ⟨S_, .i32⟩) main_call7.v3 signi,
    TRef.unary main_call7.v3 main_call7.v4 (broadcastInDim S21 ![] bcast_S_S21),
    TRef.binary main_call7.v2 main_call7.v4 main_call7.v5 (cmpi .ne),
    TRef.unary (.of main_c_5 : TRef sig ⟨S_, .i32⟩) main_call7.v6 (broadcastInDim S21 ![] bcast_S_S21),
    TRef.binary (.of main_v39 : TRef sig ⟨S21, .i32⟩) main_call7.v6 main_call7.v7 Host.remsi,
    TRef.nullary main_call7.c (constantI S_ 32 0#32),
    TRef.unary main_call7.c main_call7.v8 (broadcastInDim S21 ![] bcast_S_S21),
    TRef.binary main_call7.v7 main_call7.v8 main_call7.v9 (cmpi .ne),
    TRef.binary main_call7.v5 main_call7.v9 main_call7.v10 andi,
    TRef.nullary main_call7.c_0 (constantI S_ 32 1#32),
    TRef.unary main_call7.c_0 main_call7.v11 (broadcastInDim S21 ![] bcast_S_S21),
    TRef.binary main_call7.v1 main_call7.v11 main_call7.v12 subi,
    TRef.ternary main_call7.v10 main_call7.v12 main_call7.v1 main_call7.call0.v0 select,
    nullary main_c_6 (constantI S_ 32 6#32),
    TRef.unary (.of main_c_6 : TRef sig ⟨S_, .i32⟩) main_call8.v0 id,
    TRef.nullary main_call8.c (constantI S_ 32 0#32),
    TRef.binary main_call8.v0 main_call8.c main_call8.v1 (cmpi .eq),
    TRef.nullary main_call8.c_0 (constantI S_ 32 1#32),
    TRef.ternary main_call8.v1 main_call8.c_0 main_call8.v0 main_call8.call0.v0 select,
    TRef.unary main_call8.call0.v0 main_call8.v3 (broadcastInDim S21 ![] bcast_S_S21),
    TRef.binary (.of main_v40 : TRef sig ⟨S21, .i32⟩) main_call8.v3 main_call8.v4 Host.remsi,
    TRef.nullary main_call8.c_1 (constantI S_ 32 0#32),
    TRef.unary main_call8.c_1 main_call8.v5 (broadcastInDim S21 ![] bcast_S_S21),
    TRef.binary main_call8.v4 main_call8.v5 main_call8.v6 (cmpi .ne),
    TRef.nullary main_call8.c_2 (constantI S_ 32 0#32),
    TRef.unary main_call8.c_2 main_call8.v7 (broadcastInDim S21 ![] bcast_S_S21),
    TRef.binary main_call8.v4 main_call8.v7 main_call8.v8 (cmpi .slt),
    TRef.nullary main_call8.c_3 (constantI S_ 32 0#32),
    TRef.binary main_call8.call0.v0 main_call8.c_3 main_call8.v9 (cmpi .slt),
    TRef.unary main_call8.v9 main_call8.v10 (broadcastInDim S21 ![] bcast_S_S21),
    TRef.binary main_call8.v8 main_call8.v10 main_call8.v11 (cmpi .ne),
    TRef.binary main_call8.v11 main_call8.v6 main_call8.v12 andi,
    TRef.unary main_call8.call0.v0 main_call8.v13 (broadcastInDim S21 ![] bcast_S_S21),
    TRef.binary main_call8.v4 main_call8.v13 main_call8.v14 addi,
    TRef.ternary main_call8.v12 main_call8.v14 main_call8.v4 main_call8.v15 select,
    nullary main_c_7 (constantI S_ 32 1#32),
    TRef.unary (.of main_c_7 : TRef sig ⟨S_, .i32⟩) main_call9.v0 (broadcastInDim S21 ![] bcast_S_S21),
    TRef.binary (.of main_v39 : TRef sig ⟨S21, .i32⟩) main_call9.v0 main_call9.v1 Host.divsi,
    TRef.unary (.of main_v39 : TRef sig ⟨S21, .i32⟩) main_call9.v2 signi,
    TRef.unary (.of main_c_7 : TRef sig ⟨S_, .i32⟩) main_call9.v3 signi,
    TRef.unary main_call9.v3 main_call9.v4 (broadcastInDim S21 ![] bcast_S_S21),
    TRef.binary main_call9.v2 main_call9.v4 main_call9.v5 (cmpi .ne),
    TRef.unary (.of main_c_7 : TRef sig ⟨S_, .i32⟩) main_call9.v6 (broadcastInDim S21 ![] bcast_S_S21),
    TRef.binary (.of main_v39 : TRef sig ⟨S21, .i32⟩) main_call9.v6 main_call9.v7 Host.remsi,
    TRef.nullary main_call9.c (constantI S_ 32 0#32),
    TRef.unary main_call9.c main_call9.v8 (broadcastInDim S21 ![] bcast_S_S21),
    TRef.binary main_call9.v7 main_call9.v8 main_call9.v9 (cmpi .ne),
    TRef.binary main_call9.v5 main_call9.v9 main_call9.v10 andi,
    TRef.nullary main_call9.c_0 (constantI S_ 32 1#32),
    TRef.unary main_call9.c_0 main_call9.v11 (broadcastInDim S21 ![] bcast_S_S21),
    TRef.binary main_call9.v1 main_call9.v11 main_call9.v12 subi,
    TRef.ternary main_call9.v10 main_call9.v12 main_call9.v1 main_call9.call0.v0 select,
    nullary main_c_8 (constantI S_ 32 6#32),
    TRef.unary (.of main_c_8 : TRef sig ⟨S_, .i32⟩) main_call10.v0 id,
    TRef.nullary main_call10.c (constantI S_ 32 0#32),
    TRef.binary main_call10.v0 main_call10.c main_call10.v1 (cmpi .eq),
    TRef.nullary main_call10.c_0 (constantI S_ 32 1#32),
    TRef.ternary main_call10.v1 main_call10.c_0 main_call10.v0 main_call10.call0.v0 select,
    TRef.unary main_call10.call0.v0 main_call10.v3 (broadcastInDim S21 ![] bcast_S_S21),
    TRef.binary (.of main_v42 : TRef sig ⟨S21, .i32⟩) main_call10.v3 main_call10.v4 Host.remsi,
    TRef.nullary main_call10.c_1 (constantI S_ 32 0#32),
    TRef.unary main_call10.c_1 main_call10.v5 (broadcastInDim S21 ![] bcast_S_S21),
    TRef.binary main_call10.v4 main_call10.v5 main_call10.v6 (cmpi .ne),
    TRef.nullary main_call10.c_2 (constantI S_ 32 0#32),
    TRef.unary main_call10.c_2 main_call10.v7 (broadcastInDim S21 ![] bcast_S_S21),
    TRef.binary main_call10.v4 main_call10.v7 main_call10.v8 (cmpi .slt),
    TRef.nullary main_call10.c_3 (constantI S_ 32 0#32),
    TRef.binary main_call10.call0.v0 main_call10.c_3 main_call10.v9 (cmpi .slt),
    TRef.unary main_call10.v9 main_call10.v10 (broadcastInDim S21 ![] bcast_S_S21),
    TRef.binary main_call10.v8 main_call10.v10 main_call10.v11 (cmpi .ne),
    TRef.binary main_call10.v11 main_call10.v6 main_call10.v12 andi,
    TRef.unary main_call10.call0.v0 main_call10.v13 (broadcastInDim S21 ![] bcast_S_S21),
    TRef.binary main_call10.v4 main_call10.v13 main_call10.v14 addi,
    TRef.ternary main_call10.v12 main_call10.v14 main_call10.v4 main_call10.v15 select,
    nullary main_cst_9 (constant S_ .f32 0x00000000#32),
    unary main_cst_9 main_v44 (broadcastInDim S262144x6x6 ![] bcast_S_S262144x6x6 : (⟨S_, .f32⟩ : BufTy).Contents (Elt F) → (⟨S262144x6x6, .f32⟩ : BufTy).Contents (Elt F)),
    nullary main_c_10 (constantI S_ 32 0#32),
    unary main_c_10 main_v45 (broadcastInDim S21 ![] bcast_S_S21 : (⟨S_, .i32⟩ : BufTy).Contents (Elt F) → (⟨S21, .i32⟩ : BufTy).Contents (Elt F)),
    binary main_v41 main_v45 main_v46 (cmpi .slt : (⟨S21, .i32⟩ : BufTy).Contents (Elt F) → (⟨S21, .i32⟩ : BufTy).Contents (Elt F) → (⟨S21, .i1⟩ : BufTy).Contents (Elt F)),
    nullary main_c_11 (constantI S_ 32 6#32),
    unary main_c_11 main_v47 (broadcastInDim S21 ![] bcast_S_S21 : (⟨S_, .i32⟩ : BufTy).Contents (Elt F) → (⟨S21, .i32⟩ : BufTy).Contents (Elt F)),
    binary main_v41 main_v47 main_v48 (addi : (⟨S21, .i32⟩ : BufTy).Contents (Elt F) → (⟨S21, .i32⟩ : BufTy).Contents (Elt F) → (⟨S21, .i32⟩ : BufTy).Contents (Elt F)),
    ternary main_v46 main_v48 main_v41 main_v49 (select : (⟨S21, .i1⟩ : BufTy).Contents (Elt F) → (⟨S21, .i32⟩ : BufTy).Contents (Elt F) → (⟨S21, .i32⟩ : BufTy).Contents (Elt F) → (⟨S21, .i32⟩ : BufTy).Contents (Elt F)),
    nullary main_c_12 (constantI S_ 32 0#32),
    unary main_c_12 main_v50 (broadcastInDim S21 ![] bcast_S_S21 : (⟨S_, .i32⟩ : BufTy).Contents (Elt F) → (⟨S21, .i32⟩ : BufTy).Contents (Elt F)),
    binary main_v43 main_v50 main_v51 (cmpi .slt : (⟨S21, .i32⟩ : BufTy).Contents (Elt F) → (⟨S21, .i32⟩ : BufTy).Contents (Elt F) → (⟨S21, .i1⟩ : BufTy).Contents (Elt F)),
    nullary main_c_13 (constantI S_ 32 6#32),
    unary main_c_13 main_v52 (broadcastInDim S21 ![] bcast_S_S21 : (⟨S_, .i32⟩ : BufTy).Contents (Elt F) → (⟨S21, .i32⟩ : BufTy).Contents (Elt F)),
    binary main_v43 main_v52 main_v53 (addi : (⟨S21, .i32⟩ : BufTy).Contents (Elt F) → (⟨S21, .i32⟩ : BufTy).Contents (Elt F) → (⟨S21, .i32⟩ : BufTy).Contents (Elt F)),
    ternary main_v51 main_v53 main_v43 main_v54 (select : (⟨S21, .i1⟩ : BufTy).Contents (Elt F) → (⟨S21, .i32⟩ : BufTy).Contents (Elt F) → (⟨S21, .i32⟩ : BufTy).Contents (Elt F) → (⟨S21, .i32⟩ : BufTy).Contents (Elt F)),
    unary main_v49 main_v55 (broadcastInDim S21x1 ![0] bcast_S21_S21x1_0 : (⟨S21, .i32⟩ : BufTy).Contents (Elt F) → (⟨S21x1, .i32⟩ : BufTy).Contents (Elt F)),
    unary main_v54 main_v56 (broadcastInDim S21x1 ![0] bcast_S21_S21x1_0 : (⟨S21, .i32⟩ : BufTy).Contents (Elt F) → (⟨S21x1, .i32⟩ : BufTy).Contents (Elt F)),
    binary main_v55 main_v56 main_v57 ((fun a b => concatenate S21x2 1 [⟨S21x1, a⟩, ⟨S21x1, b⟩] concatenates_S21x1_S21x1_S21x2_d1) : (⟨S21x1, .i32⟩ : BufTy).Contents (Elt F) → (⟨S21x1, .i32⟩ : BufTy).Contents (Elt F) → (⟨S21x2, .i32⟩ : BufTy).Contents (Elt F)),
    ternary main_v44 main_v57 main_v23 main_v58 ((fun x i u => Host.scatter scatter_S262144x6x6_S21x2_S262144x21_0_12_12_1 (fun _ b => b) x i u) : (⟨S262144x6x6, .f32⟩ : BufTy).Contents (Elt F) → (⟨S21x2, .i32⟩ : BufTy).Contents (Elt F) → (⟨S262144x21, .f32⟩ : BufTy).Contents (Elt F) → (⟨S262144x6x6, .f32⟩ : BufTy).Contents (Elt F)) ]

/-- @main is that straight line: its windows and the functions' definitions unfolded at their calls, the records at their
    fields, both sides are one chain of single-operation steps once sequencing is reassociated. -/
theorem main_eq (c : Dev nD) : main (F := F) c = seq ops := by
  simp only [main, main_part0, main_part1, fn_relu.body, fn_softplus.body, fn_tril.body, fn_cumsum_0.body, fn_cumsum.body, fn_clip.body, fn_cumsum_2.body, fn_cumsum_1.body, fn_where.body, fn_floor_divide.body, fn_where_3.body, fn_remainder.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerms.lean ====
/-
  The reference's float part as named whole-array terms of its argument arrays: each definition composes the
  host operations of the printed program in the printed order.

  Two hidden layers, each max (h * W^T + b) 0, then two heads over the second hidden layer: the mean head
  tanh (h2 * Wm^T + bm) and the Cholesky-vector head softplus (h2 * Wc^T + bc), the softplus spelt as
  max z 0 + log1p (exp (-|z - 0|)) under a guard z - 0 ≠ z - 0 that would select z + 0.
-/
import proofs.«175767_j13322988552601_1_alg».proof.ReferenceIdeal
import proofs.«175767_j13322988552601_1_alg».proof.Proof.Gen.ReferenceIdeal

noncomputable section

namespace Cert.ReferenceIdeal.RefTerms

open Cert.ReferenceIdeal Cert.ReferenceIdeal.Gen Idealize.ShloMosaic

variable {F : FTy → Type} [FloatOps F]

/-- The rank-zero float zero that every rectifier and the softplus read. -/
def zeroS : FVec F S_ .f32 := constant S_ .f32 0x00000000#32

/-- First hidden layer before the rectifier: x * W1^T + b1, the bias a row broadcast down the batch. -/
def pre1T (a0 : FVec F S262144x24 .f32) (a1 : FVec F S100x24 .f32) (a2 : FVec F S100 .f32) : FVec F S262144x100 .f32 :=
  addf (Host.dotGeneral dot_S262144x24_S24x100_S262144x100_1_0_0_1_n_n none a0 (transpose S24x100 [1, 0] a1 transposes_S100x24_S24x100_1_0))
    (broadcastInDim S262144x100 ![0, 1] bcast_S1x100_S262144x100_0_1 (broadcastInDim S1x100 ![1] bcast_S100_S1x100_1 a2))

/-- First hidden layer: the rectified pre1T. -/
def hidden1T (a0 : FVec F S262144x24 .f32) (a1 : FVec F S100x24 .f32) (a2 : FVec F S100 .f32) : FVec F S262144x100 .f32 :=
  maximumf (pre1T a0 a1 a2) (broadcastInDim S262144x100 ![] bcast_S_S262144x100 zeroS)

/-- Second hidden layer before the rectifier: h1 * W2^T + b2. -/
def pre2T (a0 : FVec F S262144x24 .f32) (a1 : FVec F S100x24 .f32) (a2 : FVec F S100 .f32) (a3 : FVec F S100x100 .f32)
    (a4 : FVec F S100 .f32) : FVec F S262144x100 .f32 :=
  addf (Host.dotGeneral dot_S262144x100_S100x100_S262144x100_1_0_0_1_n_n none (hidden1T a0 a1 a2)
      (transpose S100x100 [1, 0] a3 transposes_S100x100_S100x100_1_0))
    (broadcastInDim S262144x100 ![0, 1] bcast_S1x100_S262144x100_0_1 (broadcastInDim S1x100 ![1] bcast_S100_S1x100_1 a4))

/-- Second hidden layer: the rectified pre2T. -/
def hidden2T (a0 : FVec F S262144x24 .f32) (a1 : FVec F S100x24 .f32) (a2 : FVec F S100 .f32) (a3 : FVec F S100x100 .f32)
    (a4 : FVec F S100 .f32) : FVec F S262144x100 .f32 :=
  maximumf (pre2T a0 a1 a2 a3 a4) (broadcastInDim S262144x100 ![] bcast_S_S262144x100 zeroS)

/-- The mean head: tanh (h2 * Wm^T + bm). -/
def meanT (a0 : FVec F S262144x24 .f32) (a1 : FVec F S100x24 .f32) (a2 : FVec F S100 .f32) (a3 : FVec F S100x100 .f32)
    (a4 : FVec F S100 .f32) (a5 : FVec F S6x100 .f32) (a6 : FVec F S6 .f32) : FVec F S262144x6 .f32 :=
  Host.tanh (addf (Host.dotGeneral dot_S262144x100_S100x6_S262144x6_1_0_0_1_n_n none (hidden2T a0 a1 a2 a3 a4)
      (transpose S100x6 [1, 0] a5 transposes_S6x100_S100x6_1_0))
    (broadcastInDim S262144x6 ![0, 1] bcast_S1x6_S262144x6_0_1 (broadcastInDim S1x6 ![1] bcast_S6_S1x6_1 a6)))

/-- The Cholesky-vector head before the softplus: h2 * Wc^T + bc. -/
def preCholT (a0 : FVec F S262144x24 .f32) (a1 : FVec F S100x24 .f32) (a2 : FVec F S100 .f32) (a3 : FVec F S100x100 .f32)
    (a4 : FVec F S100 .f32) (a7 : FVec F S21x100 .f32) (a8 : FVec F S21 .f32) : FVec F S262144x21 .f32 :=
  addf (Host.dotGeneral dot_S262144x100_S100x21_S262144x21_1_0_0_1_n_n none (hidden2T a0 a1 a2 a3 a4)
      (transpose S100x21 [1, 0] a7 transposes_S21x100_S100x21_1_0))
    (broadcastInDim S262144x21 ![0, 1] bcast_S1x21_S262144x21_0_1 (broadcastInDim S1x21 ![1] bcast_S21_S1x21_1 a8))

/-- The softplus as the program spells it, of a whole array z: with d = z - 0, the test d ≠ d selects
    z + 0, and otherwise the value is max z 0 + log1p (exp (-|d|)). -/
def softplusT (z : FVec F S262144x21 .f32) : FVec F S262144x21 .f32 :=
  select (cmpf .une (subf z (broadcastInDim S262144x21 ![] bcast_S_S262144x21 zeroS))
      (subf z (broadcastInDim S262144x21 ![] bcast_S_S262144x21 zeroS)))
    (addf z (broadcastInDim S262144x21 ![] bcast_S_S262144x21 zeroS))
    (addf (maximumf z (broadcastInDim S262144x21 ![] bcast_S_S262144x21 zeroS))
      (Host.log1p (Host.exp (Host.negf (Host.absf (subf z (broadcastInDim S262144x21 ![] bcast_S_S262144x21 zeroS)))))))

/-- The Cholesky-vector head: the softplus of preCholT. -/
def cholVecT (a0 : FVec F S262144x24 .f32) (a1 : FVec F S100x24 .f32) (a2 : FVec F S100 .f32) (a3 : FVec F S100x100 .f32)
    (a4 : FVec F S100 .f32) (a7 : FVec F S21x100 .f32) (a8 : FVec F S21 .f32) : FVec F S262144x21 .f32 :=
  softplusT (preCholT a0 a1 a2 a3 a4 a7 a8)

end Cert.ReferenceIdeal.RefTerms

end
-- ==== Proof.TrilStages.lean ====
/-
  The constant index table of the reference program, stage by stage.

  The reference program computes, from no input, the table of the row and column numbers of the lower triangle of a
  6 × 6 matrix in row-major order (21 pairs). Each definition below is one value of that computation, written with the
  reference program's operations in the program's order: the triangle's mask, its flattened running count, the count
  clipped below at zero, the histogram of the clipped counts over 21 bins, the histogram's running sum (the flat
  position of the k-th element of the triangle), that position's quotient and remainder by 6 (the row and the column),
  and the two columns put side by side.
-/
import proofs.«175767_j13322988552601_1_alg».proof.ReferenceIdeal
import proofs.«175767_j13322988552601_1_alg».proof.Proof.Gen.ReferenceIdeal

noncomputable section

namespace Cert.ReferenceIdeal.Tril

open Cert.ReferenceIdeal Cert.ReferenceIdeal.Gen Idealize.ShloMosaic

variable {F : FTy → Type} [FloatOps F]

/-- The scalar constant zero of the running sums and its rank-zero broadcast: the initial value of both windows. -/
def zeroInit : IVec S_ 32 := broadcastInDim S_ ![] bcast_S_S_ (constantI S_ 32 0#32)

/-- The 6 × 6 array of ones with the entries above the diagonal replaced by zero. -/
def trilOnes : FVec F S6x6 .f32 :=
  select
    (cmpi .sge
      (addi (iotaInDim S6x6 32 0) (broadcastInDim S6x6 ![] bcast_S_S6x6 (constantI S_ 32 0#32)))
      (iotaInDim S6x6 32 1))
    (broadcastInDim S6x6 ![] bcast_S_S6x6 (constant (F := F) S_ .f32 0x3F800000#32))
    (broadcastInDim S6x6 ![] bcast_S_S6x6 (constant (F := F) S_ .f32 0x00000000#32))

/-- The mask of the lower triangle: where that array differs from zero. -/
def maskT : IVec S6x6 1 :=
  cmpf .une (trilOnes (F := F)) (broadcastInDim S6x6 ![] bcast_S_S6x6 (constant (F := F) S_ .f32 0x00000000#32))

/-- The running count of the flattened mask: at flat position p, the number of mask entries at positions ≤ p. -/
def cumT : IVec S36 32 :=
  Host.reduceWindow IntOp.addi ![36] ![1] ![35] ![0]
    (extui 32 (shapeCast S36 (maskT (F := F)) shapeCasts_S6x6_S36) natLt_1_32)
    zeroInit reduceWindows_S36_S36_w36s1p35_0 h_S_

/-- The running count clipped below at zero. -/
def clipT : IVec S36 32 :=
  maxsi (broadcastInDim S36 ![] bcast_S_S36 (id (constantI S_ 32 0#32))) (cumT (F := F))

/-- The bin of each flat position: the clipped count, with 21 added where it is negative. -/
def binIdxT : IVec S36 32 :=
  select
    (cmpi .slt (clipT (F := F)) (broadcastInDim S36 ![] bcast_S_S36 (constantI S_ 32 0#32)))
    (addi (clipT (F := F)) (broadcastInDim S36 ![] bcast_S_S36 (constantI S_ 32 21#32)))
    (clipT (F := F))

/-- The histogram over 21 bins: bin k counts the flat positions whose clipped count is k. -/
def binT : IVec S21 32 :=
  Host.scatter scatter_S21_S36x1_S36_n_0_0_1 IntOp.addi
    (broadcastInDim S21 ![] bcast_S_S21 (constantI S_ 32 0#32))
    (broadcastInDim S36x1 ![0] bcast_S36_S36x1_0 (binIdxT (F := F)))
    (broadcastInDim S36 ![] bcast_S_S36 (constantI S_ 32 1#32))

/-- The histogram's running sum: the flat position of the k-th element of the triangle. -/
def flatT : IVec S21 32 :=
  Host.reduceWindow IntOp.addi ![21] ![1] ![20] ![0] (binT (F := F)) zeroInit reduceWindows_S21_S21_w21s1p20_0 h_S_

/-- Floor division of a vector by a scalar: the truncated quotient, less one where the signs differ and the
    remainder is not zero. -/
def floorDivT (x : IVec S21 32) (c : IVec S_ 32) : IVec S21 32 :=
  select
    (andi
      (cmpi .ne (signi x) (broadcastInDim S21 ![] bcast_S_S21 (signi c)))
      (cmpi .ne (Host.remsi x (broadcastInDim S21 ![] bcast_S_S21 c)) (broadcastInDim S21 ![] bcast_S_S21 (constantI S_ 32 0#32))))
    (subi (Host.divsi x (broadcastInDim S21 ![] bcast_S_S21 c)) (broadcastInDim S21 ![] bcast_S_S21 (constantI S_ 32 1#32)))
    (Host.divsi x (broadcastInDim S21 ![] bcast_S_S21 c))

/-- The divisor a remainder really uses: one in place of zero. -/
def remDivisor (c : IVec S_ 32) : IVec S_ 32 :=
  select (cmpi .eq (id c) (constantI S_ 32 0#32)) (constantI S_ 32 1#32) (id c)

/-- The truncated remainder of a vector by that divisor. -/
def remTrunc (x : IVec S21 32) (c : IVec S_ 32) : IVec S21 32 :=
  Host.remsi x (broadcastInDim S21 ![] bcast_S_S21 (remDivisor c))

/-- The remainder of a vector by a scalar with the divisor's sign: the truncated remainder, plus the divisor where
    it is not zero and its sign differs from the divisor's. -/
def remT (x : IVec S21 32) (c : IVec S_ 32) : IVec S21 32 :=
  select
    (andi
      (cmpi .ne
        (cmpi .slt (remTrunc x c) (broadcastInDim S21 ![] bcast_S_S21 (constantI S_ 32 0#32)))
        (broadcastInDim S21 ![] bcast_S_S21 (cmpi .slt (remDivisor c) (constantI S_ 32 0#32))))
      (cmpi .ne (remTrunc x c) (broadcastInDim S21 ![] bcast_S_S21 (constantI S_ 32 0#32))))
    (addi (remTrunc x c) (broadcastInDim S21 ![] bcast_S_S21 (remDivisor c)))
    (remTrunc x c)

/-- A negative index counted from the end: six added where the value is negative. -/
def wrapT (x : IVec S21 32) : IVec S21 32 :=
  select
    (cmpi .slt x (broadcastInDim S21 ![] bcast_S_S21 (constantI S_ 32 0#32)))
    (addi x (broadcastInDim S21 ![] bcast_S_S21 (constantI S_ 32 6#32)))
    x

/-- The row of the k-th element: the flat position divided by 6, then taken modulo 6. -/
def rowsT : IVec S21 32 :=
  wrapT (remT (floorDivT (flatT (F := F)) (constantI S_ 32 6#32)) (constantI S_ 32 6#32))

/-- The column of the k-th element: the flat position divided by 1, then taken modulo 6. -/
def colsT : IVec S21 32 :=
  wrapT (remT (floorDivT (flatT (F := F)) (constantI S_ 32 1#32)) (constantI S_ 32 6#32))

/-- The table: row and column side by side, 21 pairs. -/
def idxTerm : IVec S21x2 32 :=
  concatenate S21x2 1
    [⟨S21x1, broadcastInDim S21x1 ![0] bcast_S21_S21x1_0 (rowsT (F := F))⟩,
     ⟨S21x1, broadcastInDim S21x1 ![0] bcast_S21_S21x1_0 (colsT (F := F))⟩]
    concatenates_S21x1_S21x1_S21x2_d1

end Cert.ReferenceIdeal.Tril

end
-- ==== Proof.RefRun.lean ====
/-
  The reference's two results as named terms of its argument arrays, read off the list of its operations.

  Every buffer is written by exactly one operation of the list, which reads only buffers written before it, so the
  contents of a buffer after the whole list are the writing operation's function of the contents, after the whole
  list, of the buffers it reads. The mean head and the Cholesky-vector head are read directly as the composed float
  terms. The constant index table is read in stages, because as a tree it repeats its subterms many times (a
  quotient is used four times by the floor division, the truncated remainder four times by the remainder, the
  remainder three times by the wrap): each stage states one buffer as the stage's function of the buffer one stage
  below, both sides are unfolded to the same tree of operations over the argument contents, and the stages are then
  chained by rewriting. The scatter that writes the Cholesky vector into the triangle is never opened: its operand,
  its index table and its updates are shown equal to the named terms, and the scatter of equal operands is equal.
-/
import proofs.«175767_j13322988552601_1_alg».proof.Proof.RefOps
import proofs.«175767_j13322988552601_1_alg».proof.Proof.RefTerms
import proofs.«175767_j13322988552601_1_alg».proof.Proof.TrilStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- The folds over an operand's elements stay closed: no equation below looks inside them.
attribute [local irreducible] Host.scatter Host.reduceWindow concatenate

/-! ## The float heads -/

/-- The mean head: the result buffer %17 holds the composed term of the seven arrays it depends on. -/
theorem out17_eq (V : Valuation τ sig (Elt F)) :
    after ops V (main_v17 : DevRef τ sig)
      = RefTerms.meanT (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

/-- The Cholesky-vector head: buffer %23 holds the softplus of the second head's affine map. -/
theorem v23_eq (V : Valuation τ sig (Elt F)) :
    after ops V (main_v23 : DevRef τ sig)
      = RefTerms.cholVecT (V (main_arg0 : DevRef τ sig)) (V (main_arg1 : DevRef τ sig)) (V (main_arg2 : DevRef τ sig)) (V (main_arg3 : DevRef τ sig)) (V (main_arg4 : DevRef τ sig)) (V (main_arg7 : DevRef τ sig)) (V (main_arg8 : DevRef τ sig)) := by
  after_results_simp
  rfl

/-! ## The index table, stage by stage -/

/-- The flat position of the k-th element of the lower triangle: the running sum of the histogram of the clipped running count of the mask. -/
theorem v39_eq (V : Valuation τ sig (Elt F)) :
    after ops V (main_v39 : DevRef τ sig)
      = Tril.flatT (F := F) := by
  after_results_simp
  rfl

/-- The quotient by 6, rounded down. -/
theorem v40_eq (V : Valuation τ sig (Elt F)) :
    after ops V (main_v40 : DevRef τ sig)
      = Tril.floorDivT (after ops V (main_v39 : DevRef τ sig)) (constantI S_ 32 6#32) := by
  after_results_simp
  rfl

/-- Its remainder by 6, with the divisor's sign. -/
theorem v41_eq (V : Valuation τ sig (Elt F)) :
    after ops V (main_v41 : DevRef τ sig)
      = Tril.remT (after ops V (main_v40 : DevRef τ sig)) (constantI S_ 32 6#32) := by
  after_results_simp
  rfl

/-- The row numbers: that remainder, six added where negative. -/
theorem v49_eq (V : Valuation τ sig (Elt F)) :
    after ops V (main_v49 : DevRef τ sig)
      = Tril.wrapT (after ops V (main_v41 : DevRef τ sig)) := by
  after_results_simp
  rfl

/-- The quotient by 1, rounded down. -/
theorem v42_eq (V : Valuation τ sig (Elt F)) :
    after ops V (main_v42 : DevRef τ sig)
      = Tril.floorDivT (after ops V (main_v39 : DevRef τ sig)) (constantI S_ 32 1#32) := by
  after_results_simp
  rfl

/-- Its remainder by 6, with the divisor's sign. -/
theorem v43_eq (V : Valuation τ sig (Elt F)) :
    after ops V (main_v43 : DevRef τ sig)
      = Tril.remT (after ops V (main_v42 : DevRef τ sig)) (constantI S_ 32 6#32) := by
  after_results_simp
  rfl

/-- The column numbers: that remainder, six added where negative. -/
theorem v54_eq (V : Valuation τ sig (Elt F)) :
    after ops V (main_v54 : DevRef τ sig)
      = Tril.wrapT (after ops V (main_v43 : DevRef τ sig)) := by
  after_results_simp
  rfl

/-- Two columns of 21 entries side by side, as a function of the columns (so that an equation between two such
    tables is an equation between their columns). -/
def sideBySide (a b : IVec S21x1 32) : IVec S21x2 32 :=
  concatenate S21x2 1 [⟨S21x1, a⟩, ⟨S21x1, b⟩] concatenates_S21x1_S21x1_S21x2_d1

/-- The table: the row numbers and the column numbers, each as a column, side by side. -/
theorem v57_eq (V : Valuation τ sig (Elt F)) :
    after ops V (main_v57 : DevRef τ sig)
      = sideBySide (broadcastInDim S21x1 ![0] bcast_S21_S21x1_0 (after ops V (main_v49 : DevRef τ sig)))
          (broadcastInDim S21x1 ![0] bcast_S21_S21x1_0 (after ops V (main_v54 : DevRef τ sig))) := by
  after_results_simp
  -- the two columns sit inside the list of shaped blocks, where no rewriting reaches: restate the left side as the
  -- function of its columns, then read the columns
  show sideBySide _ _ = _
  after_results_simp

/-- The second result: the zero array with the Cholesky vector written at the table's positions. -/
theorem v58_stage (V : Valuation τ sig (Elt F)) :
    after ops V (main_v58 : DevRef τ sig)
      = Host.scatter scatter_S262144x6x6_S21x2_S262144x21_0_12_12_1 (fun _ b => b)
          (broadcastInDim S262144x6x6 ![] bcast_S_S262144x6x6 (constant S_ .f32 0x00000000#32))
          (after ops V (main_v57 : DevRef τ sig))
          (after ops V (main_v23 : DevRef τ sig)) := by
  after_results_simp

/-- The second result as a term of the argument arrays: the stages chained, the table's definition unfolded. -/
theorem out58_eq (V : Valuation τ sig (Elt F)) :
    after ops V (main_v58 : DevRef τ sig)
      = Host.scatter scatter_S262144x6x6_S21x2_S262144x21_0_12_12_1 (fun _ b => b)
          (broadcastInDim S262144x6x6 ![] bcast_S_S262144x6x6 (constant S_ .f32 0x00000000#32))
          (Tril.idxTerm (F := F))
          (RefTerms.cholVecT (V (main_arg0 : DevRef τ sig)) (V (main_arg1 : DevRef τ sig)) (V (main_arg2 : DevRef τ sig)) (V (main_arg3 : DevRef τ sig)) (V (main_arg4 : DevRef τ sig)) (V (main_arg7 : DevRef τ sig)) (V (main_arg8 : DevRef τ sig))) := by
  rw [v58_stage, v57_eq, v49_eq, v41_eq, v40_eq, v54_eq, v43_eq, v42_eq, v39_eq, v23_eq]
  rfl

/-! ## The arguments: no operation writes them -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

/-! ## The run -/

/-- At the compiled mesh, for any float values, from any memory with zero counters: every weakly fair execution of @main
    terminates with the first result at the mean head's term of the argument arrays, the second at the scatter of the
    Cholesky-vector head's term into the zero array at the constant index table, and the nine arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
        = RefTerms.meanT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v58)
        = Host.scatter scatter_S262144x6x6_S21x2_S262144x21_0_12_12_1 (fun _ b => b)
          (broadcastInDim S262144x6x6 ![] bcast_S_S262144x6x6 (constant S_ .f32 0x00000000#32))
          (Tril.idxTerm (F := F))
          (RefTerms.cholVecT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v17).trans (out17_eq _), (h c main_v58).trans (out58_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _), (h c main_arg7).trans (arg7_eq _), (h c main_arg8).trans (arg8_eq _)⟩)
    (run_main m ρ)

end Cert.ReferenceIdeal.RefRun

end
-- ==== Proof.RefRead.lean ====
/-
  The reference's float terms read at an index: each is the specification's row function of the batch row.

  A host dot_general of a [B, K] array with a transposed [N, K] weight, plus the bias row broadcast down the batch,
  read at (b, o), is the affine map of row b: the sum over k of H (b, k) * W (o, k), plus bias o.  The rectifier and
  the softplus act entry by entry.
-/
import proofs.«175767_j13322988552601_1_alg».proof.Proof.RefTerms
import proofs.«175767_j13322988552601_1_alg».proof.Proof.MlpSpec
import proofs.«175767_j13322988552601_1_alg».proof.Proof.LibDotSum
import Idealize.ShloMosaic.Lib.ValueLayout
import Idealize.ShloMosaic.Lib.IdealHost
import Idealize.ShloMosaic.Lib.Pipeline.Value

noncomputable section

open scoped BigOperators

namespace Cert.ReferenceIdeal.RefRead

open Cert.ReferenceIdeal Cert.ReferenceIdeal.Gen Cert.ReferenceIdeal.RefTerms Idealize.ShloMosaic Idealize.ShloMosaic.ValueIdx
open Cert.MlpSpec Cert.Lib

/-- A bias vector made a row and broadcast down the batch reads, at (b, o), the bias at o. -/
theorem bias_apply {N B : Nat} (hN : N ≠ 1) (a : (⟨1, ![N]⟩ : Shape).Idx → EReal)
    (h1 : (⟨1, ![N]⟩ : Shape).BroadcastsInDim ⟨2, ![1, N]⟩ (![1] : Fin 1 → Fin 2))
    (h2 : (⟨2, ![1, N]⟩ : Shape).BroadcastsInDim ⟨2, ![B, N]⟩ (![0, 1] : Fin 2 → Fin 2)) (b : Fin B) (o : Fin N) :
    broadcastInDim ⟨2, ![B, N]⟩ ![0, 1] h2 (broadcastInDim ⟨2, ![1, N]⟩ ![1] h1 a) (ix2 b o) = a (ix1 o) := by
  rw [broadcastInDim_apply ![0, 1] h2 _ (ix2 b o) (ix2 (0 : Fin 1) o) (fun ax => by
    match ax with
    | ⟨0, _⟩ => rfl
    | ⟨1, _⟩ => show o.val = if N = 1 then 0 else o.val; rw [if_neg hN])]
  exact broadcastInDim_apply ![1] h1 a (ix2 (0 : Fin 1) o) (ix1 o) (fun ax => by
    match ax with
    | ⟨0, _⟩ => show o.val = if N = 1 then 0 else o.val; rw [if_neg hN])

/-- ONE AFFINE LAYER of the reference read at (b, o): the affine map of row b of its left operand. -/
theorem dense_apply {Bn K N : Nat} (hN : N ≠ 1) (d : DotDims ⟨2, ![Bn, K]⟩ ⟨2, ![K, N]⟩ ⟨2, ![Bn, N]⟩)
    (hlb : d.lhsBatch = []) (hrb : d.rhsBatch = []) (hln : d.lhsNonContracting = [0]) (hrn : d.rhsNonContracting = [1])
    (hlc : d.lhsContracting = [1]) (hrc : d.rhsContracting = [0]) (hr : d.contr.rank = 1) (hs : d.contr.size ⟨0, by omega⟩ = K)
    (H : FVec Ideal ⟨2, ![Bn, K]⟩ .f32) (W : FVec Ideal ⟨2, ![N, K]⟩ .f32)
    (ht : (⟨2, ![N, K]⟩ : Shape).Transposes [1, 0] ⟨2, ![K, N]⟩) (bias : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![Bn, N]⟩ (![0, 1] : Fin 2 → Fin 2)) (b : Fin Bn) (o : Fin N) :
    addf (Host.dotGeneral d none H (transpose ⟨2, ![K, N]⟩ [1, 0] W ht))
        (broadcastInDim ⟨2, ![Bn, N]⟩ ![0, 1] h2 (broadcastInDim ⟨2, ![1, N]⟩ ![1] h1 bias)) (ix2 b o)
      = lin (fun k => H (ix2 b k)) W bias o := by
  show Host.dotGeneral d none H (transpose ⟨2, ![K, N]⟩ [1, 0] W ht) (ix2 b o)
      + broadcastInDim ⟨2, ![Bn, N]⟩ ![0, 1] h2 (broadcastInDim ⟨2, ![1, N]⟩ ![1] h1 bias) (ix2 b o) = _
  rw [bias_apply hN bias h1 h2 b o]
  unfold lin
  refine congrArg (· + bias (ix1 o)) ?_
  simp only [Host.dotGeneral]
  rw [Ideal.dotGeneral_apply]
  refine (dot2_sum d 0 1 1 0 hlb hrb hln hrn hlc hrc K hr hs H _ (ix2 b o) (fun k => ix2 b k) (fun k => ix2 k o)
    (fun _ => rfl) (fun _ => rfl) (fun _ => rfl) (fun _ => rfl)).trans ?_
  refine Finset.sum_congr rfl fun k _ => ?_
  rw [transpose_ix2_apply]

variable (a0 : FVec Ideal S262144x24 .f32) (a1 : FVec Ideal S100x24 .f32) (a2 : FVec Ideal S100 .f32)
  (a3 : FVec Ideal S100x100 .f32) (a4 : FVec Ideal S100 .f32)

/-- The first hidden layer at (b, o). -/
theorem hidden1T_apply (b : Fin 262144) (o : Fin 100) :
    hidden1T a0 a1 a2 (ix2 b o) = hid (rowOf a0 b) a1 a2 o := by
  show max (pre1T a0 a1 a2 (ix2 b o)) Z = _
  unfold pre1T hid
  rw [dense_apply (by decide) _ rfl rfl rfl rfl rfl rfl rfl rfl a0 a1 _ a2 _ _ b o]
  rfl

/-- The second hidden layer at (b, o). -/
theorem hidden2T_apply (b : Fin 262144) (o : Fin 100) :
    hidden2T a0 a1 a2 a3 a4 (ix2 b o) = hidden2 a1 a2 a3 a4 (rowOf a0 b) o := by
  show max (pre2T a0 a1 a2 a3 a4 (ix2 b o)) Z = _
  unfold pre2T hidden2
  rw [dense_apply (by decide) _ rfl rfl rfl rfl rfl rfl rfl rfl (hidden1T a0 a1 a2) a3 _ a4 _ _ b o]
  show max (lin (fun k => hidden1T a0 a1 a2 (ix2 b k)) a3 a4 o) Z = hid (hid (rowOf a0 b) a1 a2) a3 a4 o
  simp only [hidden1T_apply]
  rfl

/-- The mean head at (b, a). -/
theorem meanT_apply (a5 : FVec Ideal S6x100 .f32) (a6 : FVec Ideal S6 .f32) (b : Fin 262144) (a : Fin 6) :
    meanT a0 a1 a2 a3 a4 a5 a6 (ix2 b a) = meanRow a1 a2 a3 a4 (rowOf a0 b) a5 a6 a := by
  unfold meanT meanRow
  show Ideal.tanh ((addf _ _ : FVec Ideal S262144x6 .f32) (ix2 b a)) = _
  rw [dense_apply (by decide) _ rfl rfl rfl rfl rfl rfl rfl rfl (hidden2T a0 a1 a2 a3 a4) a5 _ a6 _ _ b a]
  simp only [hidden2T_apply]

/-- The Cholesky-vector head at (b, i). -/
theorem cholVecT_apply (a7 : FVec Ideal S21x100 .f32) (a8 : FVec Ideal S21 .f32) (b : Fin 262144) (i : Fin 21) :
    cholVecT a0 a1 a2 a3 a4 a7 a8 (ix2 b i) = cholVecRow a1 a2 a3 a4 (rowOf a0 b) a7 a8 i := by
  show softplusE (preCholT a0 a1 a2 a3 a4 a7 a8 (ix2 b i)) = _
  unfold preCholT cholVecRow
  rw [dense_apply (by decide) _ rfl rfl rfl rfl rfl rfl rfl rfl (hidden2T a0 a1 a2 a3 a4) a7 _ a8 _ _ b i]
  simp only [hidden2T_apply]

end Cert.ReferenceIdeal.RefRead

end
-- ==== Proof.TrilTable.lean ====
/-
  The values of the constant index table: entry k of the table is the row and the column of the k-th element, in
  row-major order, of the lower triangle of a 6 × 6 matrix.

  The table is computed from no input, so each stage is a closed term. The first stage compares extended reals (the
  array of ones and zeros against zero), which is not decided by evaluation: it is shown equal to the integer comparison
  that selected the ones. Every later stage is arithmetic on 32-bit words, and is evaluated on the literal value of the
  stage before it.
-/
import proofs.«175767_j13322988552601_1_alg».proof.Proof.TrilStages
import Idealize.ShloMosaic.Lib.IdealHost

noncomputable section

namespace Cert.ReferenceIdeal.Tril

open Cert.ReferenceIdeal Cert.ReferenceIdeal.Gen Idealize.ShloMosaic Idealize.ShloMosaic.ValueIdx

/-- Row of the k-th element of the lower triangle of a 6 × 6 matrix, in row-major order. -/
def trilRow : Fin 21 → Nat := ![0, 1, 1, 2, 2, 2, 3, 3, 3, 3, 4, 4, 4, 4, 4, 5, 5, 5, 5, 5, 5]
/-- Column of the k-th element of the lower triangle of a 6 × 6 matrix, in row-major order. -/
def trilCol : Fin 21 → Nat := ![0, 0, 1, 0, 1, 2, 0, 1, 2, 3, 0, 1, 2, 3, 4, 0, 1, 2, 3, 4, 5]

/-! ## Literal vectors -/

/-- The vector of 36 words with the given entries. -/
def lit36 (t : Fin 36 → BitVec 32) : IVec S36 32 := fun j => t (j 0)
/-- The vector of 21 words with the given entries. -/
def lit21 (t : Fin 21 → BitVec 32) : IVec S21 32 := fun j => t (j 0)

/-- Two vectors of 36 words that agree at every position are equal. -/
theorem ext36 (x : IVec S36 32) (t : Fin 36 → BitVec 32) (h : ∀ k : Fin 36, x (ix1 k) = t k) : x = lit36 t := by
  funext j
  obtain ⟨k, rfl⟩ : ∃ k, j = ix1 k := ⟨j 0, eq_ix1 j⟩
  exact h k
/-- Two vectors of 21 words that agree at every position are equal. -/
theorem ext21 (x : IVec S21 32) (t : Fin 21 → BitVec 32) (h : ∀ k : Fin 21, x (ix1 k) = t k) : x = lit21 t := by
  funext j
  obtain ⟨k, rfl⟩ : ∃ k, j = ix1 k := ⟨j 0, eq_ix1 j⟩
  exact h k

/-! ## The mask: the one comparison of extended reals -/

/-- One or zero, chosen by a bit, differs from zero exactly when the bit is set. -/
theorem cmp_une_select (b : BitVec 1) :
    Ideal.cmp .une (Scalar.select b (Ideal.ofBits .f32 0x3F800000#32) (Ideal.ofBits .f32 0x00000000#32))
      (Ideal.ofBits .f32 0x00000000#32) = b := by
  rw [Ideal.ofBits_one_f32, Ideal.ofBits_zero_f32]
  rcases BitVec.eq_zero_or_eq_one b with h | h <;> subst h <;> simp [Scalar.select, Ideal.cmp]

/-- The mask as an integer comparison of the coordinates: row number (plus zero) at least the column number. -/
def maskLit : IVec S6x6 1 := fun j =>
  IntOp.cmpi .sge (IntOp.addi (BitVec.ofNat 32 (j 0).val) 0#32) (BitVec.ofNat 32 (j 1).val)

/-- The mask of the program is that comparison. -/
theorem maskT_eq : maskT (F := Ideal) = maskLit := by
  funext j
  exact cmp_une_select _

/-! ## The later stages as functions of the stage before -/

/-- The running count of a flattened mask. -/
def cumOf (m : IVec S6x6 1) : IVec S36 32 :=
  Host.reduceWindow IntOp.addi ![36] ![1] ![35] ![0]
    (extui 32 (shapeCast S36 m shapeCasts_S6x6_S36) natLt_1_32)
    zeroInit reduceWindows_S36_S36_w36s1p35_0 h_S_

/-- The bin of each position, from the running count: clipped below at zero, 21 added where negative. -/
def binIdxOf (c : IVec S36 32) : IVec S36 32 :=
  select
    (cmpi .slt (maxsi (broadcastInDim S36 ![] bcast_S_S36 (id (constantI S_ 32 0#32))) c)
      (broadcastInDim S36 ![] bcast_S_S36 (constantI S_ 32 0#32)))
    (addi (maxsi (broadcastInDim S36 ![] bcast_S_S36 (id (constantI S_ 32 0#32))) c)
      (broadcastInDim S36 ![] bcast_S_S36 (constantI S_ 32 21#32)))
    (maxsi (broadcastInDim S36 ![] bcast_S_S36 (id (constantI S_ 32 0#32))) c)

/-- The histogram over 21 bins of a vector of bins. -/
def binOf (b : IVec S36 32) : IVec S21 32 :=
  Host.scatter scatter_S21_S36x1_S36_n_0_0_1 IntOp.addi
    (broadcastInDim S21 ![] bcast_S_S21 (constantI S_ 32 0#32))
    (broadcastInDim S36x1 ![0] bcast_S36_S36x1_0 b)
    (broadcastInDim S36 ![] bcast_S_S36 (constantI S_ 32 1#32))

/-- The running sum of a vector of 21 words. -/
def flatOf (b : IVec S21 32) : IVec S21 32 :=
  Host.reduceWindow IntOp.addi ![21] ![1] ![20] ![0] b zeroInit reduceWindows_S21_S21_w21s1p20_0 h_S_

/-- Row of a flat position: quotient by 6, modulo 6, wrapped. -/
def rowsOf (f : IVec S21 32) : IVec S21 32 :=
  wrapT (remT (floorDivT f (constantI S_ 32 6#32)) (constantI S_ 32 6#32))

/-- Column of a flat position: quotient by 1, modulo 6, wrapped. -/
def colsOf (f : IVec S21 32) : IVec S21 32 :=
  wrapT (remT (floorDivT f (constantI S_ 32 1#32)) (constantI S_ 32 6#32))

/-- The two columns side by side. -/
def tableOf (r c : IVec S21 32) : IVec S21x2 32 :=
  concatenate S21x2 1
    [⟨S21x1, broadcastInDim S21x1 ![0] bcast_S21_S21x1_0 r⟩,
     ⟨S21x1, broadcastInDim S21x1 ![0] bcast_S21_S21x1_0 c⟩]
    concatenates_S21x1_S21x1_S21x2_d1

theorem cumT_of : cumT (F := Ideal) = cumOf (maskT (F := Ideal)) := rfl
theorem binIdxT_of : binIdxT (F := Ideal) = binIdxOf (cumT (F := Ideal)) := rfl
theorem binT_of : binT (F := Ideal) = binOf (binIdxT (F := Ideal)) := rfl
theorem flatT_of : flatT (F := Ideal) = flatOf (binT (F := Ideal)) := rfl
theorem rowsT_of : rowsT (F := Ideal) = rowsOf (flatT (F := Ideal)) := rfl
theorem colsT_of : colsT (F := Ideal) = colsOf (flatT (F := Ideal)) := rfl
theorem idxTerm_of : idxTerm (F := Ideal) = tableOf (rowsT (F := Ideal)) (colsT (F := Ideal)) := rfl

/-! ## The literal value of each stage -/

/-- Running count of the flattened mask: 1 six times, 2, 3 five times, … , 21. -/
def cumTab : Fin 36 → BitVec 32 := ![1#32, 1#32, 1#32, 1#32, 1#32, 1#32, 2#32, 3#32, 3#32, 3#32, 3#32, 3#32, 4#32, 5#32, 6#32, 6#32, 6#32, 6#32, 7#32, 8#32, 9#32, 10#32, 10#32, 10#32, 11#32, 12#32, 13#32, 14#32, 15#32, 15#32, 16#32, 17#32, 18#32, 19#32, 20#32, 21#32]
/-- Histogram of the running count over the bins 0 … 20. -/
def binTab : Fin 21 → BitVec 32 := ![0#32, 6#32, 1#32, 5#32, 1#32, 1#32, 4#32, 1#32, 1#32, 1#32, 3#32, 1#32, 1#32, 1#32, 1#32, 2#32, 1#32, 1#32, 1#32, 1#32, 1#32]
/-- Flat position of the k-th element of the triangle. -/
def flatTab : Fin 21 → BitVec 32 := ![0#32, 6#32, 7#32, 12#32, 13#32, 14#32, 18#32, 19#32, 20#32, 21#32, 24#32, 25#32, 26#32, 27#32, 28#32, 30#32, 31#32, 32#32, 33#32, 34#32, 35#32]
/-- Row of the k-th element, as a word. -/
def rowTab : Fin 21 → BitVec 32 := fun k => BitVec.ofNat 32 (trilRow k)
/-- Column of the k-th element, as a word. -/
def colTab : Fin 21 → BitVec 32 := fun k => BitVec.ofNat 32 (trilCol k)

theorem cumOf_at : ∀ k : Fin 36, cumOf maskLit (ix1 k) = cumTab k := by decide +kernel
theorem binIdxOf_at : ∀ k : Fin 36, binIdxOf (lit36 cumTab) (ix1 k) = cumTab k := by decide +kernel
theorem binOf_at : ∀ k : Fin 21, binOf (lit36 cumTab) (ix1 k) = binTab k := by decide +kernel
theorem flatOf_at : ∀ k : Fin 21, flatOf (lit21 binTab) (ix1 k) = flatTab k := by decide +kernel
theorem rowsOf_at : ∀ k : Fin 21, rowsOf (lit21 flatTab) (ix1 k) = rowTab k := by decide +kernel
theorem colsOf_at : ∀ k : Fin 21, colsOf (lit21 flatTab) (ix1 k) = colTab k := by decide +kernel
theorem tableOf_at : ∀ i : Fin 21,
    tableOf (lit21 rowTab) (lit21 colTab) (ix2 i (0 : Fin 2)) = BitVec.ofNat 32 (trilRow i) ∧
    tableOf (lit21 rowTab) (lit21 colTab) (ix2 i (1 : Fin 2)) = BitVec.ofNat 32 (trilCol i) := by decide +kernel

theorem cumT_lit : cumT (F := Ideal) = lit36 cumTab := by
  rw [cumT_of, maskT_eq]; exact ext36 _ _ cumOf_at
theorem binIdxT_lit : binIdxT (F := Ideal) = lit36 cumTab := by
  rw [binIdxT_of, cumT_lit]; exact ext36 _ _ binIdxOf_at
theorem binT_lit : binT (F := Ideal) = lit21 binTab := by
  rw [binT_of, binIdxT_lit]; exact ext21 _ _ binOf_at
theorem flatT_lit : flatT (F := Ideal) = lit21 flatTab := by
  rw [flatT_of, binT_lit]; exact ext21 _ _ flatOf_at
theorem rowsT_lit : rowsT (F := Ideal) = lit21 rowTab := by
  rw [rowsT_of, flatT_lit]; exact ext21 _ _ rowsOf_at
theorem colsT_lit : colsT (F := Ideal) = lit21 colTab := by
  rw [colsT_of, flatT_lit]; exact ext21 _ _ colsOf_at

/-! ## The table -/

/-- Entry (i, 0) of the table is the row of the i-th element of the triangle. -/
theorem idxTerm_row (i : Fin 21) : idxTerm (F := Ideal) (ix2 i (0 : Fin 2)) = BitVec.ofNat 32 (trilRow i) := by
  rw [idxTerm_of, rowsT_lit, colsT_lit]; exact (tableOf_at i).1

/-- Entry (i, 1) of the table is the column of the i-th element of the triangle. -/
theorem idxTerm_col (i : Fin 21) : idxTerm (F := Ideal) (ix2 i (1 : Fin 2)) = BitVec.ofNat 32 (trilCol i) := by
  rw [idxTerm_of, rowsT_lit, colsT_lit]; exact (tableOf_at i).2

end Cert.ReferenceIdeal.Tril

end
-- ==== Proof.LibScatterSet.lean ====
/-
  `stablehlo.scatter` whose body returns the update (a "set"), read at an index.

  Part 1 (any dimension numbers): the fold that defines the scatter overwrites, at each update index in row-major
  order, the element of the result the update index lands on. Read at a result index `i`: if no update index lands on
  `i` the operand's element is still there (`scatter_set_miss`); if the landing map is injective and update index `j`
  lands on `i`, the element is the update's `j`-th (`scatter_set_hit`).

  Part 2 (two instances): a small array written into the top-left corner of a larger one, ONE scatter index equal to
  `0`: rows `[R, D]` into `[R', D]` (`padRows_apply`) and a vector `[R]` into `[R']` (`padVec_apply`), `R ≤ R'`.
-/
import Idealize.ShloMosaic.Lib.ValueIdx

noncomputable section

namespace Cert.Lib

open Idealize.ShloMosaic Idealize.ShloMosaic.ValueIdx

/-! ## A fold of overwriting steps, read at one place -/

section Fold
variable {ι κ β : Type}

/-- A left fold of steps each of which leaves place `i` alone leaves place `i` alone. -/
theorem foldl_step_miss (step : (κ → β) → ι → (κ → β)) (tgt : ι → Option κ) (i : κ)
    (hmiss : ∀ r n, tgt n ≠ some i → step r n i = r i) :
    ∀ (L : List ι) (x : κ → β), (∀ n ∈ L, tgt n ≠ some i) → (L.foldl step x) i = x i := by
  intro L
  induction L with
  | nil => intro x _; rfl
  | cons n L ih =>
    intro x h
    rw [List.foldl_cons, ih (step x n) (fun m hm => h m (List.mem_cons_of_mem _ hm))]
    exact hmiss x n (h n List.mem_cons_self)

/-- A left fold over a list without repeats of steps that overwrite place `tgt n` by `val n`, when at most one `n`
    has `tgt n = some i`: at place `i` the result is `val n₀` for the `n₀` of the list with `tgt n₀ = some i`. -/
theorem foldl_step_hit (step : (κ → β) → ι → (κ → β)) (tgt : ι → Option κ) (val : ι → β) (i : κ)
    (hhit : ∀ r n, tgt n = some i → step r n i = val n)
    (hmiss : ∀ r n, tgt n ≠ some i → step r n i = r i)
    (hinj : ∀ n n', tgt n = some i → tgt n' = some i → n = n') :
    ∀ (L : List ι) (x : κ → β) (n₀ : ι), L.Nodup → n₀ ∈ L → tgt n₀ = some i → (L.foldl step x) i = val n₀ := by
  intro L
  induction L with
  | nil => intro x n₀ _ hmem _; exact absurd hmem List.not_mem_nil
  | cons n L ih =>
    intro x n₀ hnd hmem h0
    rw [List.foldl_cons]
    rcases List.mem_cons.mp hmem with rfl | hmem'
    · rw [foldl_step_miss step tgt i hmiss L (step x n₀) (fun m hm hmi => by
        have : m = n₀ := hinj m n₀ hmi h0
        subst this
        exact (List.nodup_cons.mp hnd).1 hm)]
      exact hhit x n₀ h0
    · exact ih (step x n) n₀ (List.nodup_cons.mp hnd).2 hmem' h0

end Fold

/-! ## The scatter that sets, read at an index -/

section Generic
variable {s si u : Shape} {α : Type} {w : Nat}

/-- One step of the scatter's fold at an update index that lands on `i` writes the update's element at `i`. -/
theorem scatter_step_hit (d : ScatterDims s si u) (idx : IVec si w) (upd : u.Idx → α) (r : s.Idx → α)
    (n : Fin u.numel) (i : s.Idx) (h : d.resultIdx? (u.rowMajor.symm n) idx = some i) :
    (match d.resultIdx? (u.rowMajor.symm n) idx with
      | some i => fun i' => if i' = i then (fun (_ b : α) => b) (r i) (upd (u.rowMajor.symm n)) else r i'
      | none => r) i = upd (u.rowMajor.symm n) := by
  rw [h]
  exact if_pos rfl

/-- One step of the scatter's fold at an update index that does not land on `i` leaves the element at `i`. -/
theorem scatter_step_miss (d : ScatterDims s si u) (idx : IVec si w) (upd : u.Idx → α) (r : s.Idx → α)
    (n : Fin u.numel) (i : s.Idx) (h : d.resultIdx? (u.rowMajor.symm n) idx ≠ some i) :
    (match d.resultIdx? (u.rowMajor.symm n) idx with
      | some i => fun i' => if i' = i then (fun (_ b : α) => b) (r i) (upd (u.rowMajor.symm n)) else r i'
      | none => r) i = r i := by
  cases hc : d.resultIdx? (u.rowMajor.symm n) idx with
  | none => rfl
  | some i₁ =>
    have hne : i ≠ i₁ := fun e => h (by rw [hc, e])
    exact if_neg hne

/-- THE SETTING SCATTER AT AN INDEX NO UPDATE LANDS ON: the operand's element. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  exact foldl_step_miss _ (fun n => d.resultIdx? (u.rowMajor.symm n) idx) i
    (fun r n hn => scatter_step_miss d idx upd r n i hn) _ x (fun n _ => h _)

/-- THE SETTING SCATTER AT THE INDEX UPDATE INDEX `j` LANDS ON, when no two update indices land on the same index:
    the update's element at `j`. -/
theorem scatter_set_hit (d : ScatterDims s si u) (x : s.Idx → α) (idx : IVec si w) (upd : u.Idx → α)
    (hinj : ∀ j j' i, d.resultIdx? j idx = some i → d.resultIdx? j' idx = some i → j = j')
    (j : u.Idx) (i : s.Idx) (h : d.resultIdx? j idx = some i) :
    Host.scatter d (fun _ b => b) x idx upd i = upd j := by
  unfold Host.scatter
  have hj : u.rowMajor.symm (u.rowMajor j) = j := u.rowMajor.symm_apply_apply j
  have key := foldl_step_hit
    (fun (r : s.Idx → α) (n : Fin u.numel) =>
      match d.resultIdx? (u.rowMajor.symm n) idx with
      | some i => fun i' => if i' = i then (fun (_ b : α) => b) (r i) (upd (u.rowMajor.symm n)) else r i'
      | none => r)
    (fun n => d.resultIdx? (u.rowMajor.symm n) idx) (fun n => upd (u.rowMajor.symm n)) i
    (fun r n hn => scatter_step_hit d idx upd r n i hn)
    (fun r n hn => scatter_step_miss d idx upd r n i hn)
    (fun n n' hn hn' => u.rowMajor.symm.injective (hinj _ _ i hn hn'))
    (List.finRange u.numel) x (u.rowMajor j) (List.nodup_finRange _) (List.mem_finRange _) (by rw [hj]; exact h)
  rw [hj] at key
  exact key

end Generic

/-! ## Rows written into the top-left corner: `[R, D]` into `[R', D]` at the one scatter index `0` -/

section PadRows
variable {α : Type} {w : Nat}

/-- The dimension numbers of `zeros([R', D]).at[:R, :].set(v)`: both update axes are window axes going to the operand's
    two axes, no inserted axis, the one-component index vector (axis `0` of the scatter indices `[1]`) starts axis
    `0`; their conditions `wf` are decided on a program's literal shapes. -/
abbrev padRowsDims (R R' D : Nat) (wf : ScatterDims.WF ⟨2, ![R', D]⟩ ⟨1, ![1]⟩ ⟨2, ![R, D]⟩ [0, 1] [] [0] 0) :
    ScatterDims ⟨2, ![R', D]⟩ ⟨1, ![1]⟩ ⟨2, ![R, D]⟩ where
  updateWindowDims := [0, 1]
  insertedWindowDims := []
  scatterDimsToOperandDims := [0]
  indexVectorDim := 0
  wf := wf

/-- With every scatter index `0` the window starts at `0` on every axis. -/
theorem padRows_start {R R' D : Nat} (wf : ScatterDims.WF ⟨2, ![R', D]⟩ ⟨1, ![1]⟩ ⟨2, ![R, D]⟩ [0, 1] [] [0] 0)
    (idx : IVec ⟨1, ![1]⟩ w) (h0 : ∀ k, (idx k).toInt = 0) (j : (⟨2, ![R, D]⟩ : Shape).Idx)
    (a : Fin 2) : (padRowsDims R R' D wf).start j idx a = 0 := by
  unfold ScatterDims.start
  split
  · exact h0 _
  · rfl

/-- The window coordinate on an operand axis is the update index's coordinate on the same axis. -/
theorem padRows_window {R R' D : Nat} (wf : ScatterDims.WF ⟨2, ![R', D]⟩ ⟨1, ![1]⟩ ⟨2, ![R, D]⟩ [0, 1] [] [0] 0)
    (j : (⟨2, ![R, D]⟩ : Shape).Idx) (a : Fin 2) : (padRowsDims R R' D wf).window j a = (j a).val := by
  have hm : a ∈ (padRowsDims R R' D wf).sKept := List.mem_filter.2 ⟨List.mem_finRange a, by simp⟩
  unfold ScatterDims.window
  rw [dif_pos hm]
  match a with
  | ⟨0, _⟩ => rfl
  | ⟨1, _⟩ => rfl

/-- Update index `(p, q)` lands on operand index `(p, q)`. -/
theorem padRows_resultIdx {R R' D : Nat} (wf : ScatterDims.WF ⟨2, ![R', D]⟩ ⟨1, ![1]⟩ ⟨2, ![R, D]⟩ [0, 1] [] [0] 0)
    (idx : IVec ⟨1, ![1]⟩ w) (h0 : ∀ k, (idx k).toInt = 0) (hR : R ≤ R') (j : (⟨2, ![R, D]⟩ : Shape).Idx) :
    (padRowsDims R R' D wf).resultIdx? j idx
      = some (ix2 ⟨(j 0).val, lt_of_lt_of_le (idx2_lt0 j) hR⟩ ⟨(j 1).val, idx2_lt1 j⟩) := by
  have hc : ∀ a : Fin 2, 0 ≤ (padRowsDims R R' D wf).start j idx a + (padRowsDims R R' D wf).window j a ∧
      (padRowsDims R R' D wf).start j idx a + (padRowsDims R R' D wf).window j a
        < ((⟨2, ![R', D]⟩ : Shape).size a : Nat) := by
    intro a
    rw [padRows_start wf idx h0 j a, padRows_window wf j a]
    match a with
    | ⟨0, _⟩ => have := idx2_lt0 j; exact ⟨by omega, by show (0 : Int) + ((j 0).val : Int) < (R' : Int); omega⟩
    | ⟨1, _⟩ => have := idx2_lt1 j; exact ⟨by omega, by show (0 : Int) + ((j 1).val : Int) < (D : Int); omega⟩
  unfold ScatterDims.resultIdx?
  rw [dif_pos hc]
  congr 1
  funext a
  refine Fin.ext ?_
  show ((padRowsDims R R' D wf).start j idx a + (padRowsDims R R' D wf).window j a).toNat = _
  rw [padRows_start wf idx h0 j a, padRows_window wf j a]
  match a with
  | ⟨0, _⟩ => show ((0 : Int) + ((j 0).val : Int)).toNat = (j 0).val; omega
  | ⟨1, _⟩ => show ((0 : Int) + ((j 1).val : Int)).toNat = (j 1).val; omega

/-- THE ROWS WRITTEN INTO THE CORNER, READ INSIDE THE CORNER: the written array's element. -/
theorem padRows_apply {R R' D : Nat} (wf : ScatterDims.WF ⟨2, ![R', D]⟩ ⟨1, ![1]⟩ ⟨2, ![R, D]⟩ [0, 1] [] [0] 0)
    (x : (⟨2, ![R', D]⟩ : Shape).Idx → α) (idx : IVec ⟨1, ![1]⟩ w) (upd : (⟨2, ![R, D]⟩ : Shape).Idx → α)
    (h0 : ∀ k, (idx k).toInt = 0) (hR : R ≤ R') (p : Fin R) (q : Fin D) :
    Host.scatter (padRowsDims R R' D wf) (fun _ b => b) x idx upd (ix2 ⟨p.val, lt_of_lt_of_le p.isLt hR⟩ q)
      = upd (ix2 p q) := by
  refine scatter_set_hit (padRowsDims R R' D wf) x idx upd ?_ (ix2 p q) _ ?_
  · intro j j' i hj hj'
    rw [padRows_resultIdx wf idx h0 hR j] at hj
    rw [padRows_resultIdx wf idx h0 hR j'] at hj'
    have e := (Option.some.inj hj).trans (Option.some.inj hj').symm
    have e0 : (j 0).val = (j' 0).val := by
      have := congrArg Fin.val (congrFun e ⟨0, Nat.zero_lt_two⟩); exact this
    have e1 : (j 1).val = (j' 1).val := by
      have := congrArg Fin.val (congrFun e ⟨1, Nat.one_lt_two⟩); exact this
    rw [eq_ix2 j, eq_ix2 j', Fin.ext e0, Fin.ext e1]
  · exact padRows_resultIdx wf idx h0 hR (ix2 p q)

end PadRows

/-! ## A vector written into the head of a longer one: `[R]` into `[R']` at the one scatter index `0` -/

section PadVec
variable {α : Type} {w : Nat}

/-- The dimension numbers of `zeros([R']).at[:R].set(v)`: the update's axis is a window axis going to the operand's
    axis, no inserted axis, the one-component index vector (axis `0` of the scatter indices `[1]`) starts axis `0`;
    their conditions `wf` are decided on a program's literal shapes. -/
abbrev padVecDims (R R' : Nat) (wf : ScatterDims.WF ⟨1, ![R']⟩ ⟨1, ![1]⟩ ⟨1, ![R]⟩ [0] [] [0] 0) :
    ScatterDims ⟨1, ![R']⟩ ⟨1, ![1]⟩ ⟨1, ![R]⟩ where
  updateWindowDims := [0]
  insertedWindowDims := []
  scatterDimsToOperandDims := [0]
  indexVectorDim := 0
  wf := wf

/-- With every scatter index `0` the window starts at `0`. -/
theorem padVec_start {R R' : Nat} (wf : ScatterDims.WF ⟨1, ![R']⟩ ⟨1, ![1]⟩ ⟨1, ![R]⟩ [0] [] [0] 0)
    (idx : IVec ⟨1, ![1]⟩ w) (h0 : ∀ k, (idx k).toInt = 0) (j : (⟨1, ![R]⟩ : Shape).Idx)
    (a : Fin 1) : (padVecDims R R' wf).start j idx a = 0 := by
  unfold ScatterDims.start
  split
  · exact h0 _
  · rfl

/-- The window coordinate on the operand's axis is the update index's coordinate. -/
theorem padVec_window {R R' : Nat} (wf : ScatterDims.WF ⟨1, ![R']⟩ ⟨1, ![1]⟩ ⟨1, ![R]⟩ [0] [] [0] 0)
    (j : (⟨1, ![R]⟩ : Shape).Idx) (a : Fin 1) : (padVecDims R R' wf).window j a = (j a).val := by
  have hm : a ∈ (padVecDims R R' wf).sKept := List.mem_filter.2 ⟨List.mem_finRange a, by simp⟩
  unfold ScatterDims.window
  rw [dif_pos hm]
  match a with
  | ⟨0, _⟩ => rfl

/-- Update index `p` lands on operand index `p`. -/
theorem padVec_resultIdx {R R' : Nat} (wf : ScatterDims.WF ⟨1, ![R']⟩ ⟨1, ![1]⟩ ⟨1, ![R]⟩ [0] [] [0] 0)
    (idx : IVec ⟨1, ![1]⟩ w) (h0 : ∀ k, (idx k).toInt = 0) (hR : R ≤ R') (j : (⟨1, ![R]⟩ : Shape).Idx) :
    (padVecDims R R' wf).resultIdx? j idx = some (ix1 ⟨(j 0).val, lt_of_lt_of_le (j 0).isLt hR⟩) := by
  have hj : (j 0).val < R := (j 0).isLt
  have hc : ∀ a : Fin 1, 0 ≤ (padVecDims R R' wf).start j idx a + (padVecDims R R' wf).window j a ∧
      (padVecDims R R' wf).start j idx a + (padVecDims R R' wf).window j a
        < ((⟨1, ![R']⟩ : Shape).size a : Nat) := by
    intro a
    rw [padVec_start wf idx h0 j a, padVec_window wf j a]
    match a with
    | ⟨0, _⟩ => exact ⟨by omega, by show (0 : Int) + ((j 0).val : Int) < (R' : Int); omega⟩
  unfold ScatterDims.resultIdx?
  rw [dif_pos hc]
  congr 1
  funext a
  refine Fin.ext ?_
  show ((padVecDims R R' wf).start j idx a + (padVecDims R R' wf).window j a).toNat = _
  rw [padVec_start wf idx h0 j a, padVec_window wf j a]
  match a with
  | ⟨0, _⟩ => show ((0 : Int) + ((j 0).val : Int)).toNat = (j 0).val; omega

/-- THE VECTOR WRITTEN INTO THE HEAD, READ INSIDE THE HEAD: the written vector's element. -/
theorem padVec_apply {R R' : Nat} (wf : ScatterDims.WF ⟨1, ![R']⟩ ⟨1, ![1]⟩ ⟨1, ![R]⟩ [0] [] [0] 0)
    (x : (⟨1, ![R']⟩ : Shape).Idx → α) (idx : IVec ⟨1, ![1]⟩ w) (upd : (⟨1, ![R]⟩ : Shape).Idx → α)
    (h0 : ∀ k, (idx k).toInt = 0) (hR : R ≤ R') (p : Fin R) :
    Host.scatter (padVecDims R R' wf) (fun _ b => b) x idx upd (ix1 ⟨p.val, lt_of_lt_of_le p.isLt hR⟩)
      = upd (ix1 p) := by
  refine scatter_set_hit (padVecDims R R' wf) x idx upd ?_ (ix1 p) _ ?_
  · intro j j' i hj hj'
    rw [padVec_resultIdx wf idx h0 hR j] at hj
    rw [padVec_resultIdx wf idx h0 hR j'] at hj'
    have e := (Option.some.inj hj).trans (Option.some.inj hj').symm
    have e0 : (j 0).val = (j' 0).val := by
      have := congrArg Fin.val (congrFun e ⟨0, Nat.zero_lt_one⟩); exact this
    rw [eq_ix1 j, eq_ix1 j', Fin.ext e0]
  · exact padVec_resultIdx wf idx h0 hR (ix1 p)

end PadVec

end Cert.Lib

end
-- ==== Proof.TrilScatter.lean ====
/-
  The final scatter of the reference program, read at an index.

  The program writes a batch of 21-vectors into a batch of zero 6 × 6 matrices: entry k of each vector goes to the row
  and the column the constant table gives for k, which is the k-th element of the lower triangle in row-major order.
  No two entries go to the same place, an element (r, c) with c ≤ r receives entry r(r+1)/2 + c, and an element above
  the diagonal receives nothing and keeps the operand's value.
-/
import proofs.«175767_j13322988552601_1_alg».proof.Proof.TrilTable
import proofs.«175767_j13322988552601_1_alg».proof.Proof.LibScatterSet

noncomputable section

namespace Cert.ReferenceIdeal.Tril

open Cert.ReferenceIdeal Cert.ReferenceIdeal.Gen Idealize.ShloMosaic Idealize.ShloMosaic.ValueIdx

/-! ## Arithmetic of the triangle -/

/-- Every row number of the table is below 6 and reads back from its word as itself. -/
theorem trilRow_word : ∀ i : Fin 21, trilRow i < 6 ∧ (BitVec.ofNat 32 (trilRow i)).toInt = (trilRow i : Int) := by decide
/-- Every column number of the table is below 6 and reads back from its word as itself. -/
theorem trilCol_word : ∀ i : Fin 21, trilCol i < 6 ∧ (BitVec.ofNat 32 (trilCol i)).toInt = (trilCol i : Int) := by decide
/-- The table lists elements on or below the diagonal. -/
theorem trilCol_le_row : ∀ i : Fin 21, trilCol i ≤ trilRow i := by decide
/-- The table lists no element twice. -/
theorem tril_inj : ∀ i i' : Fin 21, trilRow i = trilRow i' → trilCol i = trilCol i' → i = i' := by decide
/-- The position r(r+1)/2 + c of an element on or below the diagonal is below 21. -/
theorem trilPos_lt : ∀ r c : Fin 6, c.val ≤ r.val → r.val * (r.val + 1) / 2 + c.val < 21 := by decide
/-- The table's entry at that position is the element. -/
theorem tril_at_pos : ∀ (r c : Fin 6) (h : c.val ≤ r.val),
    trilRow ⟨r.val * (r.val + 1) / 2 + c.val, trilPos_lt r c h⟩ = r.val ∧
    trilCol ⟨r.val * (r.val + 1) / 2 + c.val, trilPos_lt r c h⟩ = c.val := by decide

/-! ## A scatter's landing index from its coordinates -/

section Generic
variable {s si u : Shape} {w : Nat}

/-- An update index lands on `i` when on every axis the start plus the window coordinate is `i`'s coordinate. -/
theorem resultIdx?_eq_some (d : ScatterDims s si u) (j : u.Idx) (idx : IVec si w) (i : s.Idx)
    (h : ∀ a, d.start j idx a + d.window j a = ((i a).val : Int)) : d.resultIdx? j idx = some i := by
  have hc : ∀ a, 0 ≤ d.start j idx a + d.window j a ∧ d.start j idx a + d.window j a < s.size a := by
    intro a
    rw [h a]
    exact ⟨Int.natCast_nonneg _, by exact_mod_cast (i a).isLt⟩
  unfold ScatterDims.resultIdx?
  rw [dif_pos hc]
  congr 1
  funext a
  refine Fin.ext ?_
  show (d.start j idx a + d.window j a).toNat = (i a).val
  rw [h a]
  exact Int.toNat_natCast _

end Generic

/-! ## The final scatter's dimension numbers -/

/-- The dimension numbers of the final scatter: the batch axis is the window, the two matrix axes are indexed. -/
abbrev trilDims : ScatterDims S262144x6x6 S21x2 S262144x21 := scatter_S262144x6x6_S21x2_S262144x21_0_12_12_1

section Dims
variable {w : Nat}

/-- The batch axis is not indexed: its window starts at zero. -/
theorem trilDims_start0 (b : Fin 262144) (i : Fin 21) (idx : IVec S21x2 w) :
    trilDims.start (ix2 b i) idx (0 : Fin 3) = 0 := by
  unfold ScatterDims.start
  exact dif_neg (by decide)

/-- The row axis starts at the first component of the table's entry. -/
theorem trilDims_start1 (b : Fin 262144) (i : Fin 21) (idx : IVec S21x2 w) :
    trilDims.start (ix2 b i) idx (1 : Fin 3) = (idx (ix2 i (0 : Fin 2))).toInt := by
  unfold ScatterDims.start
  rw [dif_pos (show (1 : Fin 3) ∈ trilDims.scatterDimsToOperandDims by decide)]
  have hsi : trilDims.siIdx (ix2 b i) ⟨List.idxOf (1 : Fin 3) trilDims.scatterDimsToOperandDims,
      List.idxOf_lt_length_iff.2 (by decide)⟩ = ix2 i (0 : Fin 2) := by
    funext a; refine Fin.ext ?_
    match a with
    | ⟨0, _⟩ => rfl
    | ⟨1, _⟩ => rfl
  rw [hsi]

/-- The column axis starts at the second component of the table's entry. -/
theorem trilDims_start2 (b : Fin 262144) (i : Fin 21) (idx : IVec S21x2 w) :
    trilDims.start (ix2 b i) idx (2 : Fin 3) = (idx (ix2 i (1 : Fin 2))).toInt := by
  unfold ScatterDims.start
  rw [dif_pos (show (2 : Fin 3) ∈ trilDims.scatterDimsToOperandDims by decide)]
  have hsi : trilDims.siIdx (ix2 b i) ⟨List.idxOf (2 : Fin 3) trilDims.scatterDimsToOperandDims,
      List.idxOf_lt_length_iff.2 (by decide)⟩ = ix2 i (1 : Fin 2) := by
    funext a; refine Fin.ext ?_
    match a with
    | ⟨0, _⟩ => rfl
    | ⟨1, _⟩ => rfl
  rw [hsi]

/-- The window coordinate on the batch axis is the update's batch coordinate. -/
theorem trilDims_window0 (b : Fin 262144) (i : Fin 21) : trilDims.window (ix2 b i) (0 : Fin 3) = b.val := by
  unfold ScatterDims.window
  rw [dif_pos (show (0 : Fin 3) ∈ trilDims.sKept by decide)]
  rfl

/-- The row axis is inserted: no window coordinate. -/
theorem trilDims_window1 (b : Fin 262144) (i : Fin 21) : trilDims.window (ix2 b i) (1 : Fin 3) = 0 := by
  unfold ScatterDims.window
  exact dif_neg (by decide)

/-- The column axis is inserted: no window coordinate. -/
theorem trilDims_window2 (b : Fin 262144) (i : Fin 21) : trilDims.window (ix2 b i) (2 : Fin 3) = 0 := by
  unfold ScatterDims.window
  exact dif_neg (by decide)

end Dims

/-! ## Where the updates land -/

/-- Update (b, i) lands on element (row i, column i) of matrix b. -/
theorem trilDims_resultIdx (b : Fin 262144) (i : Fin 21) :
    trilDims.resultIdx? (ix2 b i) (idxTerm (F := Ideal))
      = some (ix3 b (⟨trilRow i, (trilRow_word i).1⟩ : Fin 6) (⟨trilCol i, (trilCol_word i).1⟩ : Fin 6)) := by
  refine resultIdx?_eq_some trilDims _ _ _ ?_
  intro a
  match a with
  | ⟨0, _⟩ =>
    show trilDims.start (ix2 b i) (idxTerm (F := Ideal)) (0 : Fin 3) + trilDims.window (ix2 b i) (0 : Fin 3) = (b.val : Int)
    rw [trilDims_start0, trilDims_window0]; omega
  | ⟨1, _⟩ =>
    show trilDims.start (ix2 b i) (idxTerm (F := Ideal)) (1 : Fin 3) + trilDims.window (ix2 b i) (1 : Fin 3) = (trilRow i : Int)
    rw [trilDims_start1, trilDims_window1, idxTerm_row, (trilRow_word i).2]; omega
  | ⟨2, _⟩ =>
    show trilDims.start (ix2 b i) (idxTerm (F := Ideal)) (2 : Fin 3) + trilDims.window (ix2 b i) (2 : Fin 3) = (trilCol i : Int)
    rw [trilDims_start2, trilDims_window2, idxTerm_col, (trilCol_word i).2]; omega

/-- No two updates land on the same element. -/
theorem trilDims_inj (j j' : S262144x21.Idx) (t : S262144x6x6.Idx)
    (h : trilDims.resultIdx? j (idxTerm (F := Ideal)) = some t)
    (h' : trilDims.resultIdx? j' (idxTerm (F := Ideal)) = some t) : j = j' := by
  obtain ⟨b, i, rfl⟩ : ∃ (b : Fin 262144) (i : Fin 21), j = ix2 b i := ⟨j 0, j 1, eq_ix2 j⟩
  obtain ⟨b', i', rfl⟩ : ∃ (b' : Fin 262144) (i' : Fin 21), j' = ix2 b' i' := ⟨j' 0, j' 1, eq_ix2 j'⟩
  rw [trilDims_resultIdx] at h h'
  have e := (Option.some.inj h).trans (Option.some.inj h').symm
  have h0 : 0 < 3 := by decide
  have h1 : 1 < 3 := by decide
  have h2 : 2 < 3 := by decide
  have e0 : b.val = b'.val := by
    have := congrArg Fin.val (congrFun e ⟨0, h0⟩); exact this
  have e1 : trilRow i = trilRow i' := by
    have := congrArg Fin.val (congrFun e ⟨1, h1⟩); exact this
  have e2 : trilCol i = trilCol i' := by
    have := congrArg Fin.val (congrFun e ⟨2, h2⟩); exact this
  rw [Fin.ext e0, tril_inj i i' e1 e2]

/-! ## The scatter read at an index -/

/-- THE FINAL SCATTER AT ELEMENT (r, c) OF MATRIX b: entry r(r+1)/2 + c of vector b on or below the diagonal, the
    operand's element above it. -/
theorem scatter_tril_apply {α : Type} (x : S262144x6x6.Idx → α) (upd : S262144x21.Idx → α)
    (b : Fin 262144) (r c : Fin 6) :
    Host.scatter scatter_S262144x6x6_S21x2_S262144x21_0_12_12_1 (fun _ u => u) x (idxTerm (F := Ideal)) upd (ix3 b r c)
      = if h : c.val ≤ r.val then upd (ix2 b (⟨r.val * (r.val + 1) / 2 + c.val, trilPos_lt r c h⟩ : Fin 21))
        else x (ix3 b r c) := by
  by_cases h : c.val ≤ r.val
  · rw [dif_pos h]
    refine Cert.Lib.scatter_set_hit trilDims x _ upd (fun j j' t => trilDims_inj j j' t)
      (ix2 b (⟨r.val * (r.val + 1) / 2 + c.val, trilPos_lt r c h⟩ : Fin 21)) _ ?_
    rw [trilDims_resultIdx]
    have hp := tril_at_pos r c h
    congr 1
    funext a
    match a with
    | ⟨0, _⟩ => rfl
    | ⟨1, _⟩ => exact Fin.ext hp.1
    | ⟨2, _⟩ => exact Fin.ext hp.2
  · rw [dif_neg h]
    refine Cert.Lib.scatter_set_miss trilDims x _ upd _ ?_
    intro j hj
    obtain ⟨b', i, rfl⟩ : ∃ (b' : Fin 262144) (i : Fin 21), j = ix2 b' i := ⟨j 0, j 1, eq_ix2 j⟩
    rw [trilDims_resultIdx] at hj
    have e := Option.some.inj hj
    have h1 : 1 < 3 := by decide
    have h2 : 2 < 3 := by decide
    have e1 : trilRow i = r.val := by
      have := congrArg Fin.val (congrFun e ⟨1, h1⟩); exact this
    have e2 : trilCol i = c.val := by
      have := congrArg Fin.val (congrFun e ⟨2, h2⟩); exact this
    have := trilCol_le_row i
    omega

end Cert.ReferenceIdeal.Tril

end
-- ==== Proof.RefValue.lean ====
/-
  The reference program's two results as the specification's arrays.

  The mean output is the mean head of every batch row. The Cholesky output is a batch of zero 6 × 6 matrices into
  which the 21 numbers of each row's Cholesky-vector head are written at the positions of the lower triangle: read at
  element (r, c) of matrix b it is entry r(r+1)/2 + c of row b's vector on or below the diagonal, and the zero the
  matrices were filled with above it — the specification's lower-triangular fill.
-/
import proofs.«175767_j13322988552601_1_alg».proof.Proof.RefRead
import proofs.«175767_j13322988552601_1_alg».proof.Proof.TrilScatter

noncomputable section

namespace Cert.ReferenceIdeal.RefValue

open Cert.ReferenceIdeal Cert.ReferenceIdeal.Gen Idealize.ShloMosaic Idealize.ShloMosaic.ValueIdx
open Cert.ReferenceIdeal.RefRead Cert.MlpSpec

variable (a0 : FVec Ideal S262144x24 .f32) (a1 : FVec Ideal S100x24 .f32) (a2 : FVec Ideal S100 .f32)
  (a3 : FVec Ideal S100x100 .f32) (a4 : FVec Ideal S100 .f32)

/-- The mean output is the specification's mean array. -/
theorem mean_eq (a5 : FVec Ideal S6x100 .f32) (a6 : FVec Ideal S6 .f32) :
    RefTerms.meanT a0 a1 a2 a3 a4 a5 a6 = MlpSpec.Gmean a0 a1 a2 a3 a4 a5 a6 := by
  funext i
  obtain ⟨b, a, rfl⟩ : ∃ (b : Fin 262144) (a : Fin 6), i = ix2 b a := ⟨i 0, i 1, eq_ix2 i⟩
  rw [meanT_apply]
  rfl

/-- The Cholesky output — the Cholesky-vector head scattered into zero matrices at the table's positions — is the
    specification's Cholesky array. -/
theorem chol_eq (a7 : FVec Ideal S21x100 .f32) (a8 : FVec Ideal S21 .f32) :
    Host.scatter scatter_S262144x6x6_S21x2_S262144x21_0_12_12_1 (fun _ b => b)
        (broadcastInDim S262144x6x6 ![] bcast_S_S262144x6x6 (constant (F := Ideal) S_ .f32 0x00000000#32))
        (Tril.idxTerm (F := Ideal)) (RefTerms.cholVecT a0 a1 a2 a3 a4 a7 a8)
      = MlpSpec.Gchol a0 a1 a2 a3 a4 a7 a8 := by
  funext i
  obtain ⟨b, r, c, rfl⟩ : ∃ (b : Fin 262144) (r c : Fin 6), i = ix3 b r c := ⟨i 0, i 1, i 2, eq_ix3 i⟩
  rw [Tril.scatter_tril_apply]
  show _ = cholRow (cholVecRow a1 a2 a3 a4 (rowOf a0 b) a7 a8) r c
  unfold cholRow
  by_cases h : c.val ≤ r.val
  · rw [dif_pos h, dif_pos h, cholVecT_apply]
    rfl
  · rw [dif_neg h, dif_neg h]
    rfl

end Cert.ReferenceIdeal.RefValue

end
-- ==== Proof.lean ====
/-
  The claims of this certificate.

  Both programs compute, for every batch row x of the 262144 by 24 input, two rectified affine layers
  h1 = max (W1 x + b1) 0 and h2 = max (W2 h1 + b2) 0, the mean head tanh (Wm h2 + bm) and the Cholesky-vector head
  softplus (Wc h2 + bc), and place the 21 softplus values in the lower triangle of a 6 by 6 matrix, zero above the
  diagonal.  The kernel does it 2048 rows at a time, rounds the operands of its products to bf16 on the way in (at the
  extended reals a change of format is the identity), and fills the triangle by a product with a constant 21 by 36
  matrix of zeros and ones followed by a reshape; the reference fills it by a scatter at the positions of the lower
  triangle, which it computes from no input at all.  At the extended reals each matrix product is the same finite sum
  of products on both sides, a zero of the selection matrix annihilates every extended real and a one keeps it, so no
  finiteness of the inputs is used: the two results are one function of the arguments, entry by entry.

  The frames of the two kernel programs are the generated ones; the reference's frame is its run with the results
  dropped; the idealization rewrote nothing, so what it preserves is trivial.
-/
import proofs.«175767_j13322988552601_1_alg».proof.Defs
import proofs.«175767_j13322988552601_1_alg».proof.Proof.Gen.Kernel
import proofs.«175767_j13322988552601_1_alg».proof.Proof.Gen.Kernel.Frame
import proofs.«175767_j13322988552601_1_alg».proof.Proof.Gen.KernelIdeal
import proofs.«175767_j13322988552601_1_alg».proof.Proof.Gen.KernelIdeal.Frame
import proofs.«175767_j13322988552601_1_alg».proof.Proof.Gen.ReferenceIdeal
import proofs.«175767_j13322988552601_1_alg».proof.Proof.Gen.Pre_finite_inputs
import proofs.«175767_j13322988552601_1_alg».proof.Proof.KernelRun
import proofs.«175767_j13322988552601_1_alg».proof.Proof.RefRun
import proofs.«175767_j13322988552601_1_alg».proof.Proof.RefValue

noncomputable section

namespace Cert.Proof

open Idealize.ShloMosaic Idealize.SL.Sem Cert.MlpSpec

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The idealization rewrote no operation. -/
theorem preserves : Cert.preserves_Kernel_KernelIdeal := trivial

/-- Both programs end with the mean function and the lower-triangular fill of the softplus head of the arguments. -/
theorem algebraic : Cert.algebraic_KernelIdeal_ReferenceIdeal := by
  intro m ρ m' ρ' _ hagree
  refine ⟨fun c => Gmean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Gchol (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KVal.run m ρ, ?_⟩
  refine (θ_run Cert.ReferenceIdeal.defs _ _).mono (fun _ h c => ⟨?_, ?_, (h c).2.2⟩)
    (Cert.ReferenceIdeal.RefRun.run (F := Ideal) m' ρ')
  · obtain ⟨g0, g1, g2, g3, g4, g5, g6, g7, g8⟩ := hagree c
    rw [(h c).1, Cert.ReferenceIdeal.RefValue.mean_eq, g0, g1, g2, g3, g4, g5, g6]
  · obtain ⟨g0, g1, g2, g3, g4, g5, g6, g7, g8⟩ := hagree c
    rw [(h c).2.1, Cert.ReferenceIdeal.RefValue.chol_eq, g0, g1, g2, g3, g4, g7, g8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
